-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S378x512 : Shape := ⟨2, ![378, 512]⟩
abbrev S1x256 : Shape := ⟨2, ![1, 256]⟩
abbrev S2304x256 : Shape := ⟨2, ![2304, 256]⟩
abbrev S1x128 : Shape := ⟨2, ![1, 128]⟩
abbrev S4x128x128 : Shape := ⟨3, ![4, 128, 128]⟩
abbrev S128x128 : Shape := ⟨2, ![128, 128]⟩
abbrev S1024x3x14x14x14 : Shape := ⟨5, ![1024, 3, 14, 14, 14]⟩
abbrev S_ : Shape := ⟨0, ![]⟩

class Facts : Prop where
  bitsLt_bf16_f32 : FTy.bits .bf16 < FTy.bits .f32
  bcast_S_S378x512 : S_.BroadcastsInDim S378x512 (![] : Fin 0 → Fin S378x512.rank)
  reducesTo_S378x512_S_d0_1 : S378x512.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S2304x256 : S_.BroadcastsInDim S2304x256 (![] : Fin 0 → Fin S2304x256.rank)
  reducesTo_S2304x256_S_d0_1 : S2304x256.ReducesTo [0, 1] S_
  bcast_S_S1x128 : S_.BroadcastsInDim S1x128 (![] : Fin 0 → Fin S1x128.rank)
  reducesTo_S1x128_S_d0_1 : S1x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S128x128 : S_.BroadcastsInDim S128x128 (![] : Fin 0 → Fin S128x128.rank)
  reducesTo_S128x128_S_d0_1 : S128x128.ReducesTo [0, 1] S_
  bcast_S_S1024x3x14x14x14 : S_.BroadcastsInDim S1024x3x14x14x14 (![] : Fin 0 → Fin S1024x3x14x14x14.rank)
  reducesTo_S1024x3x14x14x14_S_d0_1_2_3_4 : S1024x3x14x14x14.ReducesTo [0, 1, 2, 3, 4] S_

variable [Facts]

def fn_part3 {F : FTy → Type} [FloatOps F] (main_arg10 : FVec F S1024x3x14x14x14 .f32) (main_v47 : IVec S_ 1) (main_v51 : IVec S_ 1) : IVec S_ 1 :=
  let main_v52 : IVec S_ 1 := andi main_v47 main_v51
  let main_v53 : FVec F S1024x3x14x14x14 .f32 := Host.absf main_arg10
  let main_cst_18 : FVec F S_ .f32 := constant S_ .f32 0x7F800000#32
  let main_v54 : FVec F S1024x3x14x14x14 .f32 := broadcastInDim S1024x3x14x14x14 ![] bcast_S_S1024x3x14x14x14 main_cst_18
  let main_v55 : IVec S1024x3x14x14x14 1 := cmpf .olt main_v53 main_v54
  let main_c_19 : IVec S_ 1 := constantI S_ 1 1#1
  let main_v56 : IVec S_ 1 := (fun x v => Host.reduce IntOp.andi x v reducesTo_S1024x3x14x14x14_S_d0_1_2_3_4 h_S_) main_v55 main_c_19
  let main_v57 : IVec S_ 1 := andi main_v52 main_v56
  main_v57

def fn_part2 {F : FTy → Type} [FloatOps F] (main_arg7 : FVec F S1x128 .f32) (main_arg8 : FVec F S128x128 .bf16) (main_arg9 : FVec F S1x128 .f32) (main_arg10 : FVec F S1024x3x14x14x14 .f32) (main_v31 : IVec S_ 1) (main_v34 : IVec S1x128 1) : IVec S_ 1 :=
  let main_c_11 : IVec S_ 1 := constantI S_ 1 1#1
  let main_v35 : IVec S_ 1 := (fun x v => Host.reduce IntOp.andi x v reducesTo_S1x128_S_d0_1 h_S_) main_v34 main_c_11
  let main_v36 : IVec S_ 1 := andi main_v31 main_v35
  let main_v37 : FVec F S1x128 .f32 := Host.absf main_arg7
  let main_cst_12 : FVec F S_ .f32 := constant S_ .f32 0x7F800000#32
  let main_v38 : FVec F S1x128 .f32 := broadcastInDim S1x128 ![] bcast_S_S1x128 main_cst_12
  let main_v39 : IVec S1x128 1 := cmpf .olt main_v37 main_v38
  let main_c_13 : IVec S_ 1 := constantI S_ 1 1#1
  let main_v40 : IVec S_ 1 := (fun x v => Host.reduce IntOp.andi x v reducesTo_S1x128_S_d0_1 h_S_) main_v39 main_c_13
  let main_v41 : IVec S_ 1 := andi main_v36 main_v40
  let main_v42 : FVec F S128x128 .f32 := (extf .f32 · bitsLt_bf16_f32) main_arg8
  let main_v43 : FVec F S128x128 .f32 := Host.absf main_v42
  let main_cst_14 : FVec F S_ .f32 := constant S_ .f32 0x7F800000#32
  let main_v44 : FVec F S128x128 .f32 := broadcastInDim S128x128 ![] bcast_S_S128x128 main_cst_14
  let main_v45 : IVec S128x128 1 := cmpf .olt main_v43 main_v44
  let main_c_15 : IVec S_ 1 := constantI S_ 1 1#1
  let main_v46 : IVec S_ 1 := (fun x v => Host.reduce IntOp.andi x v reducesTo_S128x128_S_d0_1 h_S_) main_v45 main_c_15
  let main_v47 : IVec S_ 1 := andi main_v41 main_v46
  let main_v48 : FVec F S1x128 .f32 := Host.absf main_arg9
  let main_cst_16 : FVec F S_ .f32 := constant S_ .f32 0x7F800000#32
  let main_v49 : FVec F S1x128 .f32 := broadcastInDim S1x128 ![] bcast_S_S1x128 main_cst_16
  let main_v50 : IVec S1x128 1 := cmpf .olt main_v48 main_v49
  let main_c_17 : IVec S_ 1 := constantI S_ 1 1#1
  let main_v51 : IVec S_ 1 := (fun x v => Host.reduce IntOp.andi x v reducesTo_S1x128_S_d0_1 h_S_) main_v50 main_c_17
  fn_part3 (F := F) main_arg10 main_v47 main_v51

def fn_part1 {F : FTy → Type} [FloatOps F] (main_arg4 : FVec F S4x128x128 .bf16) (main_arg5 : FVec F S1x128 .f32) (main_arg6 : FVec F S1x128 .f32) (main_arg7 : FVec F S1x128 .f32) (main_arg8 : FVec F S128x128 .bf16) (main_arg9 : FVec F S1x128 .f32) (main_arg10 : FVec F S1024x3x14x14x14 .f32) (main_v15 : IVec S_ 1) (main_v16 : FVec F S1x128 .f32) (main_cst_4 : FVec F S_ .f32) : IVec S_ 1 :=
  let main_v17 : FVec F S1x128 .f32 := broadcastInDim S1x128 ![] bcast_S_S1x128 main_cst_4
  let main_v18 : IVec S1x128 1 := cmpf .olt main_v16 main_v17
  let main_c_5 : IVec S_ 1 := constantI S_ 1 1#1
  let main_v19 : IVec S_ 1 := (fun x v => Host.reduce IntOp.andi x v reducesTo_S1x128_S_d0_1 h_S_) main_v18 main_c_5
  let main_v20 : IVec S_ 1 := andi main_v15 main_v19
  let main_v21 : FVec F S4x128x128 .f32 := (extf .f32 · bitsLt_bf16_f32) main_arg4
  let main_v22 : FVec F S4x128x128 .f32 := Host.absf main_v21
  let main_cst_6 : FVec F S_ .f32 := constant S_ .f32 0x7F800000#32
  let main_v23 : FVec F S4x128x128 .f32 := broadcastInDim S4x128x128 ![] bcast_S_S4x128x128 main_cst_6
  let main_v24 : IVec S4x128x128 1 := cmpf .olt main_v22 main_v23
  let main_c_7 : IVec S_ 1 := constantI S_ 1 1#1
  let main_v25 : IVec S_ 1 := (fun x v => Host.reduce IntOp.andi x v reducesTo_S4x128x128_S_d0_1_2 h_S_) main_v24 main_c_7
  let main_v26 : IVec S_ 1 := andi main_v20 main_v25
  let main_v27 : FVec F S1x128 .f32 := Host.absf main_arg5
  let main_cst_8 : FVec F S_ .f32 := constant S_ .f32 0x7F800000#32
  let main_v28 : FVec F S1x128 .f32 := broadcastInDim S1x128 ![] bcast_S_S1x128 main_cst_8
  let main_v29 : IVec S1x128 1 := cmpf .olt main_v27 main_v28
  let main_c_9 : IVec S_ 1 := constantI S_ 1 1#1
  let main_v30 : IVec S_ 1 := (fun x v => Host.reduce IntOp.andi x v reducesTo_S1x128_S_d0_1 h_S_) main_v29 main_c_9
  let main_v31 : IVec S_ 1 := andi main_v26 main_v30
  let main_v32 : FVec F S1x128 .f32 := Host.absf main_arg6
  let main_cst_10 : FVec F S_ .f32 := constant S_ .f32 0x7F800000#32
  let main_v33 : FVec F S1x128 .f32 := broadcastInDim S1x128 ![] bcast_S_S1x128 main_cst_10
  let main_v34 : IVec S1x128 1 := cmpf .olt main_v32 main_v33
  fn_part2 (F := F) main_arg7 main_arg8 main_arg9 main_arg10 main_v31 main_v34

def fn {F : FTy → Type} [FloatOps F] (main_arg0 : FVec F S378x512 .bf16) (main_arg1 : FVec F S1x256 .f32) (main_arg2 : FVec F S2304x256 .bf16) (main_arg3 : FVec F S1x128 .f32) (main_arg4 : FVec F S4x128x128 .bf16) (main_arg5 : FVec F S1x128 .f32) (main_arg6 : FVec F S1x128 .f32) (main_arg7 : FVec F S1x128 .f32) (main_arg8 : FVec F S128x128 .bf16) (main_arg9 : FVec F S1x128 .f32) (main_arg10 : FVec F S1024x3x14x14x14 .f32) : IVec S_ 1 :=
  let main_v0 : FVec F S378x512 .f32 := (extf .f32 · bitsLt_bf16_f32) main_arg0
  let main_v1 : FVec F S378x512 .f32 := Host.absf main_v0
  let main_cst : FVec F S_ .f32 := constant S_ .f32 0x7F800000#32
  let main_v2 : FVec F S378x512 .f32 := broadcastInDim S378x512 ![] bcast_S_S378x512 main_cst
  let main_v3 : IVec S378x512 1 := cmpf .olt main_v1 main_v2
  let main_c : IVec S_ 1 := constantI S_ 1 1#1
  let main_v4 : IVec S_ 1 := (fun x v => Host.reduce IntOp.andi x v reducesTo_S378x512_S_d0_1 h_S_) main_v3 main_c
  let main_v5 : FVec F S1x256 .f32 := Host.absf main_arg1
  let main_cst_0 : FVec F S_ .f32 := constant S_ .f32 0x7F800000#32
  let main_v6 : FVec F S1x256 .f32 := broadcastInDim S1x256 ![] bcast_S_S1x256 main_cst_0
  let main_v7 : IVec S1x256 1 := cmpf .olt main_v5 main_v6
  let main_c_1 : IVec S_ 1 := constantI S_ 1 1#1
  let main_v8 : IVec S_ 1 := (fun x v => Host.reduce IntOp.andi x v reducesTo_S1x256_S_d0_1 h_S_) main_v7 main_c_1
  let main_v9 : IVec S_ 1 := andi main_v4 main_v8
  let main_v10 : FVec F S2304x256 .f32 := (extf .f32 · bitsLt_bf16_f32) main_arg2
  let main_v11 : FVec F S2304x256 .f32 := Host.absf main_v10
  let main_cst_2 : FVec F S_ .f32 := constant S_ .f32 0x7F800000#32
  let main_v12 : FVec F S2304x256 .f32 := broadcastInDim S2304x256 ![] bcast_S_S2304x256 main_cst_2
  let main_v13 : IVec S2304x256 1 := cmpf .olt main_v11 main_v12
  let main_c_3 : IVec S_ 1 := constantI S_ 1 1#1
  let main_v14 : IVec S_ 1 := (fun x v => Host.reduce IntOp.andi x v reducesTo_S2304x256_S_d0_1 h_S_) main_v13 main_c_3
  let main_v15 : IVec S_ 1 := andi main_v9 main_v14
  let main_v16 : FVec F S1x128 .f32 := Host.absf main_arg3
  let main_cst_4 : FVec F S_ .f32 := constant S_ .f32 0x7F800000#32
  fn_part1 (F := F) main_arg4 main_arg5 main_arg6 main_arg7 main_arg8 main_arg9 main_arg10 main_v15 main_v16 main_cst_4
-- ==== Kernel.lean ====
abbrev S378x512 : Shape := ⟨2, ![378, 512]⟩
abbrev S1x256 : Shape := ⟨2, ![1, 256]⟩
abbrev S2304x256 : Shape := ⟨2, ![2304, 256]⟩
abbrev S1x128 : Shape := ⟨2, ![1, 128]⟩
abbrev S4x128x128 : Shape := ⟨3, ![4, 128, 128]⟩
abbrev S128x128 : Shape := ⟨2, ![128, 128]⟩
abbrev S1024x3x14x14x14 : Shape := ⟨5, ![1024, 3, 14, 14, 14]⟩
abbrev S14x14x1024x3x14 : Shape := ⟨5, ![14, 14, 1024, 3, 14]⟩
abbrev S14x14x1024x42 : Shape := ⟨4, ![14, 14, 1024, 42]⟩
abbrev S3x3x14x3x512 : Shape := ⟨5, ![3, 3, 14, 3, 512]⟩
abbrev S3x3x3x14x512 : Shape := ⟨5, ![3, 3, 3, 14, 512]⟩
abbrev S3x126x512 : Shape := ⟨3, ![3, 126, 512]⟩
abbrev S_ : Shape := ⟨0, ![]⟩
abbrev S3x128x512 : Shape := ⟨3, ![3, 128, 512]⟩
abbrev S384x512 : Shape := ⟨2, ![384, 512]⟩
abbrev S384x256 : Shape := ⟨2, ![384, 256]⟩
abbrev S512x128 : Shape := ⟨2, ![512, 128]⟩
abbrev S1024x128 : Shape := ⟨2, ![1024, 128]⟩
abbrev S14x14x64x42 : Shape := ⟨4, ![14, 14, 64, 42]⟩
abbrev S64x128 : Shape := ⟨2, ![64, 128]⟩
abbrev S14x12x64x2 : Shape := ⟨4, ![14, 12, 64, 2]⟩
abbrev S14x12x64x42 : Shape := ⟨4, ![14, 12, 64, 42]⟩
abbrev S14x12x64x128 : Shape := ⟨4, ![14, 12, 64, 128]⟩
abbrev S12x12x64x128 : Shape := ⟨4, ![12, 12, 64, 128]⟩
abbrev S12x12x64x384 : Shape := ⟨4, ![12, 12, 64, 384]⟩
abbrev S9216x384 : Shape := ⟨2, ![9216, 384]⟩
abbrev S9216x256 : Shape := ⟨2, ![9216, 256]⟩
abbrev S6x2x6x2x64x256 : Shape := ⟨6, ![6, 2, 6, 2, 64, 256]⟩
abbrev S6x1x6x1x64x256 : Shape := ⟨6, ![6, 1, 6, 1, 64, 256]⟩
abbrev S6x6x64x256 : Shape := ⟨4, ![6, 6, 64, 256]⟩
abbrev S1x1x1x256 : Shape := ⟨4, ![1, 1, 1, 256]⟩
abbrev S4x4x64x256 : Shape := ⟨4, ![4, 4, 64, 256]⟩
abbrev S4x4x64x2304 : Shape := ⟨4, ![4, 4, 64, 2304]⟩
abbrev S1024x2304 : Shape := ⟨2, ![1024, 2304]⟩
abbrev S1024x256 : Shape := ⟨2, ![1024, 256]⟩
abbrev S2x2x2x2x64x256 : Shape := ⟨6, ![2, 2, 2, 2, 64, 256]⟩
abbrev S2x1x2x1x64x128 : Shape := ⟨6, ![2, 1, 2, 1, 64, 128]⟩
abbrev S2x2x64x128 : Shape := ⟨4, ![2, 2, 64, 128]⟩
abbrev S1x1x1x128 : Shape := ⟨4, ![1, 1, 1, 128]⟩
abbrev S1x1x64x128 : Shape := ⟨4, ![1, 1, 64, 128]⟩
abbrev S64x512 : Shape := ⟨2, ![64, 512]⟩
abbrev S1024x10 : Shape := ⟨2, ![1024, 10]⟩

abbrev nBuf : Space → Nat
  | .hbm => 26
  | .vmem => 15
  | .smem => 0
  | _ => 0

abbrev bufTy : (tb : Table) → Fin (tcTables nBuf tb) → BufTy
  | .hbm, ⟨0, _⟩ => ⟨S378x512, .bf16⟩
  | .hbm, ⟨1, _⟩ => ⟨S1x256, .f32⟩
  | .hbm, ⟨2, _⟩ => ⟨S2304x256, .bf16⟩
  | .hbm, ⟨3, _⟩ => ⟨S1x128, .f32⟩
  | .hbm, ⟨4, _⟩ => ⟨S4x128x128, .bf16⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S128x128, .bf16⟩
  | .hbm, ⟨9, _⟩ => ⟨S1x128, .f32⟩
  | .hbm, ⟨10, _⟩ => ⟨S1024x3x14x14x14, .f32⟩
  | .hbm, ⟨11, _⟩ => ⟨S1024x3x14x14x14, .bf16⟩
  | .hbm, ⟨12, _⟩ => ⟨S14x14x1024x3x14, .bf16⟩
  | .hbm, ⟨13, _⟩ => ⟨S14x14x1024x42, .bf16⟩
  | .hbm, ⟨14, _⟩ => ⟨S3x3x14x3x512, .bf16⟩
  | .hbm, ⟨15, _⟩ => ⟨S3x3x3x14x512, .bf16⟩
  | .hbm, ⟨16, _⟩ => ⟨S3x126x512, .bf16⟩
  | .hbm, ⟨17, _⟩ => ⟨S_, .i32⟩
  | .hbm, ⟨18, _⟩ => ⟨S_, .bf16⟩
  | .hbm, ⟨19, _⟩ => ⟨S3x128x512, .bf16⟩
  | .hbm, ⟨20, _⟩ => ⟨S384x512, .bf16⟩
  | .hbm, ⟨21, _⟩ => ⟨S384x256, .bf16⟩
  | .hbm, ⟨22, _⟩ => ⟨S384x256, .bf16⟩
  | .hbm, ⟨23, _⟩ => ⟨S512x128, .bf16⟩
  | .hbm, ⟨24, _⟩ => ⟨S1024x128, .f32⟩
  | .hbm, ⟨25, _⟩ => ⟨S1024x10, .f32⟩
  | .local _ .vmem, ⟨0, _⟩ => ⟨S14x14x64x42, .bf16⟩
  | .local _ .vmem, ⟨1, _⟩ => ⟨S14x14x64x42, .bf16⟩
  | .local _ .vmem, ⟨2, _⟩ => ⟨S384x256, .bf16⟩
  | .local _ .vmem, ⟨3, _⟩ => ⟨S384x256, .bf16⟩
  | .local _ .vmem, ⟨4, _⟩ => ⟨S1x256, .f32⟩
  | .local _ .vmem, ⟨5, _⟩ => ⟨S2304x256, .bf16⟩
  | .local _ .vmem, ⟨6, _⟩ => ⟨S1x128, .f32⟩
  | .local _ .vmem, ⟨7, _⟩ => ⟨S512x128, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x128, .bf16⟩
  | .local _ .vmem, ⟨12, _⟩ => ⟨S1x128, .f32⟩
  | .local _ .vmem, ⟨13, _⟩ => ⟨S64x128, .f32⟩
  | .local _ .vmem, ⟨14, _⟩ => ⟨S64x128, .f32⟩
  | _, _ => ⟨S378x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S14x14x64x42 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  transposes_S1024x3x14x14x14_S14x14x1024x3x14_2_3_0_1_4 : S1024x3x14x14x14.Transposes [2, 3, 0, 1, 4] S14x14x1024x3x14
  shapeCasts_S14x14x1024x3x14_S14x14x1024x42 : S14x14x1024x3x14.ShapeCasts S14x14x1024x42
  shapeCasts_S378x512_S3x3x14x3x512 : S378x512.ShapeCasts S3x3x14x3x512
  transposes_S3x3x14x3x512_S3x3x3x14x512_0_1_3_2_4 : S3x3x14x3x512.Transposes [0, 1, 3, 2, 4] S3x3x3x14x512
  shapeCasts_S3x3x3x14x512_S3x126x512 : S3x3x3x14x512.ShapeCasts S3x126x512
  pads_S3x126x512_S3x128x512_000_020_000 : S3x126x512.Pads (![0, 0, 0] : Fin 3 → Nat) ![0, 2, 0] ![0, 0, 0] S3x128x512
  h_S_ : 0 < S_.numel
  shapeCasts_S3x128x512_S384x512 : S3x128x512.ShapeCasts S384x512
  slices_S384x512_S384x256_0_0 : S384x512.Slices ![0, 0] S384x256
  slices_S384x512_S384x256_0_256 : S384x512.Slices ![0, 256] S384x256
  shapeCasts_S4x128x128_S512x128 : S4x128x128.ShapeCasts S512x128
  inb_S14x14x64x42_S14x14x64x42_0_0_0_0 : ∀ a, (![0, 0, 0, 0] : Fin 4 → Nat) a + S14x14x64x42.size a ≤ S14x14x64x42.size a
  h_S14x14x64x42 : 0 < S14x14x64x42.numel
  shapeCasts_S14x14x64x42_S14x14x64x42 : S14x14x64x42.ShapeCasts S14x14x64x42
  slices_S14x14x64x42_o0_0_0_0_S14x12x64x42 : S14x14x64x42.Slices ![0, 0, 0, 0] S14x12x64x42
  slices_S14x14x64x42_o0_1_0_0_S14x12x64x42 : S14x14x64x42.Slices ![0, 1, 0, 0] S14x12x64x42
  slices_S14x14x64x42_o0_2_0_0_S14x12x64x42 : S14x14x64x42.Slices ![0, 2, 0, 0] S14x12x64x42
  concatenates_S14x12x64x42_S14x12x64x42_S14x12x64x42_S14x12x64x2_S14x12x64x128_d3 : Shape.Concatenates [S14x12x64x42, S14x12x64x42, S14x12x64x42, S14x12x64x2] S14x12x64x128 3
  slices_S14x12x64x128_o0_0_0_0_S12x12x64x128 : S14x12x64x128.Slices ![0, 0, 0, 0] S12x12x64x128
  slices_S14x12x64x128_o1_0_0_0_S12x12x64x128 : S14x12x64x128.Slices ![1, 0, 0, 0] S12x12x64x128
  slices_S14x12x64x128_o2_0_0_0_S12x12x64x128 : S14x12x64x128.Slices ![2, 0, 0, 0] S12x12x64x128
  concatenates_S12x12x64x128_S12x12x64x128_S12x12x64x128_S12x12x64x384_d3 : Shape.Concatenates [S12x12x64x128, S12x12x64x128, S12x12x64x128] S12x12x64x384 3
  shapeCasts_S12x12x64x384_S9216x384 : S12x12x64x384.ShapeCasts S9216x384
  inb_S384x256_S384x256_0_0 : ∀ a, (![0, 0] : Fin 2 → Nat) a + S384x256.size a ≤ S384x256.size a
  h_S384x256 : 0 < S384x256.numel
  shapeCasts_S384x256_S384x256 : S384x256.ShapeCasts S384x256
  shapeCasts_S9216x256_S6x2x6x2x64x256 : S9216x256.ShapeCasts S6x2x6x2x64x256
  slices_S6x2x6x2x64x256_o0_0_0_0_0_0_S6x1x6x1x64x256 : S6x2x6x2x64x256.Slices ![0, 0, 0, 0, 0, 0] S6x1x6x1x64x256
  shapeCasts_S6x1x6x1x64x256_S6x6x64x256 : S6x1x6x1x64x256.ShapeCasts S6x6x64x256
  slices_S6x2x6x2x64x256_o0_0_0_1_0_0_S6x1x6x1x64x256 : S6x2x6x2x64x256.Slices ![0, 0, 0, 1, 0, 0] S6x1x6x1x64x256
  slices_S6x2x6x2x64x256_o0_1_0_0_0_0_S6x1x6x1x64x256 : S6x2x6x2x64x256.Slices ![0, 1, 0, 0, 0, 0] S6x1x6x1x64x256
  slices_S6x2x6x2x64x256_o0_1_0_1_0_0_S6x1x6x1x64x256 : S6x2x6x2x64x256.Slices ![0, 1, 0, 1, 0, 0] S6x1x6x1x64x256
  inb_S1x256_S1x256_0_0 : ∀ a, (![0, 0] : Fin 2 → Nat) a + S1x256.size a ≤ S1x256.size a
  h_S1x256 : 0 < S1x256.numel
  shapeCasts_S1x256_S1x1x1x256 : S1x256.ShapeCasts S1x1x1x256
  broadcasts_S1x1x1x256_S6x6x64x256 : S1x1x1x256.Broadcasts S6x6x64x256
  slices_S6x6x64x256_o0_0_0_0_S4x4x64x256 : S6x6x64x256.Slices ![0, 0, 0, 0] S4x4x64x256
  slices_S6x6x64x256_o0_1_0_0_S4x4x64x256 : S6x6x64x256.Slices ![0, 1, 0, 0] S4x4x64x256
  slices_S6x6x64x256_o0_2_0_0_S4x4x64x256 : S6x6x64x256.Slices ![0, 2, 0, 0] S4x4x64x256
  slices_S6x6x64x256_o1_0_0_0_S4x4x64x256 : S6x6x64x256.Slices ![1, 0, 0, 0] S4x4x64x256
  slices_S6x6x64x256_o1_1_0_0_S4x4x64x256 : S6x6x64x256.Slices ![1, 1, 0, 0] S4x4x64x256
  slices_S6x6x64x256_o1_2_0_0_S4x4x64x256 : S6x6x64x256.Slices ![1, 2, 0, 0] S4x4x64x256
  slices_S6x6x64x256_o2_0_0_0_S4x4x64x256 : S6x6x64x256.Slices ![2, 0, 0, 0] S4x4x64x256
  slices_S6x6x64x256_o2_1_0_0_S4x4x64x256 : S6x6x64x256.Slices ![2, 1, 0, 0] S4x4x64x256
  slices_S6x6x64x256_o2_2_0_0_S4x4x64x256 : S6x6x64x256.Slices ![2, 2, 0, 0] S4x4x64x256
  concatenates_S4x4x64x256_S4x4x64x256_S4x4x64x256_S4x4x64x256_S4x4x64x256_S4x4x64x256_S4x4x64x256_S4x4x64x256_S4x4x64x256_S4x4x64x2304_d3 : Shape.Concatenates [S4x4x64x256, S4x4x64x256, S4x4x64x256, S4x4x64x256, S4x4x64x256, S4x4x64x256, S4x4x64x256, S4x4x64x256, S4x4x64x256] S4x4x64x2304 3
  shapeCasts_S4x4x64x2304_S1024x2304 : S4x4x64x2304.ShapeCasts S1024x2304
  inb_S2304x256_S2304x256_0_0 : ∀ a, (![0, 0] : Fin 2 → Nat) a + S2304x256.size a ≤ S2304x256.size a
  h_S2304x256 : 0 < S2304x256.numel
  shapeCasts_S1024x256_S2x2x2x2x64x256 : S1024x256.ShapeCasts S2x2x2x2x64x256
  slices_S2x2x2x2x64x256_o0_0_0_0_0_0_S2x1x2x1x64x128 : S2x2x2x2x64x256.Slices ![0, 0, 0, 0, 0, 0] S2x1x2x1x64x128
  shapeCasts_S2x1x2x1x64x128_S2x2x64x128 : S2x1x2x1x64x128.ShapeCasts S2x2x64x128
  slices_S2x2x2x2x64x256_o0_0_0_0_0_128_S2x1x2x1x64x128 : S2x2x2x2x64x256.Slices ![0, 0, 0, 0, 0, 128] S2x1x2x1x64x128
  slices_S2x2x2x2x64x256_o0_0_0_1_0_0_S2x1x2x1x64x128 : S2x2x2x2x64x256.Slices ![0, 0, 0, 1, 0, 0] S2x1x2x1x64x128
  slices_S2x2x2x2x64x256_o0_0_0_1_0_128_S2x1x2x1x64x128 : S2x2x2x2x64x256.Slices ![0, 0, 0, 1, 0, 128] S2x1x2x1x64x128
  slices_S2x2x2x2x64x256_o0_1_0_0_0_0_S2x1x2x1x64x128 : S2x2x2x2x64x256.Slices ![0, 1, 0, 0, 0, 0] S2x1x2x1x64x128
  slices_S2x2x2x2x64x256_o0_1_0_0_0_128_S2x1x2x1x64x128 : S2x2x2x2x64x256.Slices ![0, 1, 0, 0, 0, 128] S2x1x2x1x64x128
  slices_S2x2x2x2x64x256_o0_1_0_1_0_0_S2x1x2x1x64x128 : S2x2x2x2x64x256.Slices ![0, 1, 0, 1, 0, 0] S2x1x2x1x64x128
  slices_S2x2x2x2x64x256_o0_1_0_1_0_128_S2x1x2x1x64x128 : S2x2x2x2x64x256.Slices ![0, 1, 0, 1, 0, 128] S2x1x2x1x64x128
  inb_S1x128_S1x128_0_0 : ∀ a, (![0, 0] : Fin 2 → Nat) a + S1x128.size a ≤ S1x128.size a
  h_S1x128 : 0 < S1x128.numel
  shapeCasts_S1x128_S1x1x1x128 : S1x128.ShapeCasts S1x1x1x128
  broadcasts_S1x1x1x128_S2x2x64x128 : S1x1x1x128.Broadcasts S2x2x64x128
  slices_S2x2x64x128_o0_0_0_0_S1x1x64x128 : S2x2x64x128.Slices ![0, 0, 0, 0] S1x1x64x128
  shapeCasts_S1x1x64x128_S64x128 : S1x1x64x128.ShapeCasts S64x128
  slices_S2x2x64x128_o0_1_0_0_S1x1x64x128 : S2x2x64x128.Slices ![0, 1, 0, 0] S1x1x64x128
  slices_S2x2x64x128_o1_0_0_0_S1x1x64x128 : S2x2x64x128.Slices ![1, 0, 0, 0] S1x1x64x128
  slices_S2x2x64x128_o1_1_0_0_S1x1x64x128 : S2x2x64x128.Slices ![1, 1, 0, 0] S1x1x64x128
  concatenates_S64x128_S64x128_S64x128_S64x128_S64x512_d1 : Shape.Concatenates [S64x128, S64x128, S64x128, S64x128] S64x512 1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S64x128 : S1x128.Broadcasts S64x128
  inb_S128x128_S128x128_0_0 : ∀ a, (![0, 0] : Fin 2 → Nat) a + S128x128.size a ≤ S128x128.size a
  h_S128x128 : 0 < S128x128.numel
  inb_S64x128_S64x128_0_0 : ∀ a, (![0, 0] : Fin 2 → Nat) a + S64x128.size a ≤ S64x128.size a
  h_S64x128 : 0 < S64x128.numel
  slices_S1024x128_S1024x10_0_0 : S1024x128.Slices ![0, 0] S1024x10
  dot_S9216x384_S384x256_S9216x256_1_0_0_1_n_n_wf : DotDims.WF S9216x384 S384x256 S9216x256 [1] [0] [0] [1] [] []
  dot_S1024x2304_S2304x256_S1024x256_1_0_0_1_n_n_wf : DotDims.WF S1024x2304 S2304x256 S1024x256 [1] [0] [0] [1] [] []
  dot_S64x512_S512x128_S64x128_1_0_0_1_n_n_wf : DotDims.WF S64x512 S512x128 S64x128 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S14x14x64x42.size a ≤ S14x14x1024x42.size a
  hwx0_0 : ∀ i : grid0.Coords, EltTy.bits .bf16 = 32 ∨ (Rect.block (s := S14x14x1024x42) S14x14x64x42.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x256.size a ≤ S384x256.size a
  hwx0_1 : ∀ i : grid0.Coords, EltTy.bits .bf16 = 32 ∨ (Rect.block (s := S384x256) S384x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x256.size a ≤ S384x256.size a
  hwx0_2 : ∀ i : grid0.Coords, EltTy.bits .bf16 = 32 ∨ (Rect.block (s := S384x256) S384x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2304x256.size a ≤ S2304x256.size a
  hwx0_4 : ∀ i : grid0.Coords, EltTy.bits .bf16 = 32 ∨ (Rect.block (s := S2304x256) S2304x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .bf16 = 32 ∨ (Rect.block (s := S512x128) S512x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x128.size a ≤ S1024x128.size a
  hwx0_12 : ∀ i : grid0.Coords, EltTy.bits .f32 = 32 ∨ (Rect.block (s := S1024x128) S64x128.size (cc0_transform_12 i) (hinb0_12 i)).WholeWords (EltTy.packing .f32)

variable [Facts₀]

def dot_S9216x384_S384x256_S9216x256_1_0_0_1_n_n : DotDims S9216x384 S384x256 S9216x256 where
  lhsContracting := [1]
  rhsContracting := [0]
  lhsNonContracting := [0]
  rhsNonContracting := [1]
  lhsBatch := []
  rhsBatch := []
  wf := dot_S9216x384_S384x256_S9216x256_1_0_0_1_n_n_wf
def dot_S1024x2304_S2304x256_S1024x256_1_0_0_1_n_n : DotDims S1024x2304 S2304x256 S1024x256 where
  lhsContracting := [1]
  rhsContracting := [0]
  lhsNonContracting := [0]
  rhsNonContracting := [1]
  lhsBatch := []
  rhsBatch := []
  wf := dot_S1024x2304_S2304x256_S1024x256_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_v2) S14x14x64x42.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S384x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S2304x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S64x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S378x512 : Shape := ⟨2, ![378, 512]⟩
abbrev S1x256 : Shape := ⟨2, ![1, 256]⟩
abbrev S2304x256 : Shape := ⟨2, ![2304, 256]⟩
abbrev S1x128 : Shape := ⟨2, ![1, 128]⟩
abbrev S4x128x128 : Shape := ⟨3, ![4, 128, 128]⟩
abbrev S128x128 : Shape := ⟨2, ![128, 128]⟩
abbrev S1024x3x14x14x14 : Shape := ⟨5, ![1024, 3, 14, 14, 14]⟩
abbrev S1024x14x14x14x3 : Shape := ⟨5, ![1024, 14, 14, 14, 3]⟩
abbrev S1024x14x14x42 : Shape := ⟨4, ![1024, 14, 14, 42]⟩
abbrev S1024x1x128 : Shape := ⟨3, ![1024, 1, 128]⟩
abbrev S1x14x14x42 : Shape := ⟨4, ![1, 14, 14, 42]⟩
abbrev S1x1x128 : Shape := ⟨3, ![1, 1, 128]⟩
abbrev S1x1x12x42 : Shape := ⟨4, ![1, 1, 12, 42]⟩
abbrev S12x42 : Shape := ⟨2, ![12, 42]⟩
abbrev S12x126 : Shape := ⟨2, ![12, 126]⟩
abbrev S12x378 : Shape := ⟨2, ![12, 378]⟩
abbrev S144x378 : Shape := ⟨2, ![144, 378]⟩
abbrev S144x512 : Shape := ⟨2, ![144, 512]⟩
abbrev S144x256 : Shape := ⟨2, ![144, 256]⟩
abbrev S12x256 : Shape := ⟨2, ![12, 256]⟩
abbrev S36x256 : Shape := ⟨2, ![36, 256]⟩
abbrev S4x256 : Shape := ⟨2, ![4, 256]⟩
abbrev S4x2304 : Shape := ⟨2, ![4, 2304]⟩
abbrev S16x2304 : Shape := ⟨2, ![16, 2304]⟩
abbrev S16x256 : Shape := ⟨2, ![16, 256]⟩
abbrev S16x128 : Shape := ⟨2, ![16, 128]⟩
abbrev S4x128 : Shape := ⟨2, ![4, 128]⟩
abbrev S1x128x128 : Shape := ⟨3, ![1, 128, 128]⟩
abbrev S1024x128 : Shape := ⟨2, ![1024, 128]⟩
abbrev S1024x10 : Shape := ⟨2, ![1024, 10]⟩

abbrev nBuf : Space → Nat
  | .hbm => 16
  | .vmem => 14
  | .smem => 0
  | _ => 0

abbrev bufTy : (tb : Table) → Fin (tcTables nBuf tb) → BufTy
  | .hbm, ⟨0, _⟩ => ⟨S378x512, .bf16⟩
  | .hbm, ⟨1, _⟩ => ⟨S1x256, .f32⟩
  | .hbm, ⟨2, _⟩ => ⟨S2304x256, .bf16⟩
  | .hbm, ⟨3, _⟩ => ⟨S1x128, .f32⟩
  | .hbm, ⟨4, _⟩ => ⟨S4x128x128, .bf16⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S128x128, .bf16⟩
  | .hbm, ⟨9, _⟩ => ⟨S1x128, .f32⟩
  | .hbm, ⟨10, _⟩ => ⟨S1024x3x14x14x14, .f32⟩
  | .hbm, ⟨11, _⟩ => ⟨S1024x14x14x14x3, .f32⟩
  | .hbm, ⟨12, _⟩ => ⟨S1024x14x14x42, .f32⟩
  | .hbm, ⟨13, _⟩ => ⟨S1024x1x128, .f32⟩
  | .hbm, ⟨14, _⟩ => ⟨S1024x128, .f32⟩
  | .hbm, ⟨15, _⟩ => ⟨S1024x10, .f32⟩
  | .local _ .vmem, ⟨0, _⟩ => ⟨S1x14x14x42, .f32⟩
  | .local _ .vmem, ⟨1, _⟩ => ⟨S1x14x14x42, .f32⟩
  | .local _ .vmem, ⟨2, _⟩ => ⟨S378x512, .bf16⟩
  | .local _ .vmem, ⟨3, _⟩ => ⟨S1x256, .f32⟩
  | .local _ .vmem, ⟨4, _⟩ => ⟨S2304x256, .bf16⟩
  | .local _ .vmem, ⟨5, _⟩ => ⟨S1x128, .f32⟩
  | .local _ .vmem, ⟨6, _⟩ => ⟨S4x128x128, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S1x1x128, .f32⟩
  | .local _ .vmem, ⟨13, _⟩ => ⟨S1x1x128, .f32⟩
  | _, _ => ⟨S378x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![1024], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x14x14x42 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S378x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S1024x3x14x14x14_S1024x14x14x14x3_0_2_3_4_1 : S1024x3x14x14x14.Transposes [0, 2, 3, 4, 1] S1024x14x14x14x3
  shapeCasts_S1024x14x14x14x3_S1024x14x14x42 : S1024x14x14x14x3.ShapeCasts S1024x14x14x42
  inb_S1x14x14x42_S1x1x12x42_0_0_0_0 : ∀ a, (![0, 0, 0, 0] : Fin 4 → Nat) a + S1x1x12x42.size a ≤ S1x14x14x42.size a
  h_S1x1x12x42 : 0 < S1x1x12x42.numel
  shapeCasts_S1x1x12x42_S12x42 : S1x1x12x42.ShapeCasts S12x42
  inb_S1x14x14x42_S1x1x12x42_0_0_1_0 : ∀ a, (![0, 0, 1, 0] : Fin 4 → Nat) a + S1x1x12x42.size a ≤ S1x14x14x42.size a
  inb_S1x14x14x42_S1x1x12x42_0_0_2_0 : ∀ a, (![0, 0, 2, 0] : Fin 4 → Nat) a + S1x1x12x42.size a ≤ S1x14x14x42.size a
  concatenates_S12x42_S12x42_S12x42_S12x126_d1 : Shape.Concatenates [S12x42, S12x42, S12x42] S12x126 1
  inb_S1x14x14x42_S1x1x12x42_0_1_0_0 : ∀ a, (![0, 1, 0, 0] : Fin 4 → Nat) a + S1x1x12x42.size a ≤ S1x14x14x42.size a
  inb_S1x14x14x42_S1x1x12x42_0_1_1_0 : ∀ a, (![0, 1, 1, 0] : Fin 4 → Nat) a + S1x1x12x42.size a ≤ S1x14x14x42.size a
  inb_S1x14x14x42_S1x1x12x42_0_1_2_0 : ∀ a, (![0, 1, 2, 0] : Fin 4 → Nat) a + S1x1x12x42.size a ≤ S1x14x14x42.size a
  inb_S1x14x14x42_S1x1x12x42_0_2_0_0 : ∀ a, (![0, 2, 0, 0] : Fin 4 → Nat) a + S1x1x12x42.size a ≤ S1x14x14x42.size a
  inb_S1x14x14x42_S1x1x12x42_0_2_1_0 : ∀ a, (![0, 2, 1, 0] : Fin 4 → Nat) a + S1x1x12x42.size a ≤ S1x14x14x42.size a
  inb_S1x14x14x42_S1x1x12x42_0_2_2_0 : ∀ a, (![0, 2, 2, 0] : Fin 4 → Nat) a + S1x1x12x42.size a ≤ S1x14x14x42.size a
  inb_S1x14x14x42_S1x1x12x42_0_3_0_0 : ∀ a, (![0, 3, 0, 0] : Fin 4 → Nat) a + S1x1x12x42.size a ≤ S1x14x14x42.size a
  inb_S1x14x14x42_S1x1x12x42_0_3_1_0 : ∀ a, (![0, 3, 1, 0] : Fin 4 → Nat) a + S1x1x12x42.size a ≤ S1x14x14x42.size a
  inb_S1x14x14x42_S1x1x12x42_0_3_2_0 : ∀ a, (![0, 3, 2, 0] : Fin 4 → Nat) a + S1x1x12x42.size a ≤ S1x14x14x42.size a
  inb_S1x14x14x42_S1x1x12x42_0_4_0_0 : ∀ a, (![0, 4, 0, 0] : Fin 4 → Nat) a + S1x1x12x42.size a ≤ S1x14x14x42.size a
  inb_S1x14x14x42_S1x1x12x42_0_4_1_0 : ∀ a, (![0, 4, 1, 0] : Fin 4 → Nat) a + S1x1x12x42.size a ≤ S1x14x14x42.size a
  inb_S1x14x14x42_S1x1x12x42_0_4_2_0 : ∀ a, (![0, 4, 2, 0] : Fin 4 → Nat) a + S1x1x12x42.size a ≤ S1x14x14x42.size a
  inb_S1x14x14x42_S1x1x12x42_0_5_0_0 : ∀ a, (![0, 5, 0, 0] : Fin 4 → Nat) a + S1x1x12x42.size a ≤ S1x14x14x42.size a
  inb_S1x14x14x42_S1x1x12x42_0_5_1_0 : ∀ a, (![0, 5, 1, 0] : Fin 4 → Nat) a + S1x1x12x42.size a ≤ S1x14x14x42.size a
  inb_S1x14x14x42_S1x1x12x42_0_5_2_0 : ∀ a, (![0, 5, 2, 0] : Fin 4 → Nat) a + S1x1x12x42.size a ≤ S1x14x14x42.size a
  inb_S1x14x14x42_S1x1x12x42_0_6_0_0 : ∀ a, (![0, 6, 0, 0] : Fin 4 → Nat) a + S1x1x12x42.size a ≤ S1x14x14x42.size a
  inb_S1x14x14x42_S1x1x12x42_0_6_1_0 : ∀ a, (![0, 6, 1, 0] : Fin 4 → Nat) a + S1x1x12x42.size a ≤ S1x14x14x42.size a
  inb_S1x14x14x42_S1x1x12x42_0_6_2_0 : ∀ a, (![0, 6, 2, 0] : Fin 4 → Nat) a + S1x1x12x42.size a ≤ S1x14x14x42.size a
  inb_S1x14x14x42_S1x1x12x42_0_7_0_0 : ∀ a, (![0, 7, 0, 0] : Fin 4 → Nat) a + S1x1x12x42.size a ≤ S1x14x14x42.size a
  inb_S1x14x14x42_S1x1x12x42_0_7_1_0 : ∀ a, (![0, 7, 1, 0] : Fin 4 → Nat) a + S1x1x12x42.size a ≤ S1x14x14x42.size a
  inb_S1x14x14x42_S1x1x12x42_0_7_2_0 : ∀ a, (![0, 7, 2, 0] : Fin 4 → Nat) a + S1x1x12x42.size a ≤ S1x14x14x42.size a
  inb_S1x14x14x42_S1x1x12x42_0_8_0_0 : ∀ a, (![0, 8, 0, 0] : Fin 4 → Nat) a + S1x1x12x42.size a ≤ S1x14x14x42.size a
  inb_S1x14x14x42_S1x1x12x42_0_8_1_0 : ∀ a, (![0, 8, 1, 0] : Fin 4 → Nat) a + S1x1x12x42.size a ≤ S1x14x14x42.size a
  inb_S1x14x14x42_S1x1x12x42_0_8_2_0 : ∀ a, (![0, 8, 2, 0] : Fin 4 → Nat) a + S1x1x12x42.size a ≤ S1x14x14x42.size a
  inb_S1x14x14x42_S1x1x12x42_0_9_0_0 : ∀ a, (![0, 9, 0, 0] : Fin 4 → Nat) a + S1x1x12x42.size a ≤ S1x14x14x42.size a
  inb_S1x14x14x42_S1x1x12x42_0_9_1_0 : ∀ a, (![0, 9, 1, 0] : Fin 4 → Nat) a + S1x1x12x42.size a ≤ S1x14x14x42.size a
  inb_S1x14x14x42_S1x1x12x42_0_9_2_0 : ∀ a, (![0, 9, 2, 0] : Fin 4 → Nat) a + S1x1x12x42.size a ≤ S1x14x14x42.size a
  inb_S1x14x14x42_S1x1x12x42_0_10_0_0 : ∀ a, (![0, 10, 0, 0] : Fin 4 → Nat) a + S1x1x12x42.size a ≤ S1x14x14x42.size a
  inb_S1x14x14x42_S1x1x12x42_0_10_1_0 : ∀ a, (![0, 10, 1, 0] : Fin 4 → Nat) a + S1x1x12x42.size a ≤ S1x14x14x42.size a
  inb_S1x14x14x42_S1x1x12x42_0_10_2_0 : ∀ a, (![0, 10, 2, 0] : Fin 4 → Nat) a + S1x1x12x42.size a ≤ S1x14x14x42.size a
  inb_S1x14x14x42_S1x1x12x42_0_11_0_0 : ∀ a, (![0, 11, 0, 0] : Fin 4 → Nat) a + S1x1x12x42.size a ≤ S1x14x14x42.size a
  inb_S1x14x14x42_S1x1x12x42_0_11_1_0 : ∀ a, (![0, 11, 1, 0] : Fin 4 → Nat) a + S1x1x12x42.size a ≤ S1x14x14x42.size a
  inb_S1x14x14x42_S1x1x12x42_0_11_2_0 : ∀ a, (![0, 11, 2, 0] : Fin 4 → Nat) a + S1x1x12x42.size a ≤ S1x14x14x42.size a
  inb_S1x14x14x42_S1x1x12x42_0_12_0_0 : ∀ a, (![0, 12, 0, 0] : Fin 4 → Nat) a + S1x1x12x42.size a ≤ S1x14x14x42.size a
  inb_S1x14x14x42_S1x1x12x42_0_12_1_0 : ∀ a, (![0, 12, 1, 0] : Fin 4 → Nat) a + S1x1x12x42.size a ≤ S1x14x14x42.size a
  inb_S1x14x14x42_S1x1x12x42_0_12_2_0 : ∀ a, (![0, 12, 2, 0] : Fin 4 → Nat) a + S1x1x12x42.size a ≤ S1x14x14x42.size a
  inb_S1x14x14x42_S1x1x12x42_0_13_0_0 : ∀ a, (![0, 13, 0, 0] : Fin 4 → Nat) a + S1x1x12x42.size a ≤ S1x14x14x42.size a
  inb_S1x14x14x42_S1x1x12x42_0_13_1_0 : ∀ a, (![0, 13, 1, 0] : Fin 4 → Nat) a + S1x1x12x42.size a ≤ S1x14x14x42.size a
  inb_S1x14x14x42_S1x1x12x42_0_13_2_0 : ∀ a, (![0, 13, 2, 0] : Fin 4 → Nat) a + S1x1x12x42.size a ≤ S1x14x14x42.size a
  concatenates_S12x126_S12x126_S12x126_S12x378_d1 : Shape.Concatenates [S12x126, S12x126, S12x126] S12x378 1
  concatenates_S12x378_S12x378_S12x378_S12x378_S12x378_S12x378_S12x378_S12x378_S12x378_S12x378_S12x378_S12x378_S144x378_d0 : Shape.Concatenates [S12x378, S12x378, S12x378, S12x378, S12x378, S12x378, S12x378, S12x378, S12x378, S12x378, S12x378, S12x378] S144x378 0
  inb_S1x256_S1x256_0_0 : ∀ a, (![0, 0] : Fin 2 → Nat) a + S1x256.size a ≤ S1x256.size a
  h_S1x256 : 0 < S1x256.numel
  bitsLt_bf16_f32 : FTy.bits .bf16 < FTy.bits .f32
  inb_S378x512_S378x512_0_0 : ∀ a, (![0, 0] : Fin 2 → Nat) a + S378x512.size a ≤ S378x512.size a
  h_S378x512 : 0 < S378x512.numel
  slices_S144x512_o0_0_S144x256 : S144x512.Slices ![0, 0] S144x256
  slices_S144x512_o0_256_S144x256 : S144x512.Slices ![0, 256] S144x256
  slices_S144x256_o0_0_S12x256 : S144x256.Slices ![0, 0] S12x256
  slices_S144x256_o12_0_S12x256 : S144x256.Slices ![12, 0] S12x256
  slices_S12x256_o0_0_S1x256 : S12x256.Slices ![0, 0] S1x256
  slices_S12x256_o1_0_S1x256 : S12x256.Slices ![1, 0] S1x256
  slices_S12x256_o2_0_S1x256 : S12x256.Slices ![2, 0] S1x256
  slices_S12x256_o3_0_S1x256 : S12x256.Slices ![3, 0] S1x256
  slices_S12x256_o4_0_S1x256 : S12x256.Slices ![4, 0] S1x256
  slices_S12x256_o5_0_S1x256 : S12x256.Slices ![5, 0] S1x256
  slices_S12x256_o6_0_S1x256 : S12x256.Slices ![6, 0] S1x256
  slices_S12x256_o7_0_S1x256 : S12x256.Slices ![7, 0] S1x256
  slices_S12x256_o8_0_S1x256 : S12x256.Slices ![8, 0] S1x256
  slices_S12x256_o9_0_S1x256 : S12x256.Slices ![9, 0] S1x256
  slices_S12x256_o10_0_S1x256 : S12x256.Slices ![10, 0] S1x256
  slices_S12x256_o11_0_S1x256 : S12x256.Slices ![11, 0] S1x256
  slices_S144x256_o24_0_S12x256 : S144x256.Slices ![24, 0] S12x256
  slices_S144x256_o36_0_S12x256 : S144x256.Slices ![36, 0] S12x256
  slices_S144x256_o48_0_S12x256 : S144x256.Slices ![48, 0] S12x256
  slices_S144x256_o60_0_S12x256 : S144x256.Slices ![60, 0] S12x256
  slices_S144x256_o72_0_S12x256 : S144x256.Slices ![72, 0] S12x256
  slices_S144x256_o84_0_S12x256 : S144x256.Slices ![84, 0] S12x256
  slices_S144x256_o96_0_S12x256 : S144x256.Slices ![96, 0] S12x256
  slices_S144x256_o108_0_S12x256 : S144x256.Slices ![108, 0] S12x256
  slices_S144x256_o120_0_S12x256 : S144x256.Slices ![120, 0] S12x256
  slices_S144x256_o132_0_S12x256 : S144x256.Slices ![132, 0] S12x256
  concatenates_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S36x256_d0 : Shape.Concatenates (S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: S1x256 :: []) S36x256 0
  broadcasts_S1x256_S36x256 : S1x256.Broadcasts S36x256
  slices_S36x256_o0_0_S4x256 : S36x256.Slices ![0, 0] S4x256
  slices_S36x256_o1_0_S4x256 : S36x256.Slices ![1, 0] S4x256
  slices_S36x256_o2_0_S4x256 : S36x256.Slices ![2, 0] S4x256
  slices_S36x256_o6_0_S4x256 : S36x256.Slices ![6, 0] S4x256
  slices_S36x256_o7_0_S4x256 : S36x256.Slices ![7, 0] S4x256
  slices_S36x256_o8_0_S4x256 : S36x256.Slices ![8, 0] S4x256
  slices_S36x256_o12_0_S4x256 : S36x256.Slices ![12, 0] S4x256
  slices_S36x256_o13_0_S4x256 : S36x256.Slices ![13, 0] S4x256
  slices_S36x256_o14_0_S4x256 : S36x256.Slices ![14, 0] S4x256
  concatenates_S4x256_S4x256_S4x256_S4x256_S4x256_S4x256_S4x256_S4x256_S4x256_S4x2304_d1 : Shape.Concatenates [S4x256, S4x256, S4x256, S4x256, S4x256, S4x256, S4x256, S4x256, S4x256] S4x2304 1
  slices_S36x256_o18_0_S4x256 : S36x256.Slices ![18, 0] S4x256
  slices_S36x256_o19_0_S4x256 : S36x256.Slices ![19, 0] S4x256
  slices_S36x256_o20_0_S4x256 : S36x256.Slices ![20, 0] S4x256
  slices_S36x256_o24_0_S4x256 : S36x256.Slices ![24, 0] S4x256
  slices_S36x256_o25_0_S4x256 : S36x256.Slices ![25, 0] S4x256
  slices_S36x256_o26_0_S4x256 : S36x256.Slices ![26, 0] S4x256
  slices_S36x256_o30_0_S4x256 : S36x256.Slices ![30, 0] S4x256
  slices_S36x256_o31_0_S4x256 : S36x256.Slices ![31, 0] S4x256
  slices_S36x256_o32_0_S4x256 : S36x256.Slices ![32, 0] S4x256
  concatenates_S4x2304_S4x2304_S4x2304_S4x2304_S16x2304_d0 : Shape.Concatenates [S4x2304, S4x2304, S4x2304, S4x2304] S16x2304 0
  inb_S1x128_S1x128_0_0 : ∀ a, (![0, 0] : Fin 2 → Nat) a + S1x128.size a ≤ S1x128.size a
  h_S1x128 : 0 < S1x128.numel
  inb_S2304x256_S2304x256_0_0 : ∀ a, (![0, 0] : Fin 2 → Nat) a + S2304x256.size a ≤ S2304x256.size a
  h_S2304x256 : 0 < S2304x256.numel
  slices_S16x256_o0_0_S16x128 : S16x256.Slices ![0, 0] S16x128
  slices_S16x256_o0_128_S16x128 : S16x256.Slices ![0, 128] S16x128
  slices_S16x128_o0_0_S4x128 : S16x128.Slices ![0, 0] S4x128
  slices_S16x128_o4_0_S4x128 : S16x128.Slices ![4, 0] S4x128
  slices_S4x128_o0_0_S1x128 : S4x128.Slices ![0, 0] S1x128
  slices_S4x128_o1_0_S1x128 : S4x128.Slices ![1, 0] S1x128
  slices_S4x128_o2_0_S1x128 : S4x128.Slices ![2, 0] S1x128
  slices_S4x128_o3_0_S1x128 : S4x128.Slices ![3, 0] S1x128
  slices_S16x128_o8_0_S4x128 : S16x128.Slices ![8, 0] S4x128
  slices_S16x128_o12_0_S4x128 : S16x128.Slices ![12, 0] S4x128
  concatenates_S1x128_S1x128_S1x128_S1x128_S4x128_d0 : Shape.Concatenates [S1x128, S1x128, S1x128, S1x128] S4x128 0
  broadcasts_S1x128_S4x128 : S1x128.Broadcasts S4x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  inb_S128x128_S128x128_0_0 : ∀ a, (![0, 0] : Fin 2 → Nat) a + S128x128.size a ≤ S128x128.size a
  h_S128x128 : 0 < S128x128.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S1024x1x128_S1024x128 : S1024x1x128.ShapeCasts S1024x128
  slices_S1024x128_S1024x10_0_0 : S1024x128.Slices ![0, 0] S1024x10
  dot_S144x378_S378x512_S144x512_1_0_0_1_n_n_wf : DotDims.WF S144x378 S378x512 S144x512 [1] [0] [0] [1] [] []
  dot_S16x2304_S2304x256_S16x256_1_0_0_1_n_n_wf : DotDims.WF S16x2304 S2304x256 S16x256 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x14x14x42.size a ≤ S1024x14x14x42.size a
  hwx0_0 : ∀ i : grid0.Coords, EltTy.bits .f32 = 32 ∨ (Rect.block (s := S1024x14x14x42) S1x14x14x42.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S378x512.size a ≤ S378x512.size a
  hwx0_1 : ∀ i : grid0.Coords, EltTy.bits .bf16 = 32 ∨ (Rect.block (s := S378x512) S378x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2304x256.size a ≤ S2304x256.size a
  hwx0_3 : ∀ i : grid0.Coords, EltTy.bits .bf16 = 32 ∨ (Rect.block (s := S2304x256) S2304x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x128x128.size a ≤ S4x128x128.size a
  hwx0_5 : ∀ i : grid0.Coords, EltTy.bits .bf16 = 32 ∨ (Rect.block (s := S4x128x128) S4x128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x128.size a ≤ S1024x1x128.size a
  hwx0_11 : ∀ i : grid0.Coords, EltTy.bits .f32 = 32 ∨ (Rect.block (s := S1024x1x128) S1x1x128.size (cc0_transform_11 i) (hinb0_11 i)).WholeWords (EltTy.packing .f32)

variable [Facts₀]

def dot_S144x378_S378x512_S144x512_1_0_0_1_n_n : DotDims S144x378 S378x512 S144x512 where
  lhsContracting := [1]
  rhsContracting := [0]
  lhsNonContracting := [0]
  rhsNonContracting := [1]
  lhsBatch := []
  rhsBatch := []
  wf := dot_S144x378_S378x512_S144x512_1_0_0_1_n_n_wf
def dot_S16x2304_S2304x256_S16x256_1_0_0_1_n_n : DotDims S16x2304 S2304x256 S16x256 where
  lhsContracting := [1]
  rhsContracting := [0]
  lhsNonContracting := [0]
  rhsNonContracting := [1]
  lhsBatch := []
  rhsBatch := []
  wf := dot_S16x2304_S2304x256_S16x256_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_v1) S1x14x14x42.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S378x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2304x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x1x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.Spec.lean ====
/-
  The network both programs compute, for ONE image, as a function over the extended reals.

  Data of one image and the layers' parameters:
    X d h l            the image at depth d, height h, lane l = w·3 + c   (14 × 14 × 42)
    W1 k n , B1 n      first convolution, all 27 taps folded into the contraction: k = kd·126 + kh·42 + l (378), n over
                       [even output width | odd output width] (512); bias over the pooled width (256)
    W2 k n , B2 n      second convolution: k = (kd·3 + kh)·256 + lane (2304), n over 256; bias over 128
    Wf1 r k n , Bf1 n  first dense layer, r = dp·2 + hp the pooled position (4), k the lane (128)
    Bns n , Bnt n      the folded batch normalisation's scale and shift
    Wf2 k n , Bf2 n    second dense layer

  Each convolution is a matrix product of the shifted windows with the folded weights; a 2×2×2 max pool takes the
  maximum of the two column halves (width), of two depths and of two heights; the activation is the leaky rectifier
  v ↦ max v (slope · v) applied after the bias (bias and a monotone activation commute with the maximum).
-/
import Idealize.ShloMosaic.PureOps.Ideal.Laws
import Idealize.ShloMosaic.Lib.ValueIdx

noncomputable section

namespace Cert.Net

open Idealize.ShloMosaic

/-- The rectifier's negative slope: the binary32 number nearest 0.01. -/
def slope : EReal := Ideal.ofBits .f32 0x3C23D70A#32

/-- The leaky rectifier, as a maximum. -/
def lrelu (v : EReal) : EReal := max v (slope * v)

/-! ## The rectifier written with a comparison -/

/-- The slope is a real number in (0, 1]. -/
theorem slope_real : ∃ r : ℝ, 0 < r ∧ r ≤ 1 ∧ slope = (r : EReal) := by
  refine ⟨10737418 / 1073741824, by norm_num, by norm_num, ?_⟩
  unfold slope
  simp [Ideal.ofBits, Ideal.ieee, -EReal.coe_mul]
  norm_num

/-- For a slope in (0, 1] the product lies on the far side of v from zero: below v when v is nonnegative. -/
theorem slope_mul_le {r : ℝ} (hr0 : 0 < r) (hr1 : r ≤ 1) {v : EReal} (hv : 0 ≤ v) : (r : EReal) * v ≤ v := by
  induction v using EReal.rec with
  | bot => exact absurd hv (by simp)
  | coe x =>
    have hx : 0 ≤ x := by exact_mod_cast hv
    rw [← EReal.coe_mul]; exact_mod_cast (by nlinarith : r * x ≤ x)
  | top => rw [EReal.coe_mul_top_of_pos hr0]

/-- and above v when v is negative. -/
theorem le_slope_mul {r : ℝ} (hr0 : 0 < r) (hr1 : r ≤ 1) {v : EReal} (hv : v < 0) : v ≤ (r : EReal) * v := by
  induction v using EReal.rec with
  | bot => exact bot_le
  | coe x =>
    have hx : x < 0 := by exact_mod_cast hv
    rw [← EReal.coe_mul]; exact_mod_cast (by nlinarith : x ≤ r * x)
  | top => exact absurd hv (by simp)

/-- The rectifier as "v where v ≥ 0, else slope · v" is the maximum form, on every extended real. -/
theorem select_lrelu (v : EReal) : Scalar.select (Ideal.cmp .oge v 0) v (slope * v) = lrelu v := by
  obtain ⟨r, hr0, hr1, hs⟩ := slope_real
  unfold lrelu
  rw [hs]
  by_cases h : (0 : EReal) ≤ v
  · have e : Ideal.cmp .oge v 0 = 1#1 := by simp [Ideal.cmp, h]
    rw [e, ValueIdx.select_one, max_eq_left (slope_mul_le hr0 hr1 h)]
  · have e : Ideal.cmp .oge v 0 = 0#1 := by simp [Ideal.cmp, h]
    rw [e, ValueIdx.select_zero, max_eq_right (le_slope_mul hr0 hr1 (not_le.mp h))]

section
variable (X : Fin 14 → Fin 14 → Fin 42 → EReal)
variable (W1 : Fin 378 → Fin 512 → EReal) (B1 : Fin 256 → EReal)
variable (W2 : Fin 2304 → Fin 256 → EReal) (B2 : Fin 128 → EReal)
variable (Wf1 : Fin 4 → Fin 128 → Fin 128 → EReal) (Bf1 Bns Bnt : Fin 128 → EReal)
variable (Wf2 : Fin 128 → Fin 128 → EReal) (Bf2 : Fin 128 → EReal)

/-- The first convolution's window matrix: output position (od, oh), tap and lane k = kd·126 + kh·42 + l. -/
def A1 (od oh : Fin 12) (k : Fin 378) : EReal :=
  X ⟨od.val + k.val / 126, by have := od.isLt; have := k.isLt; omega⟩
    ⟨oh.val + k.val % 126 / 42, by have := oh.isLt; have := k.isLt; omega⟩
    ⟨k.val % 42, by omega⟩

/-- The first convolution before pooling. -/
def conv1 (od oh : Fin 12) (n : Fin 512) : EReal := ∑ k : Fin 378, A1 X od oh k * W1 k n

/-- Width pool: the maximum of the two column halves. -/
def wpool1 (od oh : Fin 12) (n : Fin 256) : EReal :=
  max (conv1 X W1 od oh ⟨n.val, by have := n.isLt; omega⟩) (conv1 X W1 od oh ⟨n.val + 256, by have := n.isLt; omega⟩)

/-- Depth pool. -/
def dpool1 (dp : Fin 6) (oh : Fin 12) (n : Fin 256) : EReal :=
  max (wpool1 X W1 ⟨2 * dp.val, by have := dp.isLt; omega⟩ oh n) (wpool1 X W1 ⟨2 * dp.val + 1, by have := dp.isLt; omega⟩ oh n)

/-- Height pool: the pooled first convolution. -/
def pool1 (dp hp : Fin 6) (n : Fin 256) : EReal :=
  max (dpool1 X W1 dp ⟨2 * hp.val, by have := hp.isLt; omega⟩ n) (dpool1 X W1 dp ⟨2 * hp.val + 1, by have := hp.isLt; omega⟩ n)

/-- The first stage's activation. -/
def act1 (dp hp : Fin 6) (n : Fin 256) : EReal := lrelu (pool1 X W1 dp hp n + B1 n)

/-- The second convolution's window matrix: k = (kd·3 + kh)·256 + lane. -/
def A2 (od oh : Fin 4) (k : Fin 2304) : EReal :=
  act1 X W1 B1 ⟨od.val + k.val / 768, by have := od.isLt; have := k.isLt; omega⟩
    ⟨oh.val + k.val % 768 / 256, by have := oh.isLt; have := k.isLt; omega⟩
    ⟨k.val % 256, by omega⟩

def conv2 (od oh : Fin 4) (n : Fin 256) : EReal := ∑ k : Fin 2304, A2 X W1 B1 od oh k * W2 k n

def wpool2 (od oh : Fin 4) (n : Fin 128) : EReal :=
  max (conv2 X W1 B1 W2 od oh ⟨n.val, by have := n.isLt; omega⟩) (conv2 X W1 B1 W2 od oh ⟨n.val + 128, by have := n.isLt; omega⟩)

def dpool2 (dp : Fin 2) (oh : Fin 4) (n : Fin 128) : EReal :=
  max (wpool2 X W1 B1 W2 ⟨2 * dp.val, by have := dp.isLt; omega⟩ oh n) (wpool2 X W1 B1 W2 ⟨2 * dp.val + 1, by have := dp.isLt; omega⟩ oh n)

def pool2 (dp hp : Fin 2) (n : Fin 128) : EReal :=
  max (dpool2 X W1 B1 W2 dp ⟨2 * hp.val, by have := hp.isLt; omega⟩ n) (dpool2 X W1 B1 W2 dp ⟨2 * hp.val + 1, by have := hp.isLt; omega⟩ n)

/-- The second stage's activation, at pooled position r = dp·2 + hp. -/
def act2 (r : Fin 4) (n : Fin 128) : EReal :=
  lrelu (pool2 X W1 B1 W2 ⟨r.val / 2, by have := r.isLt; omega⟩ ⟨r.val % 2, by omega⟩ n + B2 n)

/-- One pooled position's share of the first dense layer. -/
def fcPart (r : Fin 4) (n : Fin 128) : EReal := ∑ k : Fin 128, act2 X W1 B1 W2 B2 r k * Wf1 r k n

/-- The first dense layer: the bias, then the four positions' shares added one after the other. -/
def fc1 (n : Fin 128) : EReal :=
  (((Bf1 n + fcPart X W1 B1 W2 B2 Wf1 0 n) + fcPart X W1 B1 W2 B2 Wf1 1 n) + fcPart X W1 B1 W2 B2 Wf1 2 n)
    + fcPart X W1 B1 W2 B2 Wf1 3 n

/-- Activation and the folded batch normalisation. -/
def hidden (n : Fin 128) : EReal := lrelu (fc1 X W1 B1 W2 B2 Wf1 Bf1 n) * Bns n + Bnt n

/-- The padded logits of the image. -/
def logits (n : Fin 128) : EReal := (∑ k : Fin 128, hidden X W1 B1 W2 B2 Wf1 Bf1 Bns Bnt k * Wf2 k n) + Bf2 n

end

end Cert.Net

end
-- ==== Proof.KernelHost.lean ====
/-
  The arrays the host prepares before the kernel's region, read at an index, as functions of the argument arrays.

  * the image batch: converted to the narrow format (the identity on extended reals), its axes permuted from
    (image, channel, depth, height, width) to (depth, height, image, channel, width), and the last two axes merged into
    one lane l = channel · 14 + width;
  * the first convolution's weights: the 378 rows k = kd·126 + kh·42 + w·3 + ch regrouped so that within a (kd, kh) group the
    row is ch·14 + w, each depth tap's 126 rows padded with two zero rows to 128, and the 512 columns cut in two halves;
  * the first dense layer's weights: the leading two axes merged.
-/
import proofs.«162147_g2000504528272344_pallasbulk_1029_23_alg».proof.Defs
import proofs.«162147_g2000504528272344_pallasbulk_1029_23_alg».proof.Proof.Gen.KernelIdeal.Frame
import Idealize.ShloMosaic.Lib.Pipeline.Value
import Idealize.ShloMosaic.Lib.KernelVsHost
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.ValueIdx

namespace Cert.KernelArrays

open Cert.KernelIdeal Cert.KernelIdeal.Gen

/-! ## The three preparations as functions of an argument array -/

/-- The image batch as the kernel's first window sees it. -/
def imgPrep (a : FVec Ideal S1024x3x14x14x14 .f32) : FVec Ideal S14x14x1024x42 .bf16 :=
  shapeCast S14x14x1024x42
    (transpose S14x14x1024x3x14 [2, 3, 0, 1, 4] (truncf (F := Ideal) .bf16 a bitsLt_bf16_f32)
      transposes_S1024x3x14x14x14_S14x14x1024x3x14_2_3_0_1_4)
    shapeCasts_S14x14x1024x3x14_S14x14x1024x42

/-- At (depth d, height h, image b, lane l) it is the argument at (b, channel l / 14, d, h, width l % 14). -/
theorem imgPrep_apply (a : FVec Ideal S1024x3x14x14x14 .f32) (d h : Fin 14) (b : Fin 1024) (l : Fin 42) :
    imgPrep a (ix4 d h b l)
      = a (ix5 b ⟨l.val / 14, by have := l.isLt; omega⟩ d h ⟨l.val % 14, Nat.mod_lt _ (by decide)⟩) := by
  unfold imgPrep
  have hl := l.isLt
  refine (shapeCast_apply _ _ (ix4 d h b l)
    (ix5 d h b (⟨l.val / 14, by omega⟩ : Fin 3) (⟨l.val % 14, Nat.mod_lt _ (by decide)⟩ : Fin 14)) ?_).trans ?_
  · rw [Shape.rowMajor_val_five, Shape.rowMajor_val_four]
    show ((((d.val * 14 + h.val) * 1024 + b.val) * 3 + l.val / 14) * 14 + l.val % 14)
      = ((d.val * 14 + h.val) * 1024 + b.val) * 42 + l.val
    omega
  · refine (transpose_apply _ _ _ _
      (ix5 b (⟨l.val / 14, by omega⟩ : Fin 3) d h (⟨l.val % 14, Nat.mod_lt _ (by decide)⟩ : Fin 14)) ?_).trans rfl
    intro k
    match k with
    | ⟨0, _⟩ => rfl
    | ⟨1, _⟩ => rfl
    | ⟨2, _⟩ => rfl
    | ⟨3, _⟩ => rfl
    | ⟨4, _⟩ => rfl

/-- The first convolution's weights regrouped: (depth tap kd, row r = kh·42 + ch·14 + w, column n). -/
def w1Regroup (a : FVec Ideal S378x512 .bf16) : FVec Ideal S3x126x512 .bf16 :=
  shapeCast S3x126x512
    (transpose S3x3x3x14x512 [0, 1, 3, 2, 4] (shapeCast S3x3x14x3x512 a shapeCasts_S378x512_S3x3x14x3x512)
      transposes_S3x3x14x3x512_S3x3x3x14x512_0_1_3_2_4)
    shapeCasts_S3x3x3x14x512_S3x126x512

/-- Row r = kh·42 + ch·14 + w of depth tap kd is the argument's row kd·126 + kh·42 + w·3 + ch. -/
theorem w1Regroup_apply (a : FVec Ideal S378x512 .bf16) (kd : Fin 3) (r : Fin 126) (n : Fin 512) :
    w1Regroup a (ix3 kd r n)
      = a (ix2 ⟨kd.val * 126 + (r.val / 42) * 42 + (r.val % 14) * 3 + (r.val % 42) / 14,
            by have := kd.isLt; have := r.isLt; omega⟩ n) := by
  unfold w1Regroup
  have hkd := kd.isLt
  have hr := r.isLt
  have hn := n.isLt
  refine (shapeCast_apply _ _ (ix3 kd r n)
    (ix5 kd (⟨r.val / 42, by omega⟩ : Fin 3) (⟨(r.val % 42) / 14, by omega⟩ : Fin 3)
      (⟨r.val % 14, Nat.mod_lt _ (by decide)⟩ : Fin 14) n) ?_).trans ?_
  · rw [Shape.rowMajor_val_five, Shape.rowMajor_val_three]
    show ((((kd.val * 3 + r.val / 42) * 3 + (r.val % 42) / 14) * 14 + r.val % 14) * 512 + n.val)
      = (kd.val * 126 + r.val) * 512 + n.val
    omega
  · refine (transpose_apply _ _ _ _
      (ix5 kd (⟨r.val / 42, by omega⟩ : Fin 3) (⟨r.val % 14, Nat.mod_lt _ (by decide)⟩ : Fin 14)
        (⟨(r.val % 42) / 14, by omega⟩ : Fin 3) n) ?_).trans ?_
    · intro k
      match k with
      | ⟨0, _⟩ => rfl
      | ⟨1, _⟩ => rfl
      | ⟨2, _⟩ => rfl
      | ⟨3, _⟩ => rfl
      | ⟨4, _⟩ => rfl
    · refine shapeCast_apply _ _ _ _ ?_
      rw [Shape.rowMajor_val_two, Shape.rowMajor_val_five]
      show (kd.val * 126 + (r.val / 42) * 42 + (r.val % 14) * 3 + (r.val % 42) / 14) * 512 + n.val
        = ((((kd.val * 3 + r.val / 42) * 14 + r.val % 14) * 3 + (r.val % 42) / 14) * 512 + n.val)
      omega

/-- The regrouped weights with each depth tap padded to 128 rows and the taps stacked: 384 rows. -/
def w1Padded (a : FVec Ideal S378x512 .bf16) : FVec Ideal S384x512 .bf16 :=
  shapeCast S384x512
    (pad S3x128x512 ![0, 0, 0] ![0, 2, 0] ![0, 0, 0] (w1Regroup a)
      (sitofp (F := Ideal) .bf16 (constantI S_ 32 0#32)) pads_S3x126x512_S3x128x512_000_020_000 h_S_)
    shapeCasts_S3x128x512_S384x512

/-- The padded, stacked weights as one function of the row j and the column n. -/
def Wg (a : FVec Ideal S378x512 .bf16) (j : Fin 384) (n : Fin 512) : EReal :=
  if h : j.val % 128 < 126 then
    a (ix2 ⟨(j.val / 128) * 126 + ((j.val % 128) / 42) * 42 + ((j.val % 128) % 14) * 3 + ((j.val % 128) % 42) / 14,
        by have := j.isLt; omega⟩ n)
  else 0

theorem w1Padded_apply (a : FVec Ideal S378x512 .bf16) (j : Fin 384) (n : Fin 512) :
    w1Padded a (ix2 j n) = Wg a j n := by
  unfold w1Padded Wg
  have hj := j.isLt
  have hn := n.isLt
  refine (shapeCast_apply _ _ (ix2 j n)
    (ix3 (⟨j.val / 128, by omega⟩ : Fin 3) (⟨j.val % 128, Nat.mod_lt _ (by decide)⟩ : Fin 128) n) ?_).trans ?_
  · rw [Shape.rowMajor_val_three, Shape.rowMajor_val_two]
    show ((j.val / 128) * 128 + j.val % 128) * 512 + n.val = j.val * 512 + n.val
    omega
  · by_cases h : j.val % 128 < 126
    · rw [dif_pos h]
      refine (pad_apply_of_inside _ _ _ _ _ _ _ _
        (ix3 (⟨j.val / 128, by omega⟩ : Fin 3) (⟨j.val % 128, h⟩ : Fin 126) n) ?_).trans ?_
      · intro k
        match k with
        | ⟨0, _⟩ => show j.val / 128 = 0 + (j.val / 128) * (0 + 1); omega
        | ⟨1, _⟩ => show j.val % 128 = 0 + (j.val % 128) * (0 + 1); omega
        | ⟨2, _⟩ => show n.val = 0 + n.val * (0 + 1); omega
      · exact w1Regroup_apply a _ _ _
    · rw [dif_neg h]
      refine (pad_apply_of_not_inside _ _ _ _ _ _ _ _ (1 : Fin 3) ?_).trans ?_
      · show ¬(0 ≤ j.val % 128 ∧ (j.val % 128 - 0) % (0 + 1) = 0 ∧ (j.val % 128 - 0) / (0 + 1) < 126)
        omega
      · show ((((0#32 : BitVec 32).toInt : ℤ) : ℝ) : EReal) = 0
        simp

/-- The left half of the columns. -/
def w1Left (a : FVec Ideal S378x512 .bf16) : FVec Ideal S384x256 .bf16 :=
  extractStridedSlice S384x256 ![0, 0] (w1Padded a) slices_S384x512_S384x256_0_0
/-- The right half of the columns. -/
def w1Right (a : FVec Ideal S378x512 .bf16) : FVec Ideal S384x256 .bf16 :=
  extractStridedSlice S384x256 ![0, 256] (w1Padded a) slices_S384x512_S384x256_0_256

theorem w1Left_apply (a : FVec Ideal S378x512 .bf16) (j : Fin 384) (q : Fin 256) :
    w1Left a (ix2 j q) = Wg a j ⟨q.val, by have := q.isLt; omega⟩ := by
  unfold w1Left
  refine (extractStridedSlice_apply _ _ _ (ix2 j q) (ix2 j (⟨q.val, by have := q.isLt; omega⟩ : Fin 512)) ?_).trans
    (w1Padded_apply a _ _)
  intro k
  match k with
  | ⟨0, _⟩ => show j.val = 0 + j.val; omega
  | ⟨1, _⟩ => show q.val = 0 + q.val; omega

theorem w1Right_apply (a : FVec Ideal S378x512 .bf16) (j : Fin 384) (q : Fin 256) :
    w1Right a (ix2 j q) = Wg a j ⟨q.val + 256, by have := q.isLt; omega⟩ := by
  unfold w1Right
  refine (extractStridedSlice_apply _ _ _ (ix2 j q) (ix2 j (⟨q.val + 256, by have := q.isLt; omega⟩ : Fin 512)) ?_).trans
    (w1Padded_apply a _ _)
  intro k
  match k with
  | ⟨0, _⟩ => show j.val = 0 + j.val; omega
  | ⟨1, _⟩ => show q.val + 256 = 256 + q.val; omega

/-- The first dense layer's weights with the pooled position and the lane merged into one row index. -/
def wf1Prep (a : FVec Ideal S4x128x128 .bf16) : FVec Ideal S512x128 .bf16 :=
  shapeCast S512x128 a shapeCasts_S4x128x128_S512x128

theorem wf1Prep_apply (a : FVec Ideal S4x128x128 .bf16) (j : Fin 512) (q : Fin 128) :
    wf1Prep a (ix2 j q)
      = a (ix3 ⟨j.val / 128, by have := j.isLt; omega⟩ ⟨j.val % 128, Nat.mod_lt _ (by decide)⟩ q) := by
  unfold wf1Prep
  have hj := j.isLt
  refine shapeCast_apply _ _ _ _ ?_
  rw [Shape.rowMajor_val_three, Shape.rowMajor_val_two]
  show ((j.val / 128) * 128 + j.val % 128) * 128 + q.val = j.val * 128 + q.val
  omega

end Cert.KernelArrays

end
-- ==== Proof.FrameResult.lean ====
/-
  The shape in which both programs' results are stated: a whole-array function of (image, class lane) read as the
  1024 × 128 array the region fills and as the 1024 × 10 array cut from its first ten lanes.
-/
import Idealize.ShloMosaic.PureOps.Ideal
import Idealize.ShloMosaic.Lib.ValueIdx

noncomputable section

open Idealize.ShloMosaic Idealize.ShloMosaic.ValueIdx

namespace Cert.Frames

/-- A function of (image, lane) as an array of 1024 rows and 128 lanes. -/
def arrOf (g : Fin 1024 → Fin 128 → EReal) : (⟨2, ![1024, 128]⟩ : Shape).Idx → EReal :=
  fun i => g ⟨(i 0).val, idx2_lt0 i⟩ ⟨(i 1).val, idx2_lt1 i⟩

/-- The same function cut to the first ten lanes. -/
def resOf (g : Fin 1024 → Fin 128 → EReal) : (⟨2, ![1024, 10]⟩ : Shape).Idx → EReal :=
  fun i => g ⟨(i 0).val, idx2_lt0 i⟩ ⟨(i 1).val, Nat.lt_trans (idx2_lt1 i) (by decide)⟩

theorem arrOf_apply (g : Fin 1024 → Fin 128 → EReal) (b : Fin 1024) (q : Fin 128) : arrOf g (ix2 b q) = g b q := rfl

theorem resOf_apply (g : Fin 1024 → Fin 128 → EReal) (b : Fin 1024) (q : Fin 10) :
    resOf g (ix2 b q) = g b ⟨q.val, Nat.lt_trans q.isLt (by decide)⟩ := rfl

end Cert.Frames

end
-- ==== Proof.KernelArrays.lean ====
/-
  The kernel program read at the level of its arrays: what the region finds in each window's array as a function of the
  argument arrays, each window's block at a grid point as a piece of its array, and the run of the whole program with its
  result named, given only what the body leaves in the output block at each grid point.

  The output array has 1024 rows (one per image) and 128 lanes; grid point t writes rows 64·t … 64·t + 63, so the
  point that covers row b is b / 64; the program's result is the first ten lanes of that array.
-/
import proofs.«162147_g2000504528272344_pallasbulk_1029_23_alg».proof.Defs
import proofs.«162147_g2000504528272344_pallasbulk_1029_23_alg».proof.Proof.Gen.KernelIdeal.Frame
import proofs.«162147_g2000504528272344_pallasbulk_1029_23_alg».proof.Proof.KernelHost
import proofs.«162147_g2000504528272344_pallasbulk_1029_23_alg».proof.Proof.FrameResult
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx
open Cert.Frames

namespace Cert.KernelArrays

open Cert.KernelIdeal Cert.KernelIdeal.Gen

variable (m : (ℓ : Loc nD τ sig) → Buf (Elt Ideal) ℓ) (ρ : Dev nD → PrngReg)

/-! ## The arrays the host prepares, as the region finds them -/

/-- The image window's array is the prepared image batch. -/
theorem V_main_v2 (c : Dev nD) :
    (V m c main_v2 : S14x14x1024x42.Idx → EReal) = imgPrep (m ((c : Thread nD τ).loc main_arg10)) := by
  dsimp only [Gen.V, Gen.V0]
  simp only [Gen.hostOps0, Gen.hostOps0_1, Gen.hostOps0_2, List.flatten_cons, List.flatten_nil, List.append_nil, List.cons_append, List.nil_append]
  after_results
  rfl

/-- At (depth d, height h, image b, lane l) it is the image argument at (b, channel l / 14, d, h, width l % 14). -/
theorem V_main_v2_apply (c : Dev nD) (d h : Fin 14) (b : Fin 1024) (l : Fin 42) :
    (V m c main_v2 : S14x14x1024x42.Idx → EReal) (ix4 d h b l)
      = (m ((c : Thread nD τ).loc main_arg10) : S1024x3x14x14x14.Idx → EReal)
          (ix5 b ⟨l.val / 14, by have := l.isLt; omega⟩ d h ⟨l.val % 14, Nat.mod_lt _ (by decide)⟩) :=
  (congrFun (V_main_v2 m c) _).trans (imgPrep_apply _ d h b l)

/-- The second window's array is the left column half of the padded, stacked weights. -/
theorem V_main_v8 (c : Dev nD) :
    (V m c main_v8 : S384x256.Idx → EReal) = w1Left (m ((c : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results
  rfl

theorem V_main_v8_apply (c : Dev nD) (j : Fin 384) (q : Fin 256) :
    (V m c main_v8 : S384x256.Idx → EReal) (ix2 j q)
      = Wg (m ((c : Thread nD τ).loc main_arg0)) j ⟨q.val, by have := q.isLt; omega⟩ :=
  (congrFun (V_main_v8 m c) _).trans (w1Left_apply _ j q)

/-- The third window's array is the right column half. -/
theorem V_main_v9 (c : Dev nD) :
    (V m c main_v9 : S384x256.Idx → EReal) = w1Right (m ((c : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results
  rfl

theorem V_main_v9_apply (c : Dev nD) (j : Fin 384) (q : Fin 256) :
    (V m c main_v9 : S384x256.Idx → EReal) (ix2 j q)
      = Wg (m ((c : Thread nD τ).loc main_arg0)) j ⟨q.val + 256, by have := q.isLt; omega⟩ :=
  (congrFun (V_main_v9 m c) _).trans (w1Right_apply _ j q)

/-- The seventh window's array is the dense weights with their two leading axes merged. -/
theorem V_main_v10 (c : Dev nD) :
    (V m c main_v10 : S512x128.Idx → EReal) = wf1Prep (m ((c : Thread nD τ).loc main_arg4)) := by
  dsimp only [Gen.V, Gen.V0]
  simp only [Gen.hostOps0, Gen.hostOps0_1, Gen.hostOps0_2, List.flatten_cons, List.flatten_nil, List.append_nil, List.cons_append, List.nil_append]
  after_results
  rfl

theorem V_main_v10_apply (c : Dev nD) (j : Fin 512) (q : Fin 128) :
    (V m c main_v10 : S512x128.Idx → EReal) (ix2 j q)
      = (m ((c : Thread nD τ).loc main_arg4) : S4x128x128.Idx → EReal)
          (ix3 ⟨j.val / 128, by have := j.isLt; omega⟩ ⟨j.val % 128, Nat.mod_lt _ (by decide)⟩ q) :=
  (congrFun (V_main_v10 m c) _).trans (wf1Prep_apply _ j q)

/-! ## Each window's block at a grid point -/

/-- The grid has sixteen points. -/
theorem lt16 (t : Fin cfg0.N) : t.val < 16 := lt_of_lt_of_eq t.isLt N_0

/-- The image row that grid point t's block holds at its row bb. -/
def rowOf (t : Fin cfg0.N) (bb : Fin 64) : Fin 1024 :=
  ⟨64 * t.val + bb.val, by have := lt16 t; have := bb.isLt; omega⟩

/-- The image window's block index at point t is (0, 0, t, 0). -/
theorem idx0 : ∀ t : Fin cfg0.N, win0_0.index t (0 : Fin 4) = 0 ∧ win0_0.index t (1 : Fin 4) = 0
    ∧ win0_0.index t (2 : Fin 4) = t.val ∧ win0_0.index t (3 : Fin 4) = 0 :=
  (by decide +kernel : ∀ t : Fin grid0.N, _)

/-- The image window's block at point t holds images 64·t … 64·t + 63 of its array. -/
theorem iblk0_apply (c : Dev nD) (t : Fin cfg0.N) (d h : Fin 14) (bb : Fin 64) (l : Fin 42) :
    (iblk m c 0 t : Vec Ideal S14x14x64x42 .bf16) (ix4 d h bb l)
      = (V m c main_v2 : S14x14x1024x42.Idx → EReal) (ix4 d h (rowOf t bb) l) := by
  obtain ⟨e0, e1, e2, e3⟩ := idx0 t
  unfold iblk
  rw [View.read_apply]
  show V m c main_v2 (((cfg0.win 0).blk t).view.emb (ix4 d h bb l)) = V m c main_v2 (ix4 d h (rowOf t bb) l)
  refine congrArg (V m c main_v2) ?_
  funext a
  apply Fin.ext
  match a with
  | ⟨0, _⟩ => show win0_0.index t (0 : Fin 4) * 14 + 1 * d.val = d.val; omega
  | ⟨1, _⟩ => show win0_0.index t (1 : Fin 4) * 14 + 1 * h.val = h.val; omega
  | ⟨2, _⟩ => show win0_0.index t (2 : Fin 4) * 64 + 1 * bb.val = 64 * t.val + bb.val; omega
  | ⟨3, _⟩ => show win0_0.index t (3 : Fin 4) * 42 + 1 * l.val = l.val; omega

/-- The same in terms of the image argument. -/
theorem iblk0_arg (c : Dev nD) (t : Fin cfg0.N) (d h : Fin 14) (bb : Fin 64) (l : Fin 42) :
    (iblk m c 0 t : Vec Ideal S14x14x64x42 .bf16) (ix4 d h bb l)
      = (m ((c : Thread nD τ).loc main_arg10) : S1024x3x14x14x14.Idx → EReal)
          (ix5 (rowOf t bb) ⟨l.val / 14, by have := l.isLt; omega⟩ d h ⟨l.val % 14, Nat.mod_lt _ (by decide)⟩) :=
  (iblk0_apply m c t d h bb l).trans (V_main_v2_apply m c d h (rowOf t bb) l)

theorem idx1 : ∀ t : Fin cfg0.N, win0_1.index t (0 : Fin 2) = 0 ∧ win0_1.index t (1 : Fin 2) = 0 :=
  (by decide +kernel : ∀ t : Fin grid0.N, _)

/-- Window 1's block is its whole array at every point. -/
theorem iblk1_eq (c : Dev nD) (t : Fin cfg0.N) :
    (iblk m c 1 t : Vec Ideal S384x256 .bf16) = (V m c main_v8 : S384x256.Idx → EReal) := by
  obtain ⟨e0, e1⟩ := idx1 t
  funext y
  unfold iblk
  rw [View.read_apply]
  show V m c main_v8 (((cfg0.win 1).blk t).view.emb y) = V m c main_v8 y
  refine congrArg (V m c main_v8) ?_
  funext a
  apply Fin.ext
  match a with
  | ⟨0, _⟩ => show win0_1.index t (0 : Fin 2) * 384 + 1 * (y 0).val = (y 0).val; omega
  | ⟨1, _⟩ => show win0_1.index t (1 : Fin 2) * 256 + 1 * (y 1).val = (y 1).val; omega

theorem idx2 : ∀ t : Fin cfg0.N, win0_2.index t (0 : Fin 2) = 0 ∧ win0_2.index t (1 : Fin 2) = 0 :=
  (by decide +kernel : ∀ t : Fin grid0.N, _)

/-- Window 2's block is its whole array at every point. -/
theorem iblk2_eq (c : Dev nD) (t : Fin cfg0.N) :
    (iblk m c 2 t : Vec Ideal S384x256 .bf16) = (V m c main_v9 : S384x256.Idx → EReal) := by
  obtain ⟨e0, e1⟩ := idx2 t
  funext y
  unfold iblk
  rw [View.read_apply]
  show V m c main_v9 (((cfg0.win 2).blk t).view.emb y) = V m c main_v9 y
  refine congrArg (V m c main_v9) ?_
  funext a
  apply Fin.ext
  match a with
  | ⟨0, _⟩ => show win0_2.index t (0 : Fin 2) * 384 + 1 * (y 0).val = (y 0).val; omega
  | ⟨1, _⟩ => show win0_2.index t (1 : Fin 2) * 256 + 1 * (y 1).val = (y 1).val; omega

theorem idx3 : ∀ t : Fin cfg0.N, win0_3.index t (0 : Fin 2) = 0 ∧ win0_3.index t (1 : Fin 2) = 0 :=
  (by decide +kernel : ∀ t : Fin grid0.N, _)

/-- Window 3's block is its whole array at every point. -/
theorem iblk3_eq (c : Dev nD) (t : Fin cfg0.N) :
    (iblk m c 3 t : Vec Ideal S1x256 .f32) = (V m c main_arg1 : S1x256.Idx → EReal) := by
  obtain ⟨e0, e1⟩ := idx3 t
  funext y
  unfold iblk
  rw [View.read_apply]
  show V m c main_arg1 (((cfg0.win 3).blk t).view.emb y) = V m c main_arg1 y
  refine congrArg (V m c main_arg1) ?_
  funext a
  apply Fin.ext
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- and that array is the argument as launched. -/
theorem iblk3_arg (c : Dev nD) (t : Fin cfg0.N) :
    (iblk m c 3 t : Vec Ideal S1x256 .f32) = (m ((c : Thread nD τ).loc main_arg1) : S1x256.Idx → EReal) :=
  (iblk3_eq m c t).trans (V_main_arg1 m c)

theorem idx4 : ∀ t : Fin cfg0.N, win0_4.index t (0 : Fin 2) = 0 ∧ win0_4.index t (1 : Fin 2) = 0 :=
  (by decide +kernel : ∀ t : Fin grid0.N, _)

/-- Window 4's block is its whole array at every point. -/
theorem iblk4_eq (c : Dev nD) (t : Fin cfg0.N) :
    (iblk m c 4 t : Vec Ideal S2304x256 .bf16) = (V m c main_arg2 : S2304x256.Idx → EReal) := by
  obtain ⟨e0, e1⟩ := idx4 t
  funext y
  unfold iblk
  rw [View.read_apply]
  show V m c main_arg2 (((cfg0.win 4).blk t).view.emb y) = V m c main_arg2 y
  refine congrArg (V m c main_arg2) ?_
  funext a
  apply Fin.ext
  match a with
  | ⟨0, _⟩ => show win0_4.index t (0 : Fin 2) * 2304 + 1 * (y 0).val = (y 0).val; omega
  | ⟨1, _⟩ => show win0_4.index t (1 : Fin 2) * 256 + 1 * (y 1).val = (y 1).val; omega

/-- and that array is the argument as launched. -/
theorem iblk4_arg (c : Dev nD) (t : Fin cfg0.N) :
    (iblk m c 4 t : Vec Ideal S2304x256 .bf16) = (m ((c : Thread nD τ).loc main_arg2) : S2304x256.Idx → EReal) :=
  (iblk4_eq m c t).trans (V_main_arg2 m c)

theorem idx5 : ∀ t : Fin cfg0.N, win0_5.index t (0 : Fin 2) = 0 ∧ win0_5.index t (1 : Fin 2) = 0 :=
  (by decide +kernel : ∀ t : Fin grid0.N, _)

/-- Window 5's block is its whole array at every point. -/
theorem iblk5_eq (c : Dev nD) (t : Fin cfg0.N) :
    (iblk m c 5 t : Vec Ideal S1x128 .f32) = (V m c main_arg3 : S1x128.Idx → EReal) := by
  obtain ⟨e0, e1⟩ := idx5 t
  funext y
  unfold iblk
  rw [View.read_apply]
  show V m c main_arg3 (((cfg0.win 5).blk t).view.emb y) = V m c main_arg3 y
  refine congrArg (V m c main_arg3) ?_
  funext a
  apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- and that array is the argument as launched. -/
theorem iblk5_arg (c : Dev nD) (t : Fin cfg0.N) :
    (iblk m c 5 t : Vec Ideal S1x128 .f32) = (m ((c : Thread nD τ).loc main_arg3) : S1x128.Idx → EReal) :=
  (iblk5_eq m c t).trans (V_main_arg3 m c)

theorem idx6 : ∀ t : Fin cfg0.N, win0_6.index t (0 : Fin 2) = 0 ∧ win0_6.index t (1 : Fin 2) = 0 :=
  (by decide +kernel : ∀ t : Fin grid0.N, _)

/-- Window 6's block is its whole array at every point. -/
theorem iblk6_eq (c : Dev nD) (t : Fin cfg0.N) :
    (iblk m c 6 t : Vec Ideal S512x128 .bf16) = (V m c main_v10 : S512x128.Idx → EReal) := by
  obtain ⟨e0, e1⟩ := idx6 t
  funext y
  unfold iblk
  rw [View.read_apply]
  show V m c main_v10 (((cfg0.win 6).blk t).view.emb y) = V m c main_v10 y
  refine congrArg (V m c main_v10) ?_
  funext a
  apply Fin.ext
  match a with
  | ⟨0, _⟩ => show win0_6.index t (0 : Fin 2) * 512 + 1 * (y 0).val = (y 0).val; omega
  | ⟨1, _⟩ => show win0_6.index t (1 : Fin 2) * 128 + 1 * (y 1).val = (y 1).val; omega

theorem idx7 : ∀ t : Fin cfg0.N, win0_7.index t (0 : Fin 2) = 0 ∧ win0_7.index t (1 : Fin 2) = 0 :=
  (by decide +kernel : ∀ t : Fin grid0.N, _)

/-- Window 7's block is its whole array at every point. -/
theorem iblk7_eq (c : Dev nD) (t : Fin cfg0.N) :
    (iblk m c 7 t : Vec Ideal S1x128 .f32) = (V m c main_arg5 : S1x128.Idx → EReal) := by
  obtain ⟨e0, e1⟩ := idx7 t
  funext y
  unfold iblk
  rw [View.read_apply]
  show V m c main_arg5 (((cfg0.win 7).blk t).view.emb y) = V m c main_arg5 y
  refine congrArg (V m c main_arg5) ?_
  funext a
  apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- and that array is the argument as launched. -/
theorem iblk7_arg (c : Dev nD) (t : Fin cfg0.N) :
    (iblk m c 7 t : Vec Ideal S1x128 .f32) = (m ((c : Thread nD τ).loc main_arg5) : S1x128.Idx → EReal) :=
  (iblk7_eq m c t).trans (V_main_arg5 m c)

theorem idx8 : ∀ t : Fin cfg0.N, win0_8.index t (0 : Fin 2) = 0 ∧ win0_8.index t (1 : Fin 2) = 0 :=
  (by decide +kernel : ∀ t : Fin grid0.N, _)

/-- Window 8's block is its whole array at every point. -/
theorem iblk8_eq (c : Dev nD) (t : Fin cfg0.N) :
    (iblk m c 8 t : Vec Ideal S1x128 .f32) = (V m c main_arg6 : S1x128.Idx → EReal) := by
  obtain ⟨e0, e1⟩ := idx8 t
  funext y
  unfold iblk
  rw [View.read_apply]
  show V m c main_arg6 (((cfg0.win 8).blk t).view.emb y) = V m c main_arg6 y
  refine congrArg (V m c main_arg6) ?_
  funext a
  apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- and that array is the argument as launched. -/
theorem iblk8_arg (c : Dev nD) (t : Fin cfg0.N) :
    (iblk m c 8 t : Vec Ideal S1x128 .f32) = (m ((c : Thread nD τ).loc main_arg6) : S1x128.Idx → EReal) :=
  (iblk8_eq m c t).trans (V_main_arg6 m c)

theorem idx9 : ∀ t : Fin cfg0.N, win0_9.index t (0 : Fin 2) = 0 ∧ win0_9.index t (1 : Fin 2) = 0 :=
  (by decide +kernel : ∀ t : Fin grid0.N, _)

/-- Window 9's block is its whole array at every point. -/
theorem iblk9_eq (c : Dev nD) (t : Fin cfg0.N) :
    (iblk m c 9 t : Vec Ideal S1x128 .f32) = (V m c main_arg7 : S1x128.Idx → EReal) := by
  obtain ⟨e0, e1⟩ := idx9 t
  funext y
  unfold iblk
  rw [View.read_apply]
  show V m c main_arg7 (((cfg0.win 9).blk t).view.emb y) = V m c main_arg7 y
  refine congrArg (V m c main_arg7) ?_
  funext a
  apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- and that array is the argument as launched. -/
theorem iblk9_arg (c : Dev nD) (t : Fin cfg0.N) :
    (iblk m c 9 t : Vec Ideal S1x128 .f32) = (m ((c : Thread nD τ).loc main_arg7) : S1x128.Idx → EReal) :=
  (iblk9_eq m c t).trans (V_main_arg7 m c)

theorem idx10 : ∀ t : Fin cfg0.N, win0_10.index t (0 : Fin 2) = 0 ∧ win0_10.index t (1 : Fin 2) = 0 :=
  (by decide +kernel : ∀ t : Fin grid0.N, _)

/-- Window 10's block is its whole array at every point. -/
theorem iblk10_eq (c : Dev nD) (t : Fin cfg0.N) :
    (iblk m c 10 t : Vec Ideal S128x128 .bf16) = (V m c main_arg8 : S128x128.Idx → EReal) := by
  obtain ⟨e0, e1⟩ := idx10 t
  funext y
  unfold iblk
  rw [View.read_apply]
  show V m c main_arg8 (((cfg0.win 10).blk t).view.emb y) = V m c main_arg8 y
  refine congrArg (V m c main_arg8) ?_
  funext a
  apply Fin.ext
  match a with
  | ⟨0, _⟩ => show win0_10.index t (0 : Fin 2) * 128 + 1 * (y 0).val = (y 0).val; omega
  | ⟨1, _⟩ => show win0_10.index t (1 : Fin 2) * 128 + 1 * (y 1).val = (y 1).val; omega

/-- and that array is the argument as launched. -/
theorem iblk10_arg (c : Dev nD) (t : Fin cfg0.N) :
    (iblk m c 10 t : Vec Ideal S128x128 .bf16) = (m ((c : Thread nD τ).loc main_arg8) : S128x128.Idx → EReal) :=
  (iblk10_eq m c t).trans (V_main_arg8 m c)

theorem idx11 : ∀ t : Fin cfg0.N, win0_11.index t (0 : Fin 2) = 0 ∧ win0_11.index t (1 : Fin 2) = 0 :=
  (by decide +kernel : ∀ t : Fin grid0.N, _)

/-- Window 11's block is its whole array at every point. -/
theorem iblk11_eq (c : Dev nD) (t : Fin cfg0.N) :
    (iblk m c 11 t : Vec Ideal S1x128 .f32) = (V m c main_arg9 : S1x128.Idx → EReal) := by
  obtain ⟨e0, e1⟩ := idx11 t
  funext y
  unfold iblk
  rw [View.read_apply]
  show V m c main_arg9 (((cfg0.win 11).blk t).view.emb y) = V m c main_arg9 y
  refine congrArg (V m c main_arg9) ?_
  funext a
  apply Fin.ext
  match a with
  | ⟨0, _⟩ => show win0_11.index t (0 : Fin 2) * 1 + 1 * (y 0).val = (y 0).val; omega
  | ⟨1, _⟩ => show win0_11.index t (1 : Fin 2) * 128 + 1 * (y 1).val = (y 1).val; omega

/-- and that array is the argument as launched. -/
theorem iblk11_arg (c : Dev nD) (t : Fin cfg0.N) :
    (iblk m c 11 t : Vec Ideal S1x128 .f32) = (m ((c : Thread nD τ).loc main_arg9) : S1x128.Idx → EReal) :=
  (iblk11_eq m c t).trans (V_main_arg9 m c)

/-! ## The output array after the run -/

/-- The output window's block index at point t is (t, 0). -/
theorem idx12 : ∀ t : Fin cfg0.N, win0_12.index t (0 : Fin 2) = t.val ∧ win0_12.index t (1 : Fin 2) = 0 :=
  (by decide +kernel : ∀ t : Fin grid0.N, _)

/-- An index of the output array is in point t's block iff each coordinate is in the block's range on its axis. -/
theorem mem_blk (t : Fin cfg0.N) (i : S1024x128.Idx) :
    i ∈ ((cfg0.win 12).blk t).view.set ↔ ∀ a : Fin 2, win0_12.index t a * S64x128.size a ≤ (i a).val
      ∧ (i a).val < win0_12.index t a * S64x128.size a + S64x128.size a := by
  show i ∈ ((View.whole main_v11).slice (win0_12.rect t)).set ↔ _
  rw [View.set_slice_whole, Rect.mem_set_unit]
  exact Iff.rfl

/-- Every row of the output array is in some point's block: row b in point b / 64's. -/
theorem cover (i : S1024x128.Idx) :
    ∃ t : Fin cfg0.N, (cfg0.win 12).flush t = true ∧ i ∈ ((cfg0.win 12).blk t).view.set := by
  have h0 : (i 0).val < 1024 := idx2_lt0 i
  have h1 : (i 1).val < 128 := idx2_lt1 i
  have hN : cfg0.N = 16 := N_0
  have ht : (i 0).val / 64 < cfg0.N := by omega
  refine ⟨⟨(i 0).val / 64, ht⟩, flush0_12 _, ?_⟩
  rw [mem_blk]
  obtain ⟨e0, e1⟩ := idx12 ⟨(i 0).val / 64, ht⟩
  have e0' : win0_12.index ⟨(i 0).val / 64, ht⟩ (0 : Fin 2) = (i 0).val / 64 := e0
  intro a
  match a with
  | ⟨0, _⟩ =>
    show win0_12.index ⟨(i 0).val / 64, ht⟩ (0 : Fin 2) * 64 ≤ (i 0).val
      ∧ (i 0).val < win0_12.index ⟨(i 0).val / 64, ht⟩ (0 : Fin 2) * 64 + 64
    omega
  | ⟨1, _⟩ =>
    show win0_12.index ⟨(i 0).val / 64, ht⟩ (1 : Fin 2) * 128 ≤ (i 1).val
      ∧ (i 1).val < win0_12.index ⟨(i 0).val / 64, ht⟩ (1 : Fin 2) * 128 + 128
    omega

section Run

variable (G : Dev nD → Fin 1024 → Fin 128 → EReal)
  (hG : ∀ (c : Dev nD) (t : Fin cfg0.N) (bb : Fin 64) (q : Fin 128),
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 bb q) = G c (rowOf t bb) q)
include hG

/-- What point t writes back is its block of the whole-array function. -/
theorem flushed_eq (c : Dev nD) (t : Fin cfg0.N) :
    (dats m 0 c).flushed 12 t = ((cfg0.win 12).blk t).view.read (Elt Ideal) (arrOf (G c)) := by
  show (cfg0.win 12).cut (grid0.coords t) ((dats m 0 c).after 12 t) = _
  rw [after0_12]
  obtain ⟨e0, e1⟩ := idx12 t
  refine funext fun (y : S64x128.Idx) => ?_
  obtain ⟨bb, q, rfl⟩ : ∃ (bb : Fin 64) (q : Fin 128), y = ix2 bb q := ⟨y 0, y 1, eq_ix2 y⟩
  rw [View.read_apply]
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 bb q) = arrOf (G c) (((cfg0.win 12).blk t).view.emb (ix2 bb q))
  rw [hG c t bb q]
  unfold arrOf rowOf
  refine congrArg₂ (G c) (Fin.ext ?_) (Fin.ext ?_)
  · show 64 * t.val + bb.val = win0_12.index t (0 : Fin 2) * 64 + 1 * bb.val; omega
  · show q.val = win0_12.index t (1 : Fin 2) * 128 + 1 * q.val; omega

/-- So the output array ends holding the whole-array function. -/
theorem final (c : Dev nD) : (dats m 0 c).arrAt 12 cfg0.N = arrOf (G c) :=
  (dats m 0 c).arrAt_eq_of_cover 12 (arrOf (G c)) (fun t _ => flushed_eq m G hG c t) cover

/-- The result array: the first ten lanes of the output array. -/
theorem tail_eq (c : Dev nD) :
    Pipeline.afterTail₀ cfgs (dats m) 0 (V0 m) [hostOps1] c main_v12 = resOf (G c) := by
  unfold Pipeline.afterTail₀
  show StableHlo.after hostOps1 _ (Proc.devRef .tc main_v12) = _
  after_results
  rw [(Pipeline.withArrays_arr spec0 launch0.win.arr_inj c _ _ 12).trans (final m G hG c)]
  funext i
  refine (extractStridedSlice_apply _ _ _ i
    (ix2 (⟨(i 0).val, idx2_lt0 i⟩ : Fin 1024) (⟨(i 1).val, Nat.lt_trans (idx2_lt1 i) (by decide)⟩ : Fin 128)) ?_).trans rfl
  intro a
  match a with
  | ⟨0, _⟩ => show (i 0).val = 0 + (i 0).val; omega
  | ⟨1, _⟩ => show (i 1).val = 0 + (i 1).val; omega

/-- THE RUN: the program terminates with its result the whole-array function cut to ten lanes, and its arguments unchanged. -/
theorem run_of_body : θ_run defs (onTc (τ := τ) (main (F := Ideal))) ⟨m, fun _ => 0, ρ⟩ (fun r => ∀ c : Dev nD,
      r.2.mem ((c.tc : Thread nD τ).loc main_v12) = resOf (G c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v12 (Pipeline.mem_restRefs_of main_v12 (by decide) (by decide))).trans (tail_eq m G hG c),
      (((h c).2 main_arg0 (Pipeline.mem_restRefs_of main_arg0 (by decide) (by decide))).trans (W_main_arg0 m (dats m) c)),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      (((h c).2 main_arg4 (Pipeline.mem_restRefs_of main_arg4 (by decide) (by decide))).trans (W_main_arg4 m (dats m) c)),
      ((h c).1 7).trans (((dats m 0 c).arrAt_in 7 rfl _).trans ((A_eq m c 7).trans (V_main_arg5 m c))),
      ((h c).1 8).trans (((dats m 0 c).arrAt_in 8 rfl _).trans ((A_eq m c 8).trans (V_main_arg6 m c))),
      ((h c).1 9).trans (((dats m 0 c).arrAt_in 9 rfl _).trans ((A_eq m c 9).trans (V_main_arg7 m c))),
      ((h c).1 10).trans (((dats m 0 c).arrAt_in 10 rfl _).trans ((A_eq m c 10).trans (V_main_arg8 m c))),
      ((h c).1 11).trans (((dats m 0 c).arrAt_in 11 rfl _).trans ((A_eq m c 11).trans (V_main_arg9 m c))),
      (((h c).2 main_arg10 (Pipeline.mem_restRefs_of main_arg10 (by decide) (by decide))).trans (W_main_arg10 m (dats m) c))⟩) (run_main m ρ)

end Run

end Cert.KernelArrays

end
-- ==== Proof.RefArrays.lean ====
/-
  The reference program read at the level of its arrays: the image array the region finds as a function of the image
  argument, each window's block at a grid point as a piece of its array, and the run of the whole program with its result
  named, given only what the body leaves in the output block at each grid point.

  The grid has one point per image. The output array has 1024 rows of one row of 128 lanes; grid point t writes row t;
  the program's result is that array with its unit axis dropped, cut to its first ten lanes.
-/
import proofs.«162147_g2000504528272344_pallasbulk_1029_23_alg».proof.Defs
import proofs.«162147_g2000504528272344_pallasbulk_1029_23_alg».proof.Proof.Gen.ReferenceIdeal.Frame
import proofs.«162147_g2000504528272344_pallasbulk_1029_23_alg».proof.Proof.FrameResult
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx
open Cert.Frames

namespace Cert.RefArrays

open Cert.ReferenceIdeal Cert.ReferenceIdeal.Gen

variable (m : (ℓ : Loc nD τ sig) → Buf (Elt Ideal) ℓ) (ρ : Dev nD → PrngReg)

/-! ## The image array as the region finds it -/

/-- The image batch with the channel axis moved last and merged with the width: lane l = width · 3 + channel. -/
def imgPrep (a : FVec Ideal S1024x3x14x14x14 .f32) : FVec Ideal S1024x14x14x42 .f32 :=
  shapeCast S1024x14x14x42
    (transpose S1024x14x14x14x3 [0, 2, 3, 4, 1] a transposes_S1024x3x14x14x14_S1024x14x14x14x3_0_2_3_4_1)
    shapeCasts_S1024x14x14x14x3_S1024x14x14x42

/-- At (image b, depth d, height h, lane l) it is the argument at (b, channel l % 3, d, h, width l / 3). -/
theorem imgPrep_apply (a : FVec Ideal S1024x3x14x14x14 .f32) (b : Fin 1024) (d h : Fin 14) (l : Fin 42) :
    imgPrep a (ix4 b d h l)
      = a (ix5 b ⟨l.val % 3, Nat.mod_lt _ (by decide)⟩ d h ⟨l.val / 3, by have := l.isLt; omega⟩) := by
  unfold imgPrep
  have hl := l.isLt
  refine (shapeCast_apply _ _ (ix4 b d h l)
    (ix5 b d h (⟨l.val / 3, by omega⟩ : Fin 14) (⟨l.val % 3, Nat.mod_lt _ (by decide)⟩ : Fin 3)) ?_).trans ?_
  · rw [Shape.rowMajor_val_five, Shape.rowMajor_val_four]
    show ((((b.val * 14 + d.val) * 14 + h.val) * 14 + l.val / 3) * 3 + l.val % 3)
      = ((b.val * 14 + d.val) * 14 + h.val) * 42 + l.val
    omega
  · refine (transpose_apply _ _ _ _
      (ix5 b (⟨l.val % 3, Nat.mod_lt _ (by decide)⟩ : Fin 3) d h (⟨l.val / 3, by omega⟩ : Fin 14)) ?_).trans rfl
    intro k
    match k with
    | ⟨0, _⟩ => rfl
    | ⟨1, _⟩ => rfl
    | ⟨2, _⟩ => rfl
    | ⟨3, _⟩ => rfl
    | ⟨4, _⟩ => rfl

/-- The image window's array is the prepared image batch. -/
theorem V_main_v1 (c : Dev nD) :
    (V m c main_v1 : S1024x14x14x42.Idx → EReal) = imgPrep (m ((c : Thread nD τ).loc main_arg10)) := by
  dsimp only [Gen.V, Gen.V0]
  simp only [Gen.hostOps0, List.flatten_cons, List.flatten_nil, List.append_nil, List.cons_append, List.nil_append]
  after_results
  rfl

theorem V_main_v1_apply (c : Dev nD) (b : Fin 1024) (d h : Fin 14) (l : Fin 42) :
    (V m c main_v1 : S1024x14x14x42.Idx → EReal) (ix4 b d h l)
      = (m ((c : Thread nD τ).loc main_arg10) : S1024x3x14x14x14.Idx → EReal)
          (ix5 b ⟨l.val % 3, Nat.mod_lt _ (by decide)⟩ d h ⟨l.val / 3, by have := l.isLt; omega⟩) :=
  (congrFun (V_main_v1 m c) _).trans (imgPrep_apply _ b d h l)

/-! ## Each window's block at a grid point -/

/-- The image that grid point t works on. -/
def imgOf (t : Fin cfg0.N) : Fin 1024 := ⟨t.val, lt_of_lt_of_eq t.isLt N_0⟩

/-- The image window's block index at point t is (t, 0, 0, 0). -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- The image window's block at point t is image t of its array. -/
theorem iblk0_apply (c : Dev nD) (t : Fin cfg0.N) (d h : Fin 14) (l : Fin 42) :
    (iblk m c 0 t : Vec Ideal S1x14x14x42 .f32) (ix4 (0 : Fin 1) d h l)
      = (V m c main_v1 : S1024x14x14x42.Idx → EReal) (ix4 (imgOf t) d h l) := by
  obtain ⟨e0, e1, e2, e3⟩ := idx0 t
  unfold iblk
  rw [View.read_apply]
  show V m c main_v1 (((cfg0.win 0).blk t).view.emb (ix4 (0 : Fin 1) d h l)) = V m c main_v1 (ix4 (imgOf t) d h l)
  refine congrArg (V m c main_v1) ?_
  funext a
  apply Fin.ext
  match a with
  | ⟨0, _⟩ => show win0_0.index t (0 : Fin 4) * 1 + 1 * 0 = t.val; omega
  | ⟨1, _⟩ => show win0_0.index t (1 : Fin 4) * 14 + 1 * d.val = d.val; omega
  | ⟨2, _⟩ => show win0_0.index t (2 : Fin 4) * 14 + 1 * h.val = h.val; omega
  | ⟨3, _⟩ => show win0_0.index t (3 : Fin 4) * 42 + 1 * l.val = l.val; omega

/-- The same in terms of the image argument. -/
theorem iblk0_arg (c : Dev nD) (t : Fin cfg0.N) (d h : Fin 14) (l : Fin 42) :
    (iblk m c 0 t : Vec Ideal S1x14x14x42 .f32) (ix4 (0 : Fin 1) d h l)
      = (m ((c : Thread nD τ).loc main_arg10) : S1024x3x14x14x14.Idx → EReal)
          (ix5 (imgOf t) ⟨l.val % 3, Nat.mod_lt _ (by decide)⟩ d h ⟨l.val / 3, by have := l.isLt; omega⟩) :=
  (iblk0_apply m c t d h l).trans (V_main_v1_apply m c (imgOf t) d h l)

theorem idx1 : ∀ t : Fin cfg0.N, win0_1.index t (0 : Fin 2) = 0 ∧ win0_1.index t (1 : Fin 2) = 0 :=
  (by decide +kernel : ∀ t : Fin grid0.N, _)

/-- Window 1's block is its whole array, the argument as launched, at every point. -/
theorem iblk1_arg (c : Dev nD) (t : Fin cfg0.N) :
    (iblk m c 1 t : Vec Ideal S378x512 .bf16) = (m ((c : Thread nD τ).loc main_arg0) : S378x512.Idx → EReal) := by
  obtain ⟨e0, e1⟩ := idx1 t
  refine Eq.trans ?_ (V_main_arg0 m c)
  funext y
  unfold iblk
  rw [View.read_apply]
  show V m c main_arg0 (((cfg0.win 1).blk t).view.emb y) = V m c main_arg0 y
  refine congrArg (V m c main_arg0) ?_
  funext a
  apply Fin.ext
  match a with
  | ⟨0, _⟩ => show win0_1.index t (0 : Fin 2) * 378 + 1 * (y 0).val = (y 0).val; omega
  | ⟨1, _⟩ => show win0_1.index t (1 : Fin 2) * 512 + 1 * (y 1).val = (y 1).val; omega

theorem idx2 : ∀ t : Fin cfg0.N, win0_2.index t (0 : Fin 2) = 0 ∧ win0_2.index t (1 : Fin 2) = 0 :=
  (by decide +kernel : ∀ t : Fin grid0.N, _)

/-- Window 2's block is its whole array, the argument as launched, at every point. -/
theorem iblk2_arg (c : Dev nD) (t : Fin cfg0.N) :
    (iblk m c 2 t : Vec Ideal S1x256 .f32) = (m ((c : Thread nD τ).loc main_arg1) : S1x256.Idx → EReal) := by
  obtain ⟨e0, e1⟩ := idx2 t
  refine Eq.trans ?_ (V_main_arg1 m c)
  funext y
  unfold iblk
  rw [View.read_apply]
  show V m c main_arg1 (((cfg0.win 2).blk t).view.emb y) = V m c main_arg1 y
  refine congrArg (V m c main_arg1) ?_
  funext a
  apply Fin.ext
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem idx3 : ∀ t : Fin cfg0.N, win0_3.index t (0 : Fin 2) = 0 ∧ win0_3.index t (1 : Fin 2) = 0 :=
  (by decide +kernel : ∀ t : Fin grid0.N, _)

/-- Window 3's block is its whole array, the argument as launched, at every point. -/
theorem iblk3_arg (c : Dev nD) (t : Fin cfg0.N) :
    (iblk m c 3 t : Vec Ideal S2304x256 .bf16) = (m ((c : Thread nD τ).loc main_arg2) : S2304x256.Idx → EReal) := by
  obtain ⟨e0, e1⟩ := idx3 t
  refine Eq.trans ?_ (V_main_arg2 m c)
  funext y
  unfold iblk
  rw [View.read_apply]
  show V m c main_arg2 (((cfg0.win 3).blk t).view.emb y) = V m c main_arg2 y
  refine congrArg (V m c main_arg2) ?_
  funext a
  apply Fin.ext
  match a with
  | ⟨0, _⟩ => show win0_3.index t (0 : Fin 2) * 2304 + 1 * (y 0).val = (y 0).val; omega
  | ⟨1, _⟩ => show win0_3.index t (1 : Fin 2) * 256 + 1 * (y 1).val = (y 1).val; omega

theorem idx4 : ∀ t : Fin cfg0.N, win0_4.index t (0 : Fin 2) = 0 ∧ win0_4.index t (1 : Fin 2) = 0 :=
  (by decide +kernel : ∀ t : Fin grid0.N, _)

/-- Window 4's block is its whole array, the argument as launched, at every point. -/
theorem iblk4_arg (c : Dev nD) (t : Fin cfg0.N) :
    (iblk m c 4 t : Vec Ideal S1x128 .f32) = (m ((c : Thread nD τ).loc main_arg3) : S1x128.Idx → EReal) := by
  obtain ⟨e0, e1⟩ := idx4 t
  refine Eq.trans ?_ (V_main_arg3 m c)
  funext y
  unfold iblk
  rw [View.read_apply]
  show V m c main_arg3 (((cfg0.win 4).blk t).view.emb y) = V m c main_arg3 y
  refine congrArg (V m c main_arg3) ?_
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

/-- Window 5's block is its whole array, the argument as launched, at every point. -/
theorem iblk5_arg (c : Dev nD) (t : Fin cfg0.N) :
    (iblk m c 5 t : Vec Ideal S4x128x128 .bf16) = (m ((c : Thread nD τ).loc main_arg4) : S4x128x128.Idx → EReal) := by
  obtain ⟨e0, e1, e2⟩ := idx5 t
  refine Eq.trans ?_ (V_main_arg4 m c)
  funext y
  unfold iblk
  rw [View.read_apply]
  show V m c main_arg4 (((cfg0.win 5).blk t).view.emb y) = V m c main_arg4 y
  refine congrArg (V m c main_arg4) ?_
  funext a
  apply Fin.ext
  match a with
  | ⟨0, _⟩ => show win0_5.index t (0 : Fin 3) * 4 + 1 * (y 0).val = (y 0).val; omega
  | ⟨1, _⟩ => show win0_5.index t (1 : Fin 3) * 128 + 1 * (y 1).val = (y 1).val; omega
  | ⟨2, _⟩ => show win0_5.index t (2 : Fin 3) * 128 + 1 * (y 2).val = (y 2).val; omega

theorem idx6 : ∀ t : Fin cfg0.N, win0_6.index t (0 : Fin 2) = 0 ∧ win0_6.index t (1 : Fin 2) = 0 :=
  (by decide +kernel : ∀ t : Fin grid0.N, _)

/-- Window 6's block is its whole array, the argument as launched, at every point. -/
theorem iblk6_arg (c : Dev nD) (t : Fin cfg0.N) :
    (iblk m c 6 t : Vec Ideal S1x128 .f32) = (m ((c : Thread nD τ).loc main_arg5) : S1x128.Idx → EReal) := by
  obtain ⟨e0, e1⟩ := idx6 t
  refine Eq.trans ?_ (V_main_arg5 m c)
  funext y
  unfold iblk
  rw [View.read_apply]
  show V m c main_arg5 (((cfg0.win 6).blk t).view.emb y) = V m c main_arg5 y
  refine congrArg (V m c main_arg5) ?_
  funext a
  apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem idx7 : ∀ t : Fin cfg0.N, win0_7.index t (0 : Fin 2) = 0 ∧ win0_7.index t (1 : Fin 2) = 0 :=
  (by decide +kernel : ∀ t : Fin grid0.N, _)

/-- Window 7's block is its whole array, the argument as launched, at every point. -/
theorem iblk7_arg (c : Dev nD) (t : Fin cfg0.N) :
    (iblk m c 7 t : Vec Ideal S1x128 .f32) = (m ((c : Thread nD τ).loc main_arg6) : S1x128.Idx → EReal) := by
  obtain ⟨e0, e1⟩ := idx7 t
  refine Eq.trans ?_ (V_main_arg6 m c)
  funext y
  unfold iblk
  rw [View.read_apply]
  show V m c main_arg6 (((cfg0.win 7).blk t).view.emb y) = V m c main_arg6 y
  refine congrArg (V m c main_arg6) ?_
  funext a
  apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem idx8 : ∀ t : Fin cfg0.N, win0_8.index t (0 : Fin 2) = 0 ∧ win0_8.index t (1 : Fin 2) = 0 :=
  (by decide +kernel : ∀ t : Fin grid0.N, _)

/-- Window 8's block is its whole array, the argument as launched, at every point. -/
theorem iblk8_arg (c : Dev nD) (t : Fin cfg0.N) :
    (iblk m c 8 t : Vec Ideal S1x128 .f32) = (m ((c : Thread nD τ).loc main_arg7) : S1x128.Idx → EReal) := by
  obtain ⟨e0, e1⟩ := idx8 t
  refine Eq.trans ?_ (V_main_arg7 m c)
  funext y
  unfold iblk
  rw [View.read_apply]
  show V m c main_arg7 (((cfg0.win 8).blk t).view.emb y) = V m c main_arg7 y
  refine congrArg (V m c main_arg7) ?_
  funext a
  apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem idx9 : ∀ t : Fin cfg0.N, win0_9.index t (0 : Fin 2) = 0 ∧ win0_9.index t (1 : Fin 2) = 0 :=
  (by decide +kernel : ∀ t : Fin grid0.N, _)

/-- Window 9's block is its whole array, the argument as launched, at every point. -/
theorem iblk9_arg (c : Dev nD) (t : Fin cfg0.N) :
    (iblk m c 9 t : Vec Ideal S128x128 .bf16) = (m ((c : Thread nD τ).loc main_arg8) : S128x128.Idx → EReal) := by
  obtain ⟨e0, e1⟩ := idx9 t
  refine Eq.trans ?_ (V_main_arg8 m c)
  funext y
  unfold iblk
  rw [View.read_apply]
  show V m c main_arg8 (((cfg0.win 9).blk t).view.emb y) = V m c main_arg8 y
  refine congrArg (V m c main_arg8) ?_
  funext a
  apply Fin.ext
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem idx10 : ∀ t : Fin cfg0.N, win0_10.index t (0 : Fin 2) = 0 ∧ win0_10.index t (1 : Fin 2) = 0 :=
  (by decide +kernel : ∀ t : Fin grid0.N, _)

/-- Window 10's block is its whole array, the argument as launched, at every point. -/
theorem iblk10_arg (c : Dev nD) (t : Fin cfg0.N) :
    (iblk m c 10 t : Vec Ideal S1x128 .f32) = (m ((c : Thread nD τ).loc main_arg9) : S1x128.Idx → EReal) := by
  obtain ⟨e0, e1⟩ := idx10 t
  refine Eq.trans ?_ (V_main_arg9 m c)
  funext y
  unfold iblk
  rw [View.read_apply]
  show V m c main_arg9 (((cfg0.win 10).blk t).view.emb y) = V m c main_arg9 y
  refine congrArg (V m c main_arg9) ?_
  funext a
  apply Fin.ext
  match a with
  | ⟨0, _⟩ => show win0_10.index t (0 : Fin 2) * 1 + 1 * (y 0).val = (y 0).val; omega
  | ⟨1, _⟩ => show win0_10.index t (1 : Fin 2) * 128 + 1 * (y 1).val = (y 1).val; omega

/-! ## The output array after the run -/

/-- A function of (image, lane) as an array of 1024 rows of one row of 128 lanes. -/
def arrOf3 (g : Fin 1024 → Fin 128 → EReal) : (⟨3, ![1024, 1, 128]⟩ : Shape).Idx → EReal :=
  fun i => g ⟨(i 0).val, (i 0).isLt⟩ ⟨(i 2).val, (i 2).isLt⟩

/-- The output window's block index at point t is (t, 0, 0). -/
theorem idx11 : ∀ t : Fin cfg0.N, win0_11.index t (0 : Fin 3) = t.val ∧ win0_11.index t (1 : Fin 3) = 0
    ∧ win0_11.index t (2 : Fin 3) = 0 :=
  (by decide +kernel : ∀ t : Fin grid0.N, _)

/-- An index of the output array is in point t's block iff each coordinate is in the block's range on its axis. -/
theorem mem_blk (t : Fin cfg0.N) (i : S1024x1x128.Idx) :
    i ∈ ((cfg0.win 11).blk t).view.set ↔ ∀ a : Fin 3, win0_11.index t a * S1x1x128.size a ≤ (i a).val
      ∧ (i a).val < win0_11.index t a * S1x1x128.size a + S1x1x128.size a := by
  show i ∈ ((View.whole main_v2).slice (win0_11.rect t)).set ↔ _
  rw [View.set_slice_whole, Rect.mem_set_unit]
  exact Iff.rfl

/-- Every row of the output array is in some point's block: row b in point b's. -/
theorem cover (i : S1024x1x128.Idx) :
    ∃ t : Fin cfg0.N, (cfg0.win 11).flush t = true ∧ i ∈ ((cfg0.win 11).blk t).view.set := by
  have h0 : (i 0).val < 1024 := (i 0).isLt
  have h1 : (i 1).val < 1 := (i 1).isLt
  have h2 : (i 2).val < 128 := (i 2).isLt
  have hN : cfg0.N = 1024 := N_0
  have ht : (i 0).val < cfg0.N := by omega
  refine ⟨⟨(i 0).val, ht⟩, flush0_11 _, ?_⟩
  rw [mem_blk]
  obtain ⟨e0, e1, e2⟩ := idx11 ⟨(i 0).val, ht⟩
  have e0' : win0_11.index ⟨(i 0).val, ht⟩ (0 : Fin 3) = (i 0).val := e0
  intro a
  match a with
  | ⟨0, _⟩ =>
    show win0_11.index ⟨(i 0).val, ht⟩ (0 : Fin 3) * 1 ≤ (i 0).val
      ∧ (i 0).val < win0_11.index ⟨(i 0).val, ht⟩ (0 : Fin 3) * 1 + 1
    omega
  | ⟨1, _⟩ =>
    show win0_11.index ⟨(i 0).val, ht⟩ (1 : Fin 3) * 1 ≤ (i 1).val
      ∧ (i 1).val < win0_11.index ⟨(i 0).val, ht⟩ (1 : Fin 3) * 1 + 1
    omega
  | ⟨2, _⟩ =>
    show win0_11.index ⟨(i 0).val, ht⟩ (2 : Fin 3) * 128 ≤ (i 2).val
      ∧ (i 2).val < win0_11.index ⟨(i 0).val, ht⟩ (2 : Fin 3) * 128 + 128
    omega

section Run

variable (G : Dev nD → Fin 1024 → Fin 128 → EReal)
  (hG : ∀ (c : Dev nD) (t : Fin cfg0.N) (q : Fin 128),
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) (0 : Fin 1) q) = G c (imgOf t) q)
include hG

/-- What point t writes back is its block of the whole-array function. -/
theorem flushed_eq (c : Dev nD) (t : Fin cfg0.N) :
    (dats m 0 c).flushed 11 t = ((cfg0.win 11).blk t).view.read (Elt Ideal) (arrOf3 (G c)) := by
  show (cfg0.win 11).cut (grid0.coords t) ((dats m 0 c).after 11 t) = _
  rw [after0_11]
  obtain ⟨e0, e1, e2⟩ := idx11 t
  refine funext fun (y : S1x1x128.Idx) => ?_
  obtain ⟨a0, a1, q, rfl⟩ : ∃ (a0 : Fin 1) (a1 : Fin 1) (q : Fin 128), y = ix3 a0 a1 q := ⟨y 0, y 1, y 2, eq_ix3 y⟩
  obtain rfl : a0 = 0 := Subsingleton.elim _ _
  obtain rfl : a1 = 0 := Subsingleton.elim _ _
  rw [View.read_apply]
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) (0 : Fin 1) q)
    = arrOf3 (G c) (((cfg0.win 11).blk t).view.emb (ix3 (0 : Fin 1) (0 : Fin 1) q))
  rw [hG c t q]
  unfold arrOf3 imgOf
  refine congrArg₂ (G c) (Fin.ext ?_) (Fin.ext ?_)
  · show t.val = win0_11.index t (0 : Fin 3) * 1 + 1 * 0; omega
  · show q.val = win0_11.index t (2 : Fin 3) * 128 + 1 * q.val; omega

/-- So the output array ends holding the whole-array function. -/
theorem final (c : Dev nD) : (dats m 0 c).arrAt 11 cfg0.N = arrOf3 (G c) :=
  (dats m 0 c).arrAt_eq_of_cover 11 (arrOf3 (G c)) (fun t _ => flushed_eq m G hG c t) cover

/-- The result array: the output array with its unit axis dropped, cut to its first ten lanes. -/
theorem tail_eq (c : Dev nD) :
    Pipeline.afterTail₀ cfgs (dats m) 0 (V0 m) [hostOps1] c main_v4 = resOf (G c) := by
  unfold Pipeline.afterTail₀
  show StableHlo.after hostOps1 _ (Proc.devRef .tc main_v4) = _
  after_results
  rw [(Pipeline.withArrays_arr spec0 launch0.win.arr_inj c _ _ 11).trans (final m G hG c)]
  funext i
  refine (extractStridedSlice_apply _ _ _ i
    (ix2 (⟨(i 0).val, idx2_lt0 i⟩ : Fin 1024) (⟨(i 1).val, Nat.lt_trans (idx2_lt1 i) (by decide)⟩ : Fin 128)) ?_).trans ?_
  · intro a
    match a with
    | ⟨0, _⟩ => show (i 0).val = 0 + (i 0).val; omega
    | ⟨1, _⟩ => show (i 1).val = 0 + (i 1).val; omega
  · show shapeCast S1024x128 (arrOf3 (G c)) shapeCasts_S1024x1x128_S1024x128
        (ix2 (⟨(i 0).val, idx2_lt0 i⟩ : Fin 1024) (⟨(i 1).val, Nat.lt_trans (idx2_lt1 i) (by decide)⟩ : Fin 128)) = _
    refine (shapeCast_apply _ _ _
      (ix3 (⟨(i 0).val, idx2_lt0 i⟩ : Fin 1024) (0 : Fin 1) (⟨(i 1).val, Nat.lt_trans (idx2_lt1 i) (by decide)⟩ : Fin 128)) ?_).trans rfl
    rw [Shape.rowMajor_val_three, Shape.rowMajor_val_two]
    show ((i 0).val * 1 + 0) * 128 + (i 1).val = (i 0).val * 128 + (i 1).val
    omega

/-- THE RUN: the program terminates with its result the whole-array function cut to ten lanes, and its arguments unchanged. -/
theorem run_of_body : θ_run defs (onTc (τ := τ) (main (F := Ideal))) ⟨m, fun _ => 0, ρ⟩ (fun r => ∀ c : Dev nD,
      r.2.mem ((c.tc : Thread nD τ).loc main_v4) = resOf (G c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v4 (Pipeline.mem_restRefs_of main_v4 (by decide) (by decide))).trans (tail_eq m G hG c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      (((h c).2 main_arg10 (Pipeline.mem_restRefs_of main_arg10 (by decide) (by decide))).trans (W_main_arg10 m (dats m) c))⟩) (run_main m ρ)

end Run

end Cert.RefArrays

end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.KerConv1.lean ====
/-
  The first convolution as the kernel arranges it, for the 64 images of one grid point at once.
  An image block is x (d, h, b, l) with lane l = c·14 + w (42 lanes). The body folds the three height taps into lanes —
  P (d, oh, b, kh·42 + l) = x (d, oh + kh, b, l), two zero lanes padding 126 to 128 — then the three depth taps —
  column kd·128 + r of row (od, oh, b) is P (od + kd, oh, b, r) — flattens the rows to one axis (row = (od·12 + oh)·64 + b)
  and multiplies the 9216 × 384 matrix with the two 384 × 256 halves of the folded weights. The 2×2×2 max pool reads
  the product back as [6, 2, 6, 2, 64, 256] and takes the maximum over the two unit-stride axes and the two halves.
-/
import proofs.«162147_g2000504528272344_pallasbulk_1029_23_alg».proof.Proof.Gen.KernelIdeal.Skeleton
import proofs.«162147_g2000504528272344_pallasbulk_1029_23_alg».proof.Proof.Spec
import proofs.«162147_g2000504528272344_pallasbulk_1029_23_alg».proof.Proof.LibPlainDot
import Idealize.ShloMosaic.Lib.Pipeline.Value
import Idealize.ShloMosaic.Lib.ValueIdx
import Idealize.ShloMosaic.Lib.ValueIdxRank6
import Idealize.ShloMosaic.PureOps.Ideal.Laws

set_option maxRecDepth 16384

noncomputable section

open Idealize.ShloMosaic Idealize.ShloMosaic.ValueIdx Cert.KernelIdeal

namespace Cert.KerConv1

/-- The height-folded, zero-padded row: lane r = kh·42 + l below 126, zero on the two padding lanes. -/
def P (x : S14x14x64x42.Idx → EReal) (d : Fin 14) (oh : Fin 12) (b : Fin 64) (r : Fin 128) : EReal :=
  if h : r.val < 126 then
    x (ix4 d ⟨oh.val + r.val / 42, by have := oh.isLt; omega⟩ b ⟨r.val % 42, by omega⟩)
  else 0

/-- The window matrix of the first convolution at a flattened row: column j = kd·128 + r. -/
def LH (x : S14x14x64x42.Idx → EReal) (row : Fin 9216) (j : Fin 384) : EReal :=
  P x ⟨row.val / 768 + j.val / 128, by have := row.isLt; have := j.isLt; omega⟩ ⟨row.val / 64 % 12, by omega⟩
    ⟨row.val % 64, by omega⟩ ⟨j.val % 128, by omega⟩

/-- One row of the product with one column of a weight half. -/
def D (x : S14x14x64x42.Idx → EReal) (w : S384x256.Idx → EReal) (row : Fin 9216) (n : Fin 256) : EReal :=
  ∑ j : Fin 384, LH x row j * w (ix2 j n)

/-- The flattened row of output position (2·dp + i, 2·hp + j) and image b. -/
def row (dp hp : Fin 6) (i j : Nat) (hi : i < 2) (hj : j < 2) (b : Fin 64) : Fin 9216 :=
  ⟨(((dp.val * 2 + i) * 6 + hp.val) * 2 + j) * 64 + b.val, by have := dp.isLt; have := hp.isLt; have := b.isLt; omega⟩

/-- The bf16 zero pattern denotes 0. -/
theorem ofBits_bf16_zero : Ideal.ofBits .bf16 0x0000#16 = 0 := by simp [Ideal.ofBits, Ideal.ieee]

/-- The height fold: three shifted copies of the block side by side and two zero lanes. -/
theorem hfold_apply (x : FVec Ideal S14x14x64x42 .bf16)
    (hs0 : S14x14x64x42.Slices ![0, 0, 0, 0] S14x12x64x42) (hs1 : S14x14x64x42.Slices ![0, 1, 0, 0] S14x12x64x42)
    (hs2 : S14x14x64x42.Slices ![0, 2, 0, 0] S14x12x64x42)
    (hc : Shape.Concatenates [S14x12x64x42, S14x12x64x42, S14x12x64x42, S14x12x64x2] S14x12x64x128 3)
    (d : Fin 14) (oh : Fin 12) (b : Fin 64) (r : Fin 128) :
    concatenate S14x12x64x128 3
      [⟨S14x12x64x42, extractStridedSlice S14x12x64x42 ![0, 0, 0, 0] x hs0⟩,
       ⟨S14x12x64x42, extractStridedSlice S14x12x64x42 ![0, 1, 0, 0] x hs1⟩,
       ⟨S14x12x64x42, extractStridedSlice S14x12x64x42 ![0, 2, 0, 0] x hs2⟩,
       ⟨S14x12x64x2, broadcast S14x12x64x2 (Scalar.ofBits (F := Ideal) .bf16 0x0000#16)⟩]
      hc (ix4 d oh b r)
      = P x d oh b r := by
  have hr := r.isLt
  have hoh := oh.isLt
  unfold P
  by_cases h0 : r.val < 42
  · rw [dif_pos (by omega)]
    refine Eq.trans (b := extractStridedSlice S14x12x64x42 ![0, 0, 0, 0] x hs0 (ix4 d oh b ⟨r.val, h0⟩)) ?_ ?_
    · refine concatenate_apply_piece 3 _ _ (ix4 d oh b r) 0 (by simp) S14x12x64x42 _ rfl rfl 0 rfl
        (ix4 d oh b ⟨r.val, h0⟩) (fun a ha => ?_) (by show 0 + r.val = r.val; omega)
      match a with
      | ⟨0, _⟩ => rfl
      | ⟨1, _⟩ => rfl
      | ⟨2, _⟩ => rfl
      | ⟨3, _⟩ => exact absurd rfl ha
    · refine extractStridedSlice_apply _ _ _ _ _ (fun a => ?_)
      match a with
      | ⟨0, _⟩ => show d.val = 0 + d.val; omega
      | ⟨1, _⟩ => show oh.val + r.val / 42 = 0 + oh.val; omega
      | ⟨2, _⟩ => show b.val = 0 + b.val; omega
      | ⟨3, _⟩ => show r.val % 42 = 0 + r.val; omega
  by_cases h1 : r.val < 84
  · rw [dif_pos (by omega)]
    refine Eq.trans (b := extractStridedSlice S14x12x64x42 ![0, 1, 0, 0] x hs1 (ix4 d oh b ⟨r.val - 42, by omega⟩)) ?_ ?_
    · refine concatenate_apply_piece 3 _ _ (ix4 d oh b r) 1 (by simp) S14x12x64x42 _ rfl rfl 42 rfl
        (ix4 d oh b ⟨r.val - 42, by omega⟩) (fun a ha => ?_) (by show 42 + (r.val - 42) = r.val; omega)
      match a with
      | ⟨0, _⟩ => rfl
      | ⟨1, _⟩ => rfl
      | ⟨2, _⟩ => rfl
      | ⟨3, _⟩ => exact absurd rfl ha
    · refine extractStridedSlice_apply _ _ _ _ _ (fun a => ?_)
      match a with
      | ⟨0, _⟩ => show d.val = 0 + d.val; omega
      | ⟨1, _⟩ => show oh.val + r.val / 42 = 1 + oh.val; omega
      | ⟨2, _⟩ => show b.val = 0 + b.val; omega
      | ⟨3, _⟩ => show r.val % 42 = 0 + (r.val - 42); omega
  by_cases h2 : r.val < 126
  · rw [dif_pos h2]
    refine Eq.trans (b := extractStridedSlice S14x12x64x42 ![0, 2, 0, 0] x hs2 (ix4 d oh b ⟨r.val - 84, by omega⟩)) ?_ ?_
    · refine concatenate_apply_piece 3 _ _ (ix4 d oh b r) 2 (by simp) S14x12x64x42 _ rfl rfl 84 rfl
        (ix4 d oh b ⟨r.val - 84, by omega⟩) (fun a ha => ?_) (by show 84 + (r.val - 84) = r.val; omega)
      match a with
      | ⟨0, _⟩ => rfl
      | ⟨1, _⟩ => rfl
      | ⟨2, _⟩ => rfl
      | ⟨3, _⟩ => exact absurd rfl ha
    · refine extractStridedSlice_apply _ _ _ _ _ (fun a => ?_)
      match a with
      | ⟨0, _⟩ => show d.val = 0 + d.val; omega
      | ⟨1, _⟩ => show oh.val + r.val / 42 = 2 + oh.val; omega
      | ⟨2, _⟩ => show b.val = 0 + b.val; omega
      | ⟨3, _⟩ => show r.val % 42 = 0 + (r.val - 84); omega
  · rw [dif_neg h2]
    refine Eq.trans (b := broadcast S14x12x64x2 (Scalar.ofBits (F := Ideal) .bf16 0x0000#16) (ix4 d oh b ⟨r.val - 126, by omega⟩)) ?_ ?_
    · refine concatenate_apply_piece 3 _ _ (ix4 d oh b r) 3 (by simp) S14x12x64x2 _ rfl rfl 126 rfl
        (ix4 d oh b ⟨r.val - 126, by omega⟩) (fun a ha => ?_) (by show 126 + (r.val - 126) = r.val; omega)
      match a with
      | ⟨0, _⟩ => rfl
      | ⟨1, _⟩ => rfl
      | ⟨2, _⟩ => rfl
      | ⟨3, _⟩ => exact absurd rfl ha
    · exact ofBits_bf16_zero

/-- The depth fold: three copies shifted along the depth, side by side. -/
theorem dfold_apply (p : FVec Ideal S14x12x64x128 .bf16)
    (hs0 : S14x12x64x128.Slices ![0, 0, 0, 0] S12x12x64x128) (hs1 : S14x12x64x128.Slices ![1, 0, 0, 0] S12x12x64x128)
    (hs2 : S14x12x64x128.Slices ![2, 0, 0, 0] S12x12x64x128)
    (hc : Shape.Concatenates [S12x12x64x128, S12x12x64x128, S12x12x64x128] S12x12x64x384 3)
    (od oh : Fin 12) (b : Fin 64) (j : Fin 384) :
    concatenate S12x12x64x384 3
      [⟨S12x12x64x128, extractStridedSlice S12x12x64x128 ![0, 0, 0, 0] p hs0⟩,
       ⟨S12x12x64x128, extractStridedSlice S12x12x64x128 ![1, 0, 0, 0] p hs1⟩,
       ⟨S12x12x64x128, extractStridedSlice S12x12x64x128 ![2, 0, 0, 0] p hs2⟩]
      hc (ix4 od oh b j)
      = p (ix4 ⟨od.val + j.val / 128, by have := od.isLt; have := j.isLt; omega⟩ oh b ⟨j.val % 128, by omega⟩) := by
  have hj := j.isLt
  have hod := od.isLt
  by_cases h0 : j.val < 128
  · refine Eq.trans (b := extractStridedSlice S12x12x64x128 ![0, 0, 0, 0] p hs0 (ix4 od oh b ⟨j.val, h0⟩)) ?_ ?_
    · refine concatenate_apply_piece 3 _ _ (ix4 od oh b j) 0 (by simp) S12x12x64x128 _ rfl rfl 0 rfl
        (ix4 od oh b ⟨j.val, h0⟩) (fun a ha => ?_) (by show 0 + j.val = j.val; omega)
      match a with
      | ⟨0, _⟩ => rfl
      | ⟨1, _⟩ => rfl
      | ⟨2, _⟩ => rfl
      | ⟨3, _⟩ => exact absurd rfl ha
    · refine extractStridedSlice_apply _ _ _ _ _ (fun a => ?_)
      match a with
      | ⟨0, _⟩ => show od.val + j.val / 128 = 0 + od.val; omega
      | ⟨1, _⟩ => show oh.val = 0 + oh.val; omega
      | ⟨2, _⟩ => show b.val = 0 + b.val; omega
      | ⟨3, _⟩ => show j.val % 128 = 0 + j.val; omega
  by_cases h1 : j.val < 256
  · refine Eq.trans (b := extractStridedSlice S12x12x64x128 ![1, 0, 0, 0] p hs1 (ix4 od oh b ⟨j.val - 128, by omega⟩)) ?_ ?_
    · refine concatenate_apply_piece 3 _ _ (ix4 od oh b j) 1 (by simp) S12x12x64x128 _ rfl rfl 128 rfl
        (ix4 od oh b ⟨j.val - 128, by omega⟩) (fun a ha => ?_) (by show 128 + (j.val - 128) = j.val; omega)
      match a with
      | ⟨0, _⟩ => rfl
      | ⟨1, _⟩ => rfl
      | ⟨2, _⟩ => rfl
      | ⟨3, _⟩ => exact absurd rfl ha
    · refine extractStridedSlice_apply _ _ _ _ _ (fun a => ?_)
      match a with
      | ⟨0, _⟩ => show od.val + j.val / 128 = 1 + od.val; omega
      | ⟨1, _⟩ => show oh.val = 0 + oh.val; omega
      | ⟨2, _⟩ => show b.val = 0 + b.val; omega
      | ⟨3, _⟩ => show j.val % 128 = 0 + (j.val - 128); omega
  · refine Eq.trans (b := extractStridedSlice S12x12x64x128 ![2, 0, 0, 0] p hs2 (ix4 od oh b ⟨j.val - 256, by omega⟩)) ?_ ?_
    · refine concatenate_apply_piece 3 _ _ (ix4 od oh b j) 2 (by simp) S12x12x64x128 _ rfl rfl 256 rfl
        (ix4 od oh b ⟨j.val - 256, by omega⟩) (fun a ha => ?_) (by show 256 + (j.val - 256) = j.val; omega)
      match a with
      | ⟨0, _⟩ => rfl
      | ⟨1, _⟩ => rfl
      | ⟨2, _⟩ => rfl
      | ⟨3, _⟩ => exact absurd rfl ha
    · refine extractStridedSlice_apply _ _ _ _ _ (fun a => ?_)
      match a with
      | ⟨0, _⟩ => show od.val + j.val / 128 = 2 + od.val; omega
      | ⟨1, _⟩ => show oh.val = 0 + oh.val; omega
      | ⟨2, _⟩ => show b.val = 0 + b.val; omega
      | ⟨3, _⟩ => show j.val % 128 = 0 + (j.val - 256); omega

/-- Flattening (od, oh, b) to one row axis: row = (od·12 + oh)·64 + b. -/
theorem flatten_apply (v : FVec Ideal S12x12x64x384 .bf16) (h : S12x12x64x384.ShapeCasts S9216x384)
    (row : Fin 9216) (j : Fin 384) :
    shapeCast S9216x384 v h (ix2 row j)
      = v (ix4 ⟨row.val / 768, by have := row.isLt; omega⟩ ⟨row.val / 64 % 12, by omega⟩ ⟨row.val % 64, by omega⟩ j) := by
  refine shapeCast_apply v h _ _ ?_
  rw [Shape.rowMajor_val_four, Shape.rowMajor_val_two]
  show ((row.val / 768 * 12 + row.val / 64 % 12) * 64 + row.val % 64) * 384 + j.val = row.val * 384 + j.val
  omega

/-- One tap of the pool: the product read back as [6, 2, 6, 2, 64, 256], the slice at (i, j) of the two unit axes,
    squeezed to [6, 6, 64, 256]. -/
theorem tap_apply (v : FVec Ideal S9216x256 .f32) (hcast : S9216x256.ShapeCasts S6x2x6x2x64x256) (i j : Nat)
    (hi : i < 2) (hj : j < 2) (hs : S6x2x6x2x64x256.Slices ![0, i, 0, j, 0, 0] S6x1x6x1x64x256)
    (hc2 : S6x1x6x1x64x256.ShapeCasts S6x6x64x256) (dp hp : Fin 6) (b : Fin 64) (n : Fin 256) :
    shapeCast S6x6x64x256 (extractStridedSlice S6x1x6x1x64x256 ![0, i, 0, j, 0, 0] (shapeCast S6x2x6x2x64x256 v hcast) hs) hc2
        (ix4 dp hp b n)
      = v (ix2 (row dp hp i j hi hj b) n) := by
  have hdp := dp.isLt
  have hhp := hp.isLt
  have hb := b.isLt
  refine Eq.trans (shapeCast_apply _ hc2 (ix4 dp hp b n) (ix6 dp (0 : Fin 1) hp (0 : Fin 1) b n) ?_) ?_
  · rw [Shape.rowMajor_val_six, Shape.rowMajor_val_four]
    show ((((dp.val * 1 + 0) * 6 + hp.val) * 1 + 0) * 64 + b.val) * 256 + n.val
      = ((dp.val * 6 + hp.val) * 64 + b.val) * 256 + n.val
    omega
  refine Eq.trans (extractStridedSlice_apply _ _ hs (ix6 dp (0 : Fin 1) hp (0 : Fin 1) b n)
    (ix6 dp (⟨i, hi⟩ : Fin 2) hp (⟨j, hj⟩ : Fin 2) b n) (fun a => ?_)) ?_
  · match a with
    | ⟨0, _⟩ => show dp.val = 0 + dp.val; omega
    | ⟨1, _⟩ => show i = i + 0; omega
    | ⟨2, _⟩ => show hp.val = 0 + hp.val; omega
    | ⟨3, _⟩ => show j = j + 0; omega
    | ⟨4, _⟩ => show b.val = 0 + b.val; omega
    | ⟨5, _⟩ => show n.val = 0 + n.val; omega
  refine shapeCast_apply v hcast _ _ ?_
  rw [Shape.rowMajor_val_six, Shape.rowMajor_val_two]
  show ((((dp.val * 2 + i) * 6 + hp.val) * 2 + j) * 64 + b.val) * 256 + n.val
    = (((((dp.val * 2 + i) * 6 + hp.val) * 2 + j) * 64 + b.val) * 256 + n.val)
  rfl

end Cert.KerConv1

end
-- ==== Proof.KerConv1Pay.lean ====
/-
  The kernel's first stage at one entry: the pooled first convolution of image b at pooled position (dp, hp), column n,
  is the maximum over the 2×2 window of output positions and over the two weight halves of the rows' products.
  The stage is two pieces: the product of the window matrix with one weight half, and the maximum over the eight taps of
  two such products.
-/
import proofs.«162147_g2000504528272344_pallasbulk_1029_23_alg».proof.Proof.Gen.KernelIdeal.Skeleton
import proofs.«162147_g2000504528272344_pallasbulk_1029_23_alg».proof.Proof.Spec
import proofs.«162147_g2000504528272344_pallasbulk_1029_23_alg».proof.Proof.LibPlainDot
import Idealize.ShloMosaic.Lib.Pipeline.Value
import Idealize.ShloMosaic.Lib.ValueIdx
import Idealize.ShloMosaic.Lib.ValueIdxRank6
import Idealize.ShloMosaic.PureOps.Ideal.Laws
import proofs.«162147_g2000504528272344_pallasbulk_1029_23_alg».proof.Proof.KerConv1
set_option maxRecDepth 16384

noncomputable section

open Idealize.ShloMosaic Idealize.ShloMosaic.ValueIdx Cert.KernelIdeal

namespace Cert.KerConv1

open Cert.KernelIdeal.Gen

/-- The printed dimension numbers are the plain ones. -/
theorem dot1_eq : dot_S9216x384_S384x256_S9216x256_1_0_0_1_n_n = DotDims.plain 9216 384 256 := rfl

/-- The height fold of an image block. -/
def hfoldT (v : FVec Ideal S14x14x64x42 .bf16) : FVec Ideal S14x12x64x128 .bf16 :=
  concatenate S14x12x64x128 3
    [⟨S14x12x64x42, extractStridedSlice S14x12x64x42 ![0, 0, 0, 0] v slices_S14x14x64x42_o0_0_0_0_S14x12x64x42⟩,
     ⟨S14x12x64x42, extractStridedSlice S14x12x64x42 ![0, 1, 0, 0] v slices_S14x14x64x42_o0_1_0_0_S14x12x64x42⟩,
     ⟨S14x12x64x42, extractStridedSlice S14x12x64x42 ![0, 2, 0, 0] v slices_S14x14x64x42_o0_2_0_0_S14x12x64x42⟩,
     ⟨S14x12x64x2, broadcast S14x12x64x2 (Scalar.ofBits (F := Ideal) .bf16 0x0000#16)⟩]
    concatenates_S14x12x64x42_S14x12x64x42_S14x12x64x42_S14x12x64x2_S14x12x64x128_d3

/-- The window matrix: depth fold of the height fold, rows flattened. -/
def lhsT (v : FVec Ideal S14x14x64x42 .bf16) : FVec Ideal S9216x384 .bf16 :=
  shapeCast S9216x384
    (concatenate S12x12x64x384 3
      [⟨S12x12x64x128, extractStridedSlice S12x12x64x128 ![0, 0, 0, 0] (hfoldT v) slices_S14x12x64x128_o0_0_0_0_S12x12x64x128⟩,
       ⟨S12x12x64x128, extractStridedSlice S12x12x64x128 ![1, 0, 0, 0] (hfoldT v) slices_S14x12x64x128_o1_0_0_0_S12x12x64x128⟩,
       ⟨S12x12x64x128, extractStridedSlice S12x12x64x128 ![2, 0, 0, 0] (hfoldT v) slices_S14x12x64x128_o2_0_0_0_S12x12x64x128⟩]
      concatenates_S12x12x64x128_S12x12x64x128_S12x12x64x128_S12x12x64x384_d3)
    shapeCasts_S12x12x64x384_S9216x384

/-- The window matrix times one weight half. -/
def MM (v : FVec Ideal S14x14x64x42 .bf16) (w : FVec Ideal S384x256 .bf16) : FVec Ideal S9216x256 .f32 :=
  matmul dot_S9216x384_S384x256_S9216x256_1_0_0_1_n_n none (lhsT v)
    (shapeCast S384x256 w shapeCasts_S384x256_S384x256) (constant S9216x256 .f32 0x00000000#32)

/-- One tap of the pool. -/
def tapT (v : FVec Ideal S9216x256 .f32) (i j : Nat) (hs : S6x2x6x2x64x256.Slices ![0, i, 0, j, 0, 0] S6x1x6x1x64x256) :
    FVec Ideal S6x6x64x256 .f32 :=
  shapeCast S6x6x64x256
    (extractStridedSlice S6x1x6x1x64x256 ![0, i, 0, j, 0, 0]
      (shapeCast S6x2x6x2x64x256 v shapeCasts_S9216x256_S6x2x6x2x64x256) hs)
    shapeCasts_S6x1x6x1x64x256_S6x6x64x256

/-- The maximum over the four taps of one product. -/
def pool4 (v : FVec Ideal S9216x256 .f32) : FVec Ideal S6x6x64x256 .f32 :=
  maximumf
    (maximumf (tapT v 0 0 slices_S6x2x6x2x64x256_o0_0_0_0_0_0_S6x1x6x1x64x256) (tapT v 0 1 slices_S6x2x6x2x64x256_o0_0_0_1_0_0_S6x1x6x1x64x256))
    (maximumf (tapT v 1 0 slices_S6x2x6x2x64x256_o0_1_0_0_0_0_S6x1x6x1x64x256) (tapT v 1 1 slices_S6x2x6x2x64x256_o0_1_0_1_0_0_S6x1x6x1x64x256))

/-- The stage is the maximum of the two halves' pools. -/
theorem pay2_eq (v0 : Vec Ideal S14x14x64x42 .bf16) (v12 v15 : Vec Ideal S384x256 .bf16) :
    k0_pay2 (F := Ideal) v0 v12 v15
      = maximumf (pool4 (MM (shapeCast S14x14x64x42 v0 shapeCasts_S14x14x64x42_S14x14x64x42) v12))
          (pool4 (MM (shapeCast S14x14x64x42 v0 shapeCasts_S14x14x64x42_S14x14x64x42) v15)) := rfl

/-- One row of the product with one column of the weight half. -/
theorem MM_apply (v : FVec Ideal S14x14x64x42 .bf16) (w : FVec Ideal S384x256 .bf16) (row : Fin 9216) (n : Fin 256) :
    MM v w (ix2 row n) = D v w row n := by
  unfold MM
  rw [dot1_eq]
  refine (LibPlainDot.matmul_zero_apply none _ _ row n).trans ?_
  unfold D LH lhsT hfoldT
  refine Finset.sum_congr rfl fun j _ => ?_
  rw [shapeCast_self, flatten_apply, dfold_apply, hfold_apply]

/-- The pool of one product at an entry. -/
theorem pool4_apply (v : FVec Ideal S9216x256 .f32) (dp hp : Fin 6) (b : Fin 64) (n : Fin 256) :
    pool4 v (ix4 dp hp b n)
      = max (max (v (ix2 (row dp hp 0 0 (by omega) (by omega) b) n)) (v (ix2 (row dp hp 0 1 (by omega) (by omega) b) n)))
            (max (v (ix2 (row dp hp 1 0 (by omega) (by omega) b) n)) (v (ix2 (row dp hp 1 1 (by omega) (by omega) b) n))) := by
  unfold pool4 tapT
  rw [maximumf_apply, maximumf_apply, maximumf_apply,
    tap_apply v _ 0 0 (by omega) (by omega), tap_apply v _ 0 1 (by omega) (by omega),
    tap_apply v _ 1 0 (by omega) (by omega), tap_apply v _ 1 1 (by omega) (by omega)]

/-- The kernel's pooled first convolution (before bias and activation) at one entry. -/
theorem pay2_apply (v0 : Vec Ideal S14x14x64x42 .bf16) (v12 v15 : Vec Ideal S384x256 .bf16)
    (dp hp : Fin 6) (b : Fin 64) (n : Fin 256) :
    k0_pay2 (F := Ideal) v0 v12 v15 (ix4 dp hp b n)
      = max
          (max (max (D v0 v12 (row dp hp 0 0 (by omega) (by omega) b) n) (D v0 v12 (row dp hp 0 1 (by omega) (by omega) b) n))
               (max (D v0 v12 (row dp hp 1 0 (by omega) (by omega) b) n) (D v0 v12 (row dp hp 1 1 (by omega) (by omega) b) n)))
          (max (max (D v0 v15 (row dp hp 0 0 (by omega) (by omega) b) n) (D v0 v15 (row dp hp 0 1 (by omega) (by omega) b) n))
               (max (D v0 v15 (row dp hp 1 0 (by omega) (by omega) b) n) (D v0 v15 (row dp hp 1 1 (by omega) (by omega) b) n))) := by
  rw [pay2_eq, maximumf_apply, pool4_apply, pool4_apply, shapeCast_self]
  simp only [MM_apply]

/-- The first bias, broadcast over positions and images. -/
theorem pay3_apply (v43 : Vec Ideal S1x256 .f32) (dp hp : Fin 6) (b : Fin 64) (n : Fin 256) :
    k0_pay3 (F := Ideal) v43 (ix4 dp hp b n) = v43 (ix2 0 n) := by
  unfold k0_pay3
  refine Eq.trans (broadcastTo_apply _ _ (ix4 dp hp b n) (ix4 (0 : Fin 1) (0 : Fin 1) (0 : Fin 1) n) (fun a => ?_)) ?_
  · match a with
    | ⟨0, _⟩ => rfl
    | ⟨1, _⟩ => rfl
    | ⟨2, _⟩ => rfl
    | ⟨3, _⟩ => rfl
  · refine shapeCast_apply _ _ _ _ ?_
    rw [Shape.rowMajor_val_two, Shape.rowMajor_val_four]
    show 0 * 256 + n.val = ((0 * 1 + 0) * 1 + 0) * 256 + n.val
    omega

end Cert.KerConv1

end
-- ==== Proof.KerConv2.lean ====
/-
  The second convolution as the kernel arranges it. The first stage's activation a (d, h, b, lane) — a 6 × 6 grid of
  positions, 64 images, 256 lanes — is cut into its nine shifted 4 × 4 windows (depth tap kd, height tap kh), set side by
  side along the lanes (column (kd·3 + kh)·256 + lane), flattened to rows (row = (od·4 + oh)·64 + b) and multiplied with
  the 2304 × 256 folded weights. The pool reads the product back as [2, 2, 2, 2, 64, 256] and takes the maximum over the
  two unit-stride axes and the two column halves.
-/
import proofs.«162147_g2000504528272344_pallasbulk_1029_23_alg».proof.Proof.Gen.KernelIdeal.Skeleton
import proofs.«162147_g2000504528272344_pallasbulk_1029_23_alg».proof.Proof.Spec
import proofs.«162147_g2000504528272344_pallasbulk_1029_23_alg».proof.Proof.LibPlainDot
import Idealize.ShloMosaic.Lib.Pipeline.Value
import Idealize.ShloMosaic.Lib.ValueIdx
import Idealize.ShloMosaic.Lib.ValueIdxRank6
import Idealize.ShloMosaic.PureOps.Ideal.Laws

set_option maxRecDepth 16384

noncomputable section

open Idealize.ShloMosaic Idealize.ShloMosaic.ValueIdx Cert.KernelIdeal

namespace Cert.KerConv2

/-- The window matrix of the second convolution at a flattened row: column k = (kd·3 + kh)·256 + lane. -/
def LH2 (a : S6x6x64x256.Idx → EReal) (row : Fin 1024) (k : Fin 2304) : EReal :=
  a (ix4 ⟨row.val / 256 + k.val / 256 / 3, by have := row.isLt; have := k.isLt; omega⟩
      ⟨row.val / 64 % 4 + k.val / 256 % 3, by omega⟩ ⟨row.val % 64, by omega⟩ ⟨k.val % 256, by omega⟩)

/-- One row of the product with one column of the weights. -/
def D2 (a : S6x6x64x256.Idx → EReal) (w : S2304x256.Idx → EReal) (row : Fin 1024) (n : Fin 256) : EReal :=
  ∑ k : Fin 2304, LH2 a row k * w (ix2 k n)

/-- The flattened row of output position (2·dp + i, 2·hp + j) and image b. -/
def row2 (dp hp : Fin 2) (i j : Nat) (hi : i < 2) (hj : j < 2) (b : Fin 64) : Fin 1024 :=
  ⟨(((dp.val * 2 + i) * 2 + hp.val) * 2 + j) * 64 + b.val, by have := dp.isLt; have := hp.isLt; have := b.isLt; omega⟩

/-- One shifted window of the activation. -/
theorem window_apply (a : FVec Ideal S6x6x64x256 .bf16) (kd kh : Nat) (hkd : kd < 3) (hkh : kh < 3)
    (hs : S6x6x64x256.Slices ![kd, kh, 0, 0] S4x4x64x256) (od oh : Fin 4) (b : Fin 64) (l : Fin 256) :
    extractStridedSlice S4x4x64x256 ![kd, kh, 0, 0] a hs (ix4 od oh b l)
      = a (ix4 ⟨od.val + kd, by have := od.isLt; omega⟩ ⟨oh.val + kh, by have := oh.isLt; omega⟩ b l) := by
  refine extractStridedSlice_apply _ _ _ _ _ (fun c => ?_)
  match c with
  | ⟨0, _⟩ => show od.val + kd = kd + od.val; omega
  | ⟨1, _⟩ => show oh.val + kh = kh + oh.val; omega
  | ⟨2, _⟩ => show b.val = 0 + b.val; omega
  | ⟨3, _⟩ => show l.val = 0 + l.val; omega

/-- The nine shifted windows side by side along the lanes: column k lies in window q = k / 256 = kd·3 + kh at lane k % 256. -/
theorem windows_cat_apply (a : FVec Ideal S6x6x64x256 .bf16) (h00 : S6x6x64x256.Slices ![0, 0, 0, 0] S4x4x64x256) (h01 : S6x6x64x256.Slices ![0, 1, 0, 0] S4x4x64x256) (h02 : S6x6x64x256.Slices ![0, 2, 0, 0] S4x4x64x256) (h10 : S6x6x64x256.Slices ![1, 0, 0, 0] S4x4x64x256) (h11 : S6x6x64x256.Slices ![1, 1, 0, 0] S4x4x64x256) (h12 : S6x6x64x256.Slices ![1, 2, 0, 0] S4x4x64x256) (h20 : S6x6x64x256.Slices ![2, 0, 0, 0] S4x4x64x256) (h21 : S6x6x64x256.Slices ![2, 1, 0, 0] S4x4x64x256) (h22 : S6x6x64x256.Slices ![2, 2, 0, 0] S4x4x64x256)
    (hc : Shape.Concatenates [S4x4x64x256, S4x4x64x256, S4x4x64x256, S4x4x64x256, S4x4x64x256, S4x4x64x256, S4x4x64x256,
      S4x4x64x256, S4x4x64x256] S4x4x64x2304 3)
    (od oh : Fin 4) (b : Fin 64) (k : Fin 2304) :
    concatenate S4x4x64x2304 3
      [⟨S4x4x64x256, extractStridedSlice S4x4x64x256 ![0, 0, 0, 0] a h00⟩,
       ⟨S4x4x64x256, extractStridedSlice S4x4x64x256 ![0, 1, 0, 0] a h01⟩,
       ⟨S4x4x64x256, extractStridedSlice S4x4x64x256 ![0, 2, 0, 0] a h02⟩,
       ⟨S4x4x64x256, extractStridedSlice S4x4x64x256 ![1, 0, 0, 0] a h10⟩,
       ⟨S4x4x64x256, extractStridedSlice S4x4x64x256 ![1, 1, 0, 0] a h11⟩,
       ⟨S4x4x64x256, extractStridedSlice S4x4x64x256 ![1, 2, 0, 0] a h12⟩,
       ⟨S4x4x64x256, extractStridedSlice S4x4x64x256 ![2, 0, 0, 0] a h20⟩,
       ⟨S4x4x64x256, extractStridedSlice S4x4x64x256 ![2, 1, 0, 0] a h21⟩,
       ⟨S4x4x64x256, extractStridedSlice S4x4x64x256 ![2, 2, 0, 0] a h22⟩] hc (ix4 od oh b k)
      = a (ix4 ⟨od.val + k.val / 256 / 3, by have := od.isLt; have := k.isLt; omega⟩
            ⟨oh.val + k.val / 256 % 3, by have := oh.isLt; omega⟩ b ⟨k.val % 256, by omega⟩) := by
  have hk := k.isLt
  have hod := od.isLt
  have hoh := oh.isLt
  by_cases hq0 : k.val < 256
  · refine Eq.trans (b := extractStridedSlice S4x4x64x256 ![0, 0, 0, 0] a h00 (ix4 od oh b ⟨k.val - 0, by omega⟩)) ?_ ?_
    · refine concatenate_apply_piece 3 _ _ (ix4 od oh b k) 0 (by simp) S4x4x64x256 _ rfl rfl 0 rfl
        (ix4 od oh b ⟨k.val - 0, by omega⟩) (fun c hc' => ?_) (by show 0 + (k.val - 0) = k.val; omega)
      match c with
      | ⟨0, _⟩ => rfl
      | ⟨1, _⟩ => rfl
      | ⟨2, _⟩ => rfl
      | ⟨3, _⟩ => exact absurd rfl hc'
    · refine extractStridedSlice_apply _ _ _ _ _ (fun c => ?_)
      match c with
      | ⟨0, _⟩ => show od.val + k.val / 256 / 3 = 0 + od.val; omega
      | ⟨1, _⟩ => show oh.val + k.val / 256 % 3 = 0 + oh.val; omega
      | ⟨2, _⟩ => show b.val = 0 + b.val; omega
      | ⟨3, _⟩ => show k.val % 256 = 0 + (k.val - 0); omega
  by_cases hq1 : k.val < 512
  · refine Eq.trans (b := extractStridedSlice S4x4x64x256 ![0, 1, 0, 0] a h01 (ix4 od oh b ⟨k.val - 256, by omega⟩)) ?_ ?_
    · refine concatenate_apply_piece 3 _ _ (ix4 od oh b k) 1 (by simp) S4x4x64x256 _ rfl rfl 256 rfl
        (ix4 od oh b ⟨k.val - 256, by omega⟩) (fun c hc' => ?_) (by show 256 + (k.val - 256) = k.val; omega)
      match c with
      | ⟨0, _⟩ => rfl
      | ⟨1, _⟩ => rfl
      | ⟨2, _⟩ => rfl
      | ⟨3, _⟩ => exact absurd rfl hc'
    · refine extractStridedSlice_apply _ _ _ _ _ (fun c => ?_)
      match c with
      | ⟨0, _⟩ => show od.val + k.val / 256 / 3 = 0 + od.val; omega
      | ⟨1, _⟩ => show oh.val + k.val / 256 % 3 = 1 + oh.val; omega
      | ⟨2, _⟩ => show b.val = 0 + b.val; omega
      | ⟨3, _⟩ => show k.val % 256 = 0 + (k.val - 256); omega
  by_cases hq2 : k.val < 768
  · refine Eq.trans (b := extractStridedSlice S4x4x64x256 ![0, 2, 0, 0] a h02 (ix4 od oh b ⟨k.val - 512, by omega⟩)) ?_ ?_
    · refine concatenate_apply_piece 3 _ _ (ix4 od oh b k) 2 (by simp) S4x4x64x256 _ rfl rfl 512 rfl
        (ix4 od oh b ⟨k.val - 512, by omega⟩) (fun c hc' => ?_) (by show 512 + (k.val - 512) = k.val; omega)
      match c with
      | ⟨0, _⟩ => rfl
      | ⟨1, _⟩ => rfl
      | ⟨2, _⟩ => rfl
      | ⟨3, _⟩ => exact absurd rfl hc'
    · refine extractStridedSlice_apply _ _ _ _ _ (fun c => ?_)
      match c with
      | ⟨0, _⟩ => show od.val + k.val / 256 / 3 = 0 + od.val; omega
      | ⟨1, _⟩ => show oh.val + k.val / 256 % 3 = 2 + oh.val; omega
      | ⟨2, _⟩ => show b.val = 0 + b.val; omega
      | ⟨3, _⟩ => show k.val % 256 = 0 + (k.val - 512); omega
  by_cases hq3 : k.val < 1024
  · refine Eq.trans (b := extractStridedSlice S4x4x64x256 ![1, 0, 0, 0] a h10 (ix4 od oh b ⟨k.val - 768, by omega⟩)) ?_ ?_
    · refine concatenate_apply_piece 3 _ _ (ix4 od oh b k) 3 (by simp) S4x4x64x256 _ rfl rfl 768 rfl
        (ix4 od oh b ⟨k.val - 768, by omega⟩) (fun c hc' => ?_) (by show 768 + (k.val - 768) = k.val; omega)
      match c with
      | ⟨0, _⟩ => rfl
      | ⟨1, _⟩ => rfl
      | ⟨2, _⟩ => rfl
      | ⟨3, _⟩ => exact absurd rfl hc'
    · refine extractStridedSlice_apply _ _ _ _ _ (fun c => ?_)
      match c with
      | ⟨0, _⟩ => show od.val + k.val / 256 / 3 = 1 + od.val; omega
      | ⟨1, _⟩ => show oh.val + k.val / 256 % 3 = 0 + oh.val; omega
      | ⟨2, _⟩ => show b.val = 0 + b.val; omega
      | ⟨3, _⟩ => show k.val % 256 = 0 + (k.val - 768); omega
  by_cases hq4 : k.val < 1280
  · refine Eq.trans (b := extractStridedSlice S4x4x64x256 ![1, 1, 0, 0] a h11 (ix4 od oh b ⟨k.val - 1024, by omega⟩)) ?_ ?_
    · refine concatenate_apply_piece 3 _ _ (ix4 od oh b k) 4 (by simp) S4x4x64x256 _ rfl rfl 1024 rfl
        (ix4 od oh b ⟨k.val - 1024, by omega⟩) (fun c hc' => ?_) (by show 1024 + (k.val - 1024) = k.val; omega)
      match c with
      | ⟨0, _⟩ => rfl
      | ⟨1, _⟩ => rfl
      | ⟨2, _⟩ => rfl
      | ⟨3, _⟩ => exact absurd rfl hc'
    · refine extractStridedSlice_apply _ _ _ _ _ (fun c => ?_)
      match c with
      | ⟨0, _⟩ => show od.val + k.val / 256 / 3 = 1 + od.val; omega
      | ⟨1, _⟩ => show oh.val + k.val / 256 % 3 = 1 + oh.val; omega
      | ⟨2, _⟩ => show b.val = 0 + b.val; omega
      | ⟨3, _⟩ => show k.val % 256 = 0 + (k.val - 1024); omega
  by_cases hq5 : k.val < 1536
  · refine Eq.trans (b := extractStridedSlice S4x4x64x256 ![1, 2, 0, 0] a h12 (ix4 od oh b ⟨k.val - 1280, by omega⟩)) ?_ ?_
    · refine concatenate_apply_piece 3 _ _ (ix4 od oh b k) 5 (by simp) S4x4x64x256 _ rfl rfl 1280 rfl
        (ix4 od oh b ⟨k.val - 1280, by omega⟩) (fun c hc' => ?_) (by show 1280 + (k.val - 1280) = k.val; omega)
      match c with
      | ⟨0, _⟩ => rfl
      | ⟨1, _⟩ => rfl
      | ⟨2, _⟩ => rfl
      | ⟨3, _⟩ => exact absurd rfl hc'
    · refine extractStridedSlice_apply _ _ _ _ _ (fun c => ?_)
      match c with
      | ⟨0, _⟩ => show od.val + k.val / 256 / 3 = 1 + od.val; omega
      | ⟨1, _⟩ => show oh.val + k.val / 256 % 3 = 2 + oh.val; omega
      | ⟨2, _⟩ => show b.val = 0 + b.val; omega
      | ⟨3, _⟩ => show k.val % 256 = 0 + (k.val - 1280); omega
  by_cases hq6 : k.val < 1792
  · refine Eq.trans (b := extractStridedSlice S4x4x64x256 ![2, 0, 0, 0] a h20 (ix4 od oh b ⟨k.val - 1536, by omega⟩)) ?_ ?_
    · refine concatenate_apply_piece 3 _ _ (ix4 od oh b k) 6 (by simp) S4x4x64x256 _ rfl rfl 1536 rfl
        (ix4 od oh b ⟨k.val - 1536, by omega⟩) (fun c hc' => ?_) (by show 1536 + (k.val - 1536) = k.val; omega)
      match c with
      | ⟨0, _⟩ => rfl
      | ⟨1, _⟩ => rfl
      | ⟨2, _⟩ => rfl
      | ⟨3, _⟩ => exact absurd rfl hc'
    · refine extractStridedSlice_apply _ _ _ _ _ (fun c => ?_)
      match c with
      | ⟨0, _⟩ => show od.val + k.val / 256 / 3 = 2 + od.val; omega
      | ⟨1, _⟩ => show oh.val + k.val / 256 % 3 = 0 + oh.val; omega
      | ⟨2, _⟩ => show b.val = 0 + b.val; omega
      | ⟨3, _⟩ => show k.val % 256 = 0 + (k.val - 1536); omega
  by_cases hq7 : k.val < 2048
  · refine Eq.trans (b := extractStridedSlice S4x4x64x256 ![2, 1, 0, 0] a h21 (ix4 od oh b ⟨k.val - 1792, by omega⟩)) ?_ ?_
    · refine concatenate_apply_piece 3 _ _ (ix4 od oh b k) 7 (by simp) S4x4x64x256 _ rfl rfl 1792 rfl
        (ix4 od oh b ⟨k.val - 1792, by omega⟩) (fun c hc' => ?_) (by show 1792 + (k.val - 1792) = k.val; omega)
      match c with
      | ⟨0, _⟩ => rfl
      | ⟨1, _⟩ => rfl
      | ⟨2, _⟩ => rfl
      | ⟨3, _⟩ => exact absurd rfl hc'
    · refine extractStridedSlice_apply _ _ _ _ _ (fun c => ?_)
      match c with
      | ⟨0, _⟩ => show od.val + k.val / 256 / 3 = 2 + od.val; omega
      | ⟨1, _⟩ => show oh.val + k.val / 256 % 3 = 1 + oh.val; omega
      | ⟨2, _⟩ => show b.val = 0 + b.val; omega
      | ⟨3, _⟩ => show k.val % 256 = 0 + (k.val - 1792); omega
  · refine Eq.trans (b := extractStridedSlice S4x4x64x256 ![2, 2, 0, 0] a h22 (ix4 od oh b ⟨k.val - 2048, by omega⟩)) ?_ ?_
    · refine concatenate_apply_piece 3 _ _ (ix4 od oh b k) 8 (by simp) S4x4x64x256 _ rfl rfl 2048 rfl
        (ix4 od oh b ⟨k.val - 2048, by omega⟩) (fun c hc' => ?_) (by show 2048 + (k.val - 2048) = k.val; omega)
      match c with
      | ⟨0, _⟩ => rfl
      | ⟨1, _⟩ => rfl
      | ⟨2, _⟩ => rfl
      | ⟨3, _⟩ => exact absurd rfl hc'
    · refine extractStridedSlice_apply _ _ _ _ _ (fun c => ?_)
      match c with
      | ⟨0, _⟩ => show od.val + k.val / 256 / 3 = 2 + od.val; omega
      | ⟨1, _⟩ => show oh.val + k.val / 256 % 3 = 2 + oh.val; omega
      | ⟨2, _⟩ => show b.val = 0 + b.val; omega
      | ⟨3, _⟩ => show k.val % 256 = 0 + (k.val - 2048); omega

/-- Flattening (od, oh, b) to one row axis: row = (od·4 + oh)·64 + b. -/
theorem flatten2_apply (v : FVec Ideal S4x4x64x2304 .bf16) (h : S4x4x64x2304.ShapeCasts S1024x2304)
    (row : Fin 1024) (k : Fin 2304) :
    shapeCast S1024x2304 v h (ix2 row k)
      = v (ix4 ⟨row.val / 256, by have := row.isLt; omega⟩ ⟨row.val / 64 % 4, by omega⟩ ⟨row.val % 64, by omega⟩ k) := by
  refine shapeCast_apply v h _ _ ?_
  rw [Shape.rowMajor_val_four, Shape.rowMajor_val_two]
  show ((row.val / 256 * 4 + row.val / 64 % 4) * 64 + row.val % 64) * 2304 + k.val = row.val * 2304 + k.val
  omega

/-- One tap of the second pool: the product read back as [2, 2, 2, 2, 64, 256], the slice at (i, j) of the two unit
    axes and at lane offset o, squeezed to [2, 2, 64, 128]. -/
theorem tap2_apply (v : FVec Ideal S1024x256 .f32) (hcast : S1024x256.ShapeCasts S2x2x2x2x64x256) (i j o : Nat)
    (hi : i < 2) (hj : j < 2) (ho : o + 128 ≤ 256) (hs : S2x2x2x2x64x256.Slices ![0, i, 0, j, 0, o] S2x1x2x1x64x128)
    (hc2 : S2x1x2x1x64x128.ShapeCasts S2x2x64x128) (dp hp : Fin 2) (b : Fin 64) (n : Fin 128) :
    shapeCast S2x2x64x128 (extractStridedSlice S2x1x2x1x64x128 ![0, i, 0, j, 0, o] (shapeCast S2x2x2x2x64x256 v hcast) hs) hc2
        (ix4 dp hp b n)
      = v (ix2 (row2 dp hp i j hi hj b) ⟨o + n.val, by have := n.isLt; omega⟩) := by
  have hdp := dp.isLt
  have hhp := hp.isLt
  have hb := b.isLt
  have hn := n.isLt
  refine Eq.trans (shapeCast_apply _ hc2 (ix4 dp hp b n) (ix6 dp (0 : Fin 1) hp (0 : Fin 1) b n) ?_) ?_
  · rw [Shape.rowMajor_val_six, Shape.rowMajor_val_four]
    show ((((dp.val * 1 + 0) * 2 + hp.val) * 1 + 0) * 64 + b.val) * 128 + n.val
      = ((dp.val * 2 + hp.val) * 64 + b.val) * 128 + n.val
    omega
  refine Eq.trans (extractStridedSlice_apply _ _ hs (ix6 dp (0 : Fin 1) hp (0 : Fin 1) b n)
    (ix6 dp (⟨i, hi⟩ : Fin 2) hp (⟨j, hj⟩ : Fin 2) b (⟨o + n.val, by omega⟩ : Fin 256)) (fun c => ?_)) ?_
  · match c with
    | ⟨0, _⟩ => show dp.val = 0 + dp.val; omega
    | ⟨1, _⟩ => show i = i + 0; omega
    | ⟨2, _⟩ => show hp.val = 0 + hp.val; omega
    | ⟨3, _⟩ => show j = j + 0; omega
    | ⟨4, _⟩ => show b.val = 0 + b.val; omega
    | ⟨5, _⟩ => show o + n.val = o + n.val; rfl
  refine shapeCast_apply v hcast _ _ ?_
  rw [Shape.rowMajor_val_six, Shape.rowMajor_val_two]
  show ((((dp.val * 2 + i) * 2 + hp.val) * 2 + j) * 64 + b.val) * 256 + (o + n.val)
    = (((((dp.val * 2 + i) * 2 + hp.val) * 2 + j) * 64 + b.val) * 256 + (o + n.val))
  rfl

/-- A bias row broadcast over positions and images. -/
theorem bias2_apply (v : FVec Ideal S1x128 .f32) (h1 : S1x128.ShapeCasts S1x1x1x128) (h2 : S1x1x1x128.Broadcasts S2x2x64x128)
    (dp hp : Fin 2) (b : Fin 64) (n : Fin 128) :
    broadcastTo S2x2x64x128 (shapeCast S1x1x1x128 v h1) h2 (ix4 dp hp b n) = v (ix2 0 n) := by
  refine Eq.trans (broadcastTo_apply _ _ (ix4 dp hp b n) (ix4 (0 : Fin 1) (0 : Fin 1) (0 : Fin 1) n) (fun a => ?_)) ?_
  · match a with
    | ⟨0, _⟩ => rfl
    | ⟨1, _⟩ => rfl
    | ⟨2, _⟩ => rfl
    | ⟨3, _⟩ => rfl
  · refine shapeCast_apply _ _ _ _ ?_
    rw [Shape.rowMajor_val_two, Shape.rowMajor_val_four]
    show 0 * 128 + n.val = ((0 * 1 + 0) * 1 + 0) * 128 + n.val
    omega

end Cert.KerConv2

end
-- ==== Proof.KerConv2Pay.lean ====
/-
  The kernel's second stage at one entry: the activation of the first stage, the second convolution's product, the
  maximum over its eight taps (two depths, two heights, two column halves), bias and activation — read as named pieces.
-/
import proofs.«162147_g2000504528272344_pallasbulk_1029_23_alg».proof.Proof.Gen.KernelIdeal.Skeleton
import proofs.«162147_g2000504528272344_pallasbulk_1029_23_alg».proof.Proof.Spec
import proofs.«162147_g2000504528272344_pallasbulk_1029_23_alg».proof.Proof.LibPlainDot
import Idealize.ShloMosaic.Lib.Pipeline.Value
import Idealize.ShloMosaic.Lib.ValueIdx
import Idealize.ShloMosaic.Lib.ValueIdxRank6
import Idealize.ShloMosaic.PureOps.Ideal.Laws
import proofs.«162147_g2000504528272344_pallasbulk_1029_23_alg».proof.Proof.KerConv2
set_option maxRecDepth 16384

noncomputable section

open Idealize.ShloMosaic Idealize.ShloMosaic.ValueIdx Cert.KernelIdeal

namespace Cert.KerConv2

open Cert.KernelIdeal.Gen

theorem dot2_eq : dot_S1024x2304_S2304x256_S1024x256_1_0_0_1_n_n = DotDims.plain 1024 2304 256 := rfl

/-- Bias added and rectified, entry by entry. -/
def a1 (q β : S6x6x64x256.Idx → EReal) : S6x6x64x256.Idx → EReal := fun i => Cert.Net.lrelu (q i + β i)

/-- The first stage's activation as the body writes it. -/
def actT (v42 v45 : FVec Ideal S6x6x64x256 .f32) : FVec Ideal S6x6x64x256 .bf16 :=
  truncf .bf16 (maximumf (addf v42 v45)
    (mulf (broadcast S6x6x64x256 (Scalar.ofBits (F := Ideal) .f32 0x3C23D70A#32)) (addf v42 v45))) bitsLt_bf16_f32

theorem actT_eq (v42 v45 : FVec Ideal S6x6x64x256 .f32) : actT v42 v45 = a1 v42 v45 := rfl

/-- The second convolution's window matrix. -/
def lhs2T (a : FVec Ideal S6x6x64x256 .bf16) : FVec Ideal S1024x2304 .bf16 :=
  shapeCast S1024x2304
    (concatenate S4x4x64x2304 3
      [⟨S4x4x64x256, extractStridedSlice S4x4x64x256 ![0, 0, 0, 0] a slices_S6x6x64x256_o0_0_0_0_S4x4x64x256⟩,
       ⟨S4x4x64x256, extractStridedSlice S4x4x64x256 ![0, 1, 0, 0] a slices_S6x6x64x256_o0_1_0_0_S4x4x64x256⟩,
       ⟨S4x4x64x256, extractStridedSlice S4x4x64x256 ![0, 2, 0, 0] a slices_S6x6x64x256_o0_2_0_0_S4x4x64x256⟩,
       ⟨S4x4x64x256, extractStridedSlice S4x4x64x256 ![1, 0, 0, 0] a slices_S6x6x64x256_o1_0_0_0_S4x4x64x256⟩,
       ⟨S4x4x64x256, extractStridedSlice S4x4x64x256 ![1, 1, 0, 0] a slices_S6x6x64x256_o1_1_0_0_S4x4x64x256⟩,
       ⟨S4x4x64x256, extractStridedSlice S4x4x64x256 ![1, 2, 0, 0] a slices_S6x6x64x256_o1_2_0_0_S4x4x64x256⟩,
       ⟨S4x4x64x256, extractStridedSlice S4x4x64x256 ![2, 0, 0, 0] a slices_S6x6x64x256_o2_0_0_0_S4x4x64x256⟩,
       ⟨S4x4x64x256, extractStridedSlice S4x4x64x256 ![2, 1, 0, 0] a slices_S6x6x64x256_o2_1_0_0_S4x4x64x256⟩,
       ⟨S4x4x64x256, extractStridedSlice S4x4x64x256 ![2, 2, 0, 0] a slices_S6x6x64x256_o2_2_0_0_S4x4x64x256⟩]
      concatenates_S4x4x64x256_S4x4x64x256_S4x4x64x256_S4x4x64x256_S4x4x64x256_S4x4x64x256_S4x4x64x256_S4x4x64x256_S4x4x64x256_S4x4x64x2304_d3)
    shapeCasts_S4x4x64x2304_S1024x2304

/-- The window matrix times the weights. -/
def MM2 (a : FVec Ideal S6x6x64x256 .bf16) (w : FVec Ideal S2304x256 .bf16) : FVec Ideal S1024x256 .f32 :=
  matmul dot_S1024x2304_S2304x256_S1024x256_1_0_0_1_n_n none (lhs2T a) w (constant S1024x256 .f32 0x00000000#32)

/-- One tap of the second pool. -/
def tap2T (v : FVec Ideal S1024x256 .f32) (i j o : Nat) (hs : S2x2x2x2x64x256.Slices ![0, i, 0, j, 0, o] S2x1x2x1x64x128) :
    FVec Ideal S2x2x64x128 .f32 :=
  shapeCast S2x2x64x128
    (extractStridedSlice S2x1x2x1x64x128 ![0, i, 0, j, 0, o]
      (shapeCast S2x2x2x2x64x256 v shapeCasts_S1024x256_S2x2x2x2x64x256) hs)
    shapeCasts_S2x1x2x1x64x128_S2x2x64x128

/-- The maximum over the eight taps. -/
def pool2T (v : FVec Ideal S1024x256 .f32) : FVec Ideal S2x2x64x128 .f32 :=
  maximumf
    (maximumf (maximumf (tap2T v 0 0 0 slices_S2x2x2x2x64x256_o0_0_0_0_0_0_S2x1x2x1x64x128) (tap2T v 0 0 128 slices_S2x2x2x2x64x256_o0_0_0_0_0_128_S2x1x2x1x64x128))
              (maximumf (tap2T v 0 1 0 slices_S2x2x2x2x64x256_o0_0_0_1_0_0_S2x1x2x1x64x128) (tap2T v 0 1 128 slices_S2x2x2x2x64x256_o0_0_0_1_0_128_S2x1x2x1x64x128)))
    (maximumf (maximumf (tap2T v 1 0 0 slices_S2x2x2x2x64x256_o0_1_0_0_0_0_S2x1x2x1x64x128) (tap2T v 1 0 128 slices_S2x2x2x2x64x256_o0_1_0_0_0_128_S2x1x2x1x64x128))
              (maximumf (tap2T v 1 1 0 slices_S2x2x2x2x64x256_o0_1_0_1_0_0_S2x1x2x1x64x128) (tap2T v 1 1 128 slices_S2x2x2x2x64x256_o0_1_0_1_0_128_S2x1x2x1x64x128)))

/-- Bias and rectifier of the second stage. -/
def act2T (p : FVec Ideal S2x2x64x128 .f32) (v88 : FVec Ideal S1x128 .f32) : FVec Ideal S2x2x64x128 .bf16 :=
  truncf .bf16
    (maximumf
      (addf p (broadcastTo S2x2x64x128 (shapeCast S1x1x1x128 v88 shapeCasts_S1x128_S1x1x1x128) broadcasts_S1x1x1x128_S2x2x64x128))
      (mulf (broadcast S2x2x64x128 (Scalar.ofBits (F := Ideal) .f32 0x3C23D70A#32))
        (addf p (broadcastTo S2x2x64x128 (shapeCast S1x1x1x128 v88 shapeCasts_S1x128_S1x1x1x128) broadcasts_S1x1x1x128_S2x2x64x128))))
    bitsLt_bf16_f32

/-- The stage is the composition of its pieces. -/
theorem pay4_eq (v42 v45 : FVec Ideal S6x6x64x256 .f32) (v62 : Vec Ideal S2304x256 .bf16) (v88 : Vec Ideal S1x128 .f32) :
    k0_pay4 (F := Ideal) v42 v45 v62 v88 = act2T (pool2T (MM2 (actT v42 v45) v62)) v88 := rfl

/-- One row of the second product with one column of the weights. -/
theorem MM2_apply (a : FVec Ideal S6x6x64x256 .bf16) (w : FVec Ideal S2304x256 .bf16) (row : Fin 1024) (n : Fin 256) :
    MM2 a w (ix2 row n) = D2 a w row n := by
  unfold MM2
  rw [dot2_eq]
  refine (LibPlainDot.matmul_zero_apply none _ _ row n).trans ?_
  unfold D2 LH2 lhs2T
  refine Finset.sum_congr rfl fun k _ => ?_
  rw [flatten2_apply, windows_cat_apply]

/-- The pool at an entry. -/
theorem pool2T_apply (v : FVec Ideal S1024x256 .f32) (dp hp : Fin 2) (b : Fin 64) (n : Fin 128) :
    pool2T v (ix4 dp hp b n)
      = max
          (max (max (v (ix2 (row2 dp hp 0 0 (by omega) (by omega) b) ⟨0 + n.val, by have := n.isLt; omega⟩))
                    (v (ix2 (row2 dp hp 0 0 (by omega) (by omega) b) ⟨128 + n.val, by have := n.isLt; omega⟩)))
               (max (v (ix2 (row2 dp hp 0 1 (by omega) (by omega) b) ⟨0 + n.val, by have := n.isLt; omega⟩))
                    (v (ix2 (row2 dp hp 0 1 (by omega) (by omega) b) ⟨128 + n.val, by have := n.isLt; omega⟩))))
          (max (max (v (ix2 (row2 dp hp 1 0 (by omega) (by omega) b) ⟨0 + n.val, by have := n.isLt; omega⟩))
                    (v (ix2 (row2 dp hp 1 0 (by omega) (by omega) b) ⟨128 + n.val, by have := n.isLt; omega⟩)))
               (max (v (ix2 (row2 dp hp 1 1 (by omega) (by omega) b) ⟨0 + n.val, by have := n.isLt; omega⟩))
                    (v (ix2 (row2 dp hp 1 1 (by omega) (by omega) b) ⟨128 + n.val, by have := n.isLt; omega⟩)))) := by
  unfold pool2T tap2T
  rw [maximumf_apply, maximumf_apply, maximumf_apply, maximumf_apply, maximumf_apply, maximumf_apply, maximumf_apply,
    tap2_apply v _ 0 0 0 (by omega) (by omega) (by omega), tap2_apply v _ 0 0 128 (by omega) (by omega) (by omega),
    tap2_apply v _ 0 1 0 (by omega) (by omega) (by omega), tap2_apply v _ 0 1 128 (by omega) (by omega) (by omega),
    tap2_apply v _ 1 0 0 (by omega) (by omega) (by omega), tap2_apply v _ 1 0 128 (by omega) (by omega) (by omega),
    tap2_apply v _ 1 1 0 (by omega) (by omega) (by omega), tap2_apply v _ 1 1 128 (by omega) (by omega) (by omega)]

/-- Bias and rectifier at an entry. -/
theorem act2T_apply (p : FVec Ideal S2x2x64x128 .f32) (v88 : FVec Ideal S1x128 .f32) (dp hp : Fin 2) (b : Fin 64) (n : Fin 128) :
    act2T p v88 (ix4 dp hp b n) = Cert.Net.lrelu (p (ix4 dp hp b n) + v88 (ix2 0 n)) := by
  show Cert.Net.lrelu (p (ix4 dp hp b n) + broadcastTo S2x2x64x128 (shapeCast S1x1x1x128 v88 _) _ (ix4 dp hp b n)) = _
  rw [bias2_apply]

/-- The kernel's second stage at one entry. -/
theorem pay4_apply (v42 v45 : FVec Ideal S6x6x64x256 .f32) (v62 : Vec Ideal S2304x256 .bf16) (v88 : Vec Ideal S1x128 .f32)
    (dp hp : Fin 2) (b : Fin 64) (n : Fin 128) :
    k0_pay4 (F := Ideal) v42 v45 v62 v88 (ix4 dp hp b n)
      = Cert.Net.lrelu
          (max
            (max (max (D2 (a1 v42 v45) v62 (row2 dp hp 0 0 (by omega) (by omega) b) ⟨0 + n.val, by have := n.isLt; omega⟩)
                      (D2 (a1 v42 v45) v62 (row2 dp hp 0 0 (by omega) (by omega) b) ⟨128 + n.val, by have := n.isLt; omega⟩))
                 (max (D2 (a1 v42 v45) v62 (row2 dp hp 0 1 (by omega) (by omega) b) ⟨0 + n.val, by have := n.isLt; omega⟩)
                      (D2 (a1 v42 v45) v62 (row2 dp hp 0 1 (by omega) (by omega) b) ⟨128 + n.val, by have := n.isLt; omega⟩)))
            (max (max (D2 (a1 v42 v45) v62 (row2 dp hp 1 0 (by omega) (by omega) b) ⟨0 + n.val, by have := n.isLt; omega⟩)
                      (D2 (a1 v42 v45) v62 (row2 dp hp 1 0 (by omega) (by omega) b) ⟨128 + n.val, by have := n.isLt; omega⟩))
                 (max (D2 (a1 v42 v45) v62 (row2 dp hp 1 1 (by omega) (by omega) b) ⟨0 + n.val, by have := n.isLt; omega⟩)
                      (D2 (a1 v42 v45) v62 (row2 dp hp 1 1 (by omega) (by omega) b) ⟨128 + n.val, by have := n.isLt; omega⟩)))
            + v88 (ix2 0 n)) := by
  rw [pay4_eq, act2T_apply, pool2T_apply, actT_eq]
  simp only [MM2_apply]

end Cert.KerConv2

end
-- ==== Proof.LibIxExt.lean ====
/-
  Indices built from coordinates are equal when their coordinates have equal values: the congruence used to move an
  index computed one way (quotients and remainders of a flattened position) to the same index computed another way.
-/
import Idealize.ShloMosaic.Lib.ValueIdx

namespace LibIxExt

open Idealize.ShloMosaic Idealize.ShloMosaic.ValueIdx

theorem ix2_ext {n0 n1 : Nat} {a a' : Fin n0} {b b' : Fin n1} (h0 : a.val = a'.val) (h1 : b.val = b'.val) :
    ix2 a b = ix2 a' b' := by
  obtain rfl := Fin.ext h0
  obtain rfl := Fin.ext h1
  rfl

theorem ix3_ext {n0 n1 n2 : Nat} {a a' : Fin n0} {b b' : Fin n1} {c c' : Fin n2}
    (h0 : a.val = a'.val) (h1 : b.val = b'.val) (h2 : c.val = c'.val) : ix3 a b c = ix3 a' b' c' := by
  obtain rfl := Fin.ext h0
  obtain rfl := Fin.ext h1
  obtain rfl := Fin.ext h2
  rfl

theorem ix4_ext {n0 n1 n2 n3 : Nat} {a a' : Fin n0} {b b' : Fin n1} {c c' : Fin n2} {d d' : Fin n3}
    (h0 : a.val = a'.val) (h1 : b.val = b'.val) (h2 : c.val = c'.val) (h3 : d.val = d'.val) :
    ix4 a b c d = ix4 a' b' c' d' := by
  obtain rfl := Fin.ext h0
  obtain rfl := Fin.ext h1
  obtain rfl := Fin.ext h2
  obtain rfl := Fin.ext h3
  rfl

theorem ix5_ext {n0 n1 n2 n3 n4 : Nat} {a a' : Fin n0} {b b' : Fin n1} {c c' : Fin n2} {d d' : Fin n3} {e e' : Fin n4}
    (h0 : a.val = a'.val) (h1 : b.val = b'.val) (h2 : c.val = c'.val) (h3 : d.val = d'.val) (h4 : e.val = e'.val) :
    ix5 a b c d e = ix5 a' b' c' d' e' := by
  obtain rfl := Fin.ext h0
  obtain rfl := Fin.ext h1
  obtain rfl := Fin.ext h2
  obtain rfl := Fin.ext h3
  obtain rfl := Fin.ext h4
  rfl

end LibIxExt
-- ==== Proof.KerTail.lean ====
/-
  The kernel's dense tail for the 64 images of one grid point. The second stage's activation p (dp, hp, b, lane) is laid
  out per image as one 512-lane row — position r = dp·2 + hp at lanes r·128 … r·128 + 127 —, multiplied with the
  512 × 128 first dense layer, biased, rectified, scaled and shifted (the folded batch normalisation), multiplied with
  the second dense layer and biased.
-/
import proofs.«162147_g2000504528272344_pallasbulk_1029_23_alg».proof.Proof.Gen.KernelIdeal.Skeleton
import proofs.«162147_g2000504528272344_pallasbulk_1029_23_alg».proof.Proof.Spec
import proofs.«162147_g2000504528272344_pallasbulk_1029_23_alg».proof.Proof.LibPlainDot
import Idealize.ShloMosaic.Lib.Pipeline.Value
import Idealize.ShloMosaic.Lib.ValueIdx
import Idealize.ShloMosaic.Lib.ValueIdxRank6
import Idealize.ShloMosaic.PureOps.Ideal.Laws
import proofs.«162147_g2000504528272344_pallasbulk_1029_23_alg».proof.Proof.LibIxExt

set_option maxRecDepth 16384

noncomputable section

open Idealize.ShloMosaic Idealize.ShloMosaic.ValueIdx Cert.KernelIdeal

namespace Cert.KerTail

open Cert.KernelIdeal.Gen

theorem dot3_eq : dot_S64x512_S512x128_S64x128_1_0_0_1_n_n = DotDims.plain 64 512 128 := rfl
theorem dot4_eq : dot_S64x128_S128x128_S64x128_1_0_0_1_n_n = DotDims.plain 64 128 128 := rfl

/-- Dropping the two leading unit axes. -/
theorem squeeze_apply (v : FVec Ideal S1x1x64x128 .bf16) (h : S1x1x64x128.ShapeCasts S64x128) (b : Fin 64) (n : Fin 128) :
    shapeCast S64x128 v h (ix2 b n) = v (ix4 (0 : Fin 1) (0 : Fin 1) b n) := by
  refine shapeCast_apply v h _ _ ?_
  rw [Shape.rowMajor_val_four, Shape.rowMajor_val_two]
  show ((0 * 1 + 0) * 64 + b.val) * 128 + n.val = b.val * 128 + n.val
  omega

/-- One pooled position of the second activation. -/
theorem position_apply (p : FVec Ideal S2x2x64x128 .bf16) (i j : Nat) (hi : i < 2) (hj : j < 2)
    (hs : S2x2x64x128.Slices ![i, j, 0, 0] S1x1x64x128) (b : Fin 64) (n : Fin 128) :
    extractStridedSlice S1x1x64x128 ![i, j, 0, 0] p hs (ix4 (0 : Fin 1) (0 : Fin 1) b n)
      = p (ix4 (⟨i, hi⟩ : Fin 2) (⟨j, hj⟩ : Fin 2) b n) := by
  refine extractStridedSlice_apply _ _ _ _ _ (fun c => ?_)
  match c with
  | ⟨0, _⟩ => show i = i + 0; omega
  | ⟨1, _⟩ => show j = j + 0; omega
  | ⟨2, _⟩ => show b.val = 0 + b.val; omega
  | ⟨3, _⟩ => show n.val = 0 + n.val; omega

/-- The first dense product at an entry. -/
theorem dense1_apply (fz : FVec Ideal S64x512 .bf16) (v105 : FVec Ideal S512x128 .bf16) (h : S512x128.ShapeCasts S512x128)
    (b : Fin 64) (k : Fin 128) :
    matmul dot_S64x512_S512x128_S64x128_1_0_0_1_n_n none fz (shapeCast S512x128 v105 h) (constant S64x128 .f32 0x00000000#32)
        (ix2 b k)
      = ∑ j : Fin 512, fz (ix2 b j) * v105 (ix2 j k) := by
  rw [dot3_eq, shapeCast_self]
  exact LibPlainDot.matmul_zero_apply none fz v105 b k

/-- The second dense product at an entry. -/
theorem dense2_apply (hid : FVec Ideal S64x128 .bf16) (v121 : FVec Ideal S128x128 .bf16) (b : Fin 64) (n : Fin 128) :
    matmul dot_S64x128_S128x128_S64x128_1_0_0_1_n_n none hid v121 (constant S64x128 .f32 0x00000000#32) (ix2 b n)
      = ∑ k : Fin 128, hid (ix2 b k) * v121 (ix2 k n) := by
  rw [dot4_eq]
  exact LibPlainDot.matmul_zero_apply none hid v121 b n

/-- A bias row broadcast over the images. -/
theorem rowbias_apply (v : FVec Ideal S1x128 .f32) (h : S1x128.Broadcasts S64x128) (b : Fin 64) (n : Fin 128) :
    broadcastTo S64x128 v h (ix2 b n) = v (ix2 0 n) := by
  refine broadcastTo_apply _ _ (ix2 b n) (ix2 (0 : Fin 1) n) (fun a => ?_)
  match a with
  | ⟨0, _⟩ => rfl
  | ⟨1, _⟩ => rfl

/-- The per-image row of the second activation. -/
def fzT (v95 : FVec Ideal S2x2x64x128 .bf16) (v97 : FVec Ideal S64x128 .bf16) (v98 : FVec Ideal S1x1x64x128 .bf16) :
    FVec Ideal S64x512 .bf16 :=
  concatenate S64x512 1
    [⟨S64x128, v97⟩,
     ⟨S64x128, shapeCast S64x128 v98 shapeCasts_S1x1x64x128_S64x128⟩,
     ⟨S64x128, shapeCast S64x128 (extractStridedSlice S1x1x64x128 ![1, 0, 0, 0] v95 slices_S2x2x64x128_o1_0_0_0_S1x1x64x128)
        shapeCasts_S1x1x64x128_S64x128⟩,
     ⟨S64x128, shapeCast S64x128 (extractStridedSlice S1x1x64x128 ![1, 1, 0, 0] v95 slices_S2x2x64x128_o1_1_0_0_S1x1x64x128)
        shapeCasts_S1x1x64x128_S64x128⟩]
    concatenates_S64x128_S64x128_S64x128_S64x128_S64x512_d1

/-- First dense layer, rectifier, scale and shift. -/
def hidT (fz : FVec Ideal S64x512 .bf16) (v105 : FVec Ideal S512x128 .bf16) (v108 v114 v117 : FVec Ideal S1x128 .f32) :
    FVec Ideal S64x128 .bf16 :=
  truncf .bf16
    (addf
      (mulf
        (maximumf
          (addf (matmul dot_S64x512_S512x128_S64x128_1_0_0_1_n_n none fz (shapeCast S512x128 v105 shapeCasts_S512x128_S512x128)
              (constant S64x128 .f32 0x00000000#32)) (broadcastTo S64x128 v108 broadcasts_S1x128_S64x128))
          (mulf (broadcast S64x128 (Scalar.ofBits (F := Ideal) .f32 0x3C23D70A#32))
            (addf (matmul dot_S64x512_S512x128_S64x128_1_0_0_1_n_n none fz (shapeCast S512x128 v105 shapeCasts_S512x128_S512x128)
              (constant S64x128 .f32 0x00000000#32)) (broadcastTo S64x128 v108 broadcasts_S1x128_S64x128))))
        (broadcastTo S64x128 v114 broadcasts_S1x128_S64x128))
      (broadcastTo S64x128 v117 broadcasts_S1x128_S64x128))
    bitsLt_bf16_f32

/-- Second dense layer. -/
def outT (hid : FVec Ideal S64x128 .bf16) (v121 : FVec Ideal S128x128 .bf16) (v123 : FVec Ideal S1x128 .f32) :
    FVec Ideal S64x128 .f32 :=
  addf (matmul dot_S64x128_S128x128_S64x128_1_0_0_1_n_n none hid v121 (constant S64x128 .f32 0x00000000#32))
    (broadcastTo S64x128 v123 broadcasts_S1x128_S64x128)

/-- The tail is the composition of its pieces. -/
theorem pay1_eq (v95 : FVec Ideal S2x2x64x128 .bf16) (v97 : FVec Ideal S64x128 .bf16) (v98 : FVec Ideal S1x1x64x128 .bf16)
    (v105 : Vec Ideal S512x128 .bf16) (v108 v114 v117 : Vec Ideal S1x128 .f32) (v121 : Vec Ideal S128x128 .bf16)
    (v123 : Vec Ideal S1x128 .f32) :
    k0_pay1 (F := Ideal) v95 v97 v98 v105 v108 v114 v117 v121 v123
      = outT (hidT (fzT v95 v97 v98) v105 v108 v114 v117) v121 v123 := rfl

/-- The row of image b at lane j, when the two separately passed pieces are positions (0,0) and (0,1) of the activation. -/
theorem fzT_apply (v95 : FVec Ideal S2x2x64x128 .bf16) (v97 : FVec Ideal S64x128 .bf16) (v98 : FVec Ideal S1x1x64x128 .bf16)
    (h97 : ∀ (b : Fin 64) (n : Fin 128), v97 (ix2 b n) = v95 (ix4 (0 : Fin 2) (0 : Fin 2) b n))
    (h98 : ∀ (b : Fin 64) (n : Fin 128), v98 (ix4 (0 : Fin 1) (0 : Fin 1) b n) = v95 (ix4 (0 : Fin 2) (1 : Fin 2) b n))
    (b : Fin 64) (j : Fin 512) :
    fzT v95 v97 v98 (ix2 b j)
      = v95 (ix4 ⟨j.val / 256, by have := j.isLt; omega⟩ ⟨j.val / 128 % 2, by omega⟩ b ⟨j.val % 128, by omega⟩) := by
  have hj := j.isLt
  unfold fzT
  by_cases hq0 : j.val < 128
  · refine Eq.trans (b := (v97) (ix2 b ⟨j.val - 0, by omega⟩)) ?_ ((h97 b ⟨j.val - 0, by omega⟩).trans ?_)
    · refine concatenate_apply_piece 1 _ _ (ix2 b j) 0 (by simp) S64x128 _ rfl rfl 0 rfl
        (ix2 b ⟨j.val - 0, by omega⟩) (fun c hc' => ?_) (by show 0 + (j.val - 0) = j.val; omega)
      match c with
      | ⟨0, _⟩ => rfl
      | ⟨1, _⟩ => exact absurd rfl hc'
    · exact congrArg v95 (LibIxExt.ix4_ext (by show 0 = j.val / 256; omega) (by show 0 = j.val / 128 % 2; omega) rfl
        (by show j.val - 0 = j.val % 128; omega))
  by_cases hq1 : j.val < 256
  · refine Eq.trans (b := (shapeCast S64x128 v98 shapeCasts_S1x1x64x128_S64x128) (ix2 b ⟨j.val - 128, by omega⟩)) ?_ (((squeeze_apply v98 shapeCasts_S1x1x64x128_S64x128 b ⟨j.val - 128, by omega⟩).trans (h98 b ⟨j.val - 128, by omega⟩)).trans ?_)
    · refine concatenate_apply_piece 1 _ _ (ix2 b j) 1 (by simp) S64x128 _ rfl rfl 128 rfl
        (ix2 b ⟨j.val - 128, by omega⟩) (fun c hc' => ?_) (by show 128 + (j.val - 128) = j.val; omega)
      match c with
      | ⟨0, _⟩ => rfl
      | ⟨1, _⟩ => exact absurd rfl hc'
    · exact congrArg v95 (LibIxExt.ix4_ext (by show 0 = j.val / 256; omega) (by show 1 = j.val / 128 % 2; omega) rfl
        (by show j.val - 128 = j.val % 128; omega))
  by_cases hq2 : j.val < 384
  · refine Eq.trans (b := (shapeCast S64x128 (extractStridedSlice S1x1x64x128 ![1, 0, 0, 0] v95 slices_S2x2x64x128_o1_0_0_0_S1x1x64x128) shapeCasts_S1x1x64x128_S64x128) (ix2 b ⟨j.val - 256, by omega⟩)) ?_ (((squeeze_apply _ shapeCasts_S1x1x64x128_S64x128 b ⟨j.val - 256, by omega⟩).trans (position_apply v95 1 0 (by omega) (by omega) slices_S2x2x64x128_o1_0_0_0_S1x1x64x128 b ⟨j.val - 256, by omega⟩)).trans ?_)
    · refine concatenate_apply_piece 1 _ _ (ix2 b j) 2 (by simp) S64x128 _ rfl rfl 256 rfl
        (ix2 b ⟨j.val - 256, by omega⟩) (fun c hc' => ?_) (by show 256 + (j.val - 256) = j.val; omega)
      match c with
      | ⟨0, _⟩ => rfl
      | ⟨1, _⟩ => exact absurd rfl hc'
    · exact congrArg v95 (LibIxExt.ix4_ext (by show 1 = j.val / 256; omega) (by show 0 = j.val / 128 % 2; omega) rfl
        (by show j.val - 256 = j.val % 128; omega))
  · refine Eq.trans (b := (shapeCast S64x128 (extractStridedSlice S1x1x64x128 ![1, 1, 0, 0] v95 slices_S2x2x64x128_o1_1_0_0_S1x1x64x128) shapeCasts_S1x1x64x128_S64x128) (ix2 b ⟨j.val - 384, by omega⟩)) ?_ (((squeeze_apply _ shapeCasts_S1x1x64x128_S64x128 b ⟨j.val - 384, by omega⟩).trans (position_apply v95 1 1 (by omega) (by omega) slices_S2x2x64x128_o1_1_0_0_S1x1x64x128 b ⟨j.val - 384, by omega⟩)).trans ?_)
    · refine concatenate_apply_piece 1 _ _ (ix2 b j) 3 (by simp) S64x128 _ rfl rfl 384 rfl
        (ix2 b ⟨j.val - 384, by omega⟩) (fun c hc' => ?_) (by show 384 + (j.val - 384) = j.val; omega)
      match c with
      | ⟨0, _⟩ => rfl
      | ⟨1, _⟩ => exact absurd rfl hc'
    · exact congrArg v95 (LibIxExt.ix4_ext (by show 1 = j.val / 256; omega) (by show 1 = j.val / 128 % 2; omega) rfl
        (by show j.val - 384 = j.val % 128; omega))

/-- The hidden layer at an entry. -/
theorem hidT_apply (fz : FVec Ideal S64x512 .bf16) (v105 : FVec Ideal S512x128 .bf16) (v108 v114 v117 : FVec Ideal S1x128 .f32)
    (b : Fin 64) (k : Fin 128) :
    hidT fz v105 v108 v114 v117 (ix2 b k)
      = Cert.Net.lrelu ((∑ j : Fin 512, fz (ix2 b j) * v105 (ix2 j k)) + v108 (ix2 0 k)) * v114 (ix2 0 k) + v117 (ix2 0 k) := by
  show Cert.Net.lrelu (matmul dot_S64x512_S512x128_S64x128_1_0_0_1_n_n none fz (shapeCast S512x128 v105 _)
      (constant S64x128 .f32 0x00000000#32) (ix2 b k) + broadcastTo S64x128 v108 _ (ix2 b k))
    * broadcastTo S64x128 v114 _ (ix2 b k) + broadcastTo S64x128 v117 _ (ix2 b k) = _
  rw [rowbias_apply, rowbias_apply, rowbias_apply, dense1_apply]

/-- The output at an entry. -/
theorem outT_apply (hid : FVec Ideal S64x128 .bf16) (v121 : FVec Ideal S128x128 .bf16) (v123 : FVec Ideal S1x128 .f32)
    (b : Fin 64) (n : Fin 128) :
    outT hid v121 v123 (ix2 b n) = (∑ k : Fin 128, hid (ix2 b k) * v121 (ix2 k n)) + v123 (ix2 0 n) := by
  show matmul dot_S64x128_S128x128_S64x128_1_0_0_1_n_n none hid v121 (constant S64x128 .f32 0x00000000#32) (ix2 b n)
    + broadcastTo S64x128 v123 _ (ix2 b n) = _
  rw [rowbias_apply, dense2_apply]

/-- The two separately passed pieces are positions (0,0) and (0,1). -/
theorem pay5_apply (v42 v45 : FVec Ideal S6x6x64x256 .f32) (v62 : Vec Ideal S2304x256 .bf16) (v88 : Vec Ideal S1x128 .f32)
    (b : Fin 64) (n : Fin 128) :
    k0_pay5 (F := Ideal) v42 v45 v62 v88 (ix2 b n) = k0_pay4 (F := Ideal) v42 v45 v62 v88 (ix4 (0 : Fin 2) (0 : Fin 2) b n) := by
  unfold k0_pay5
  exact (squeeze_apply _ shapeCasts_S1x1x64x128_S64x128 b n).trans (position_apply _ 0 0 (by omega) (by omega) slices_S2x2x64x128_o0_0_0_0_S1x1x64x128 b n)

theorem pay6_apply (v42 v45 : FVec Ideal S6x6x64x256 .f32) (v62 : Vec Ideal S2304x256 .bf16) (v88 : Vec Ideal S1x128 .f32)
    (b : Fin 64) (n : Fin 128) :
    k0_pay6 (F := Ideal) v42 v45 v62 v88 (ix4 (0 : Fin 1) (0 : Fin 1) b n)
      = k0_pay4 (F := Ideal) v42 v45 v62 v88 (ix4 (0 : Fin 2) (1 : Fin 2) b n) := by
  unfold k0_pay6
  exact position_apply _ 0 1 (by omega) (by omega) slices_S2x2x64x128_o0_1_0_0_S1x1x64x128 b n

end Cert.KerTail

end
-- ==== Proof.LibBlockSum.lean ====
/- Block sums: a sum over Fin (n * b) is the sum over the n blocks of the b entries of each block,
   the entry j of block k sitting at position k * b + j. Over any commutative additive monoid. -/
import Mathlib.Algebra.BigOperators.Fin
import Mathlib.Data.Fintype.BigOperators
import Mathlib.Logic.Equiv.Fin.Basic

namespace BlockSum

variable {M : Type*} [AddCommMonoid M]

/-- Position k * b + j, with k < n and j < b, lies below n * b. -/
theorem block_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right _ k.isLt

/-- A sum over Fin (n * b) is the sum over the n blocks of the sums over the b entries of each block:
    ∑ k < n, ∑ j < b, f (k * b + j) = ∑ i < n * b, f i. -/
theorem sum_blocks (n b : ℕ) (f : Fin (n * b) → M) :
    (∑ k : Fin n, ∑ j : Fin b, f ⟨k.val * b + j.val, block_lt k j⟩) = ∑ i : Fin (n * b), f i := by
  rw [← Equiv.sum_comp finProdFinEquiv f, Fintype.sum_prod_type]
  refine Finset.sum_congr rfl fun k _ => Finset.sum_congr rfl fun j _ => ?_
  exact congrArg f (Fin.ext (by simp [finProdFinEquiv, Nat.mul_comm, Nat.add_comm]))

/-- 8 blocks of 1024 over Fin 8192. -/
theorem sum_blocks_8_1024 (f : Fin 8192 → M) :
    (∑ k : Fin 8, ∑ j : Fin 1024, f ⟨k.val * 1024 + j.val, by omega⟩) = ∑ i : Fin 8192, f i :=
  sum_blocks 8 1024 f

/-- 8 blocks of 2048 over Fin 16384. -/
theorem sum_blocks_8_2048 (f : Fin 16384 → M) :
    (∑ k : Fin 8, ∑ j : Fin 2048, f ⟨k.val * 2048 + j.val, by omega⟩) = ∑ i : Fin 16384, f i :=
  sum_blocks 8 2048 f

/-- 4 blocks of 2048 over Fin 8192. -/
theorem sum_blocks_4_2048 (f : Fin 8192 → M) :
    (∑ k : Fin 4, ∑ j : Fin 2048, f ⟨k.val * 2048 + j.val, by omega⟩) = ∑ i : Fin 8192, f i :=
  sum_blocks 4 2048 f

end BlockSum
-- ==== Proof.KerAlgebra.lean ====
/-
  The laws that join the kernel's arrangement of the network to the specification's.

  First convolution. The kernel keeps an image's lanes in the order l' = c·14 + w, the specification in l = w·3 + c; the
  kernel's contraction has 384 columns j = kd·128 + r (r = kh·42 + l' below 126, two zero columns above), the
  specification's 378 columns k = kd·126 + kh·42 + l. The injection k ↦ kd·128 + kh·42 + c·14 + w carries each product
  of the specification's sum to the equal product of the kernel's, and the columns it misses carry a zero factor: the
  two sums agree, with no condition on the data.
  Pools. A maximum of eight numbers does not depend on how they are grouped.
  First dense layer. A sum over 512 lanes is the sum over the four pooled positions of the sums over their 128 lanes, and
  the bias may be added first or last.
-/
import proofs.«162147_g2000504528272344_pallasbulk_1029_23_alg».proof.Proof.Spec
import proofs.«162147_g2000504528272344_pallasbulk_1029_23_alg».proof.Proof.KerConv1
import proofs.«162147_g2000504528272344_pallasbulk_1029_23_alg».proof.Proof.KerConv2
import proofs.«162147_g2000504528272344_pallasbulk_1029_23_alg».proof.Proof.KernelHost
import proofs.«162147_g2000504528272344_pallasbulk_1029_23_alg».proof.Proof.LibIxExt
import proofs.«162147_g2000504528272344_pallasbulk_1029_23_alg».proof.Proof.LibBlockSum

set_option maxRecDepth 16384

noncomputable section

open Idealize.ShloMosaic Idealize.ShloMosaic.ValueIdx Cert.KernelIdeal

namespace Cert.KerAlgebra

open Cert.KerConv1 Cert.KerConv2 Cert.Net LibIxExt

/-- Image b of a block, its lanes re-ordered from c·14 + w to w·3 + c. -/
def Xof (x : S14x14x64x42.Idx → EReal) (b : Fin 64) : Fin 14 → Fin 14 → Fin 42 → EReal :=
  fun d h l => x (ix4 d h b ⟨(l.val % 3) * 14 + l.val / 3, by have := l.isLt; omega⟩)

/-- Where the specification's column k = kd·126 + kh·42 + w·3 + c sits among the kernel's: kd·128 + kh·42 + c·14 + w. -/
def τn (k : Nat) : Nat := (k / 126) * 128 + ((k % 126) / 42) * 42 + ((k % 42) % 3) * 14 + (k % 42) / 3

/-- The way back, on the columns that are no padding. -/
def σn (j : Nat) : Nat := (j / 128) * 126 + ((j % 128) / 42) * 42 + ((j % 128) % 14) * 3 + ((j % 128) % 42) / 14

/-- The facts about the two maps, each a finite check over the columns. -/
theorem τn_facts : ∀ k : Fin 378, τn k.val < 384 ∧ τn k.val % 128 < 126 ∧ σn (τn k.val) = k.val
    ∧ τn k.val / 128 = k.val / 126 ∧ τn k.val % 128 / 42 = k.val % 126 / 42
    ∧ τn k.val % 128 % 42 = (k.val % 42 % 3) * 14 + k.val % 42 / 3 := by
  decide +kernel

theorem σn_facts : ∀ j : Fin 384, j.val % 128 < 126 → σn j.val < 378 ∧ τn (σn j.val) = j.val := by
  decide +kernel

def τ (k : Fin 378) : Fin 384 := ⟨τn k.val, (τn_facts k).1⟩

theorem τ_inj : Function.Injective τ := fun k k' h => Fin.ext (by
  have h' : τn k.val = τn k'.val := congrArg Fin.val h
  rw [← (τn_facts k).2.2.1, ← (τn_facts k').2.2.1, h'])

theorem τ_onto (j : Fin 384) (h : j.val % 128 < 126) : ∃ k : Fin 378, τ k = j :=
  ⟨⟨σn j.val, (σn_facts j h).1⟩, Fin.ext (σn_facts j h).2⟩

/-- One row of the kernel's first product is the specification's first convolution at that row's position and image,
    when the kernel's weight half holds the specification's columns (col q), re-ordered and padded. -/
theorem D_eq_conv1 (x : S14x14x64x42.Idx → EReal) (w : S384x256.Idx → EReal) (a : FVec Ideal S378x512 .bf16)
    (col : Fin 256 → Fin 512) (hw : ∀ (j : Fin 384) (q : Fin 256), w (ix2 j q) = Cert.KernelArrays.Wg a j (col q))
    (row : Fin 9216) (od oh : Fin 12) (b : Fin 64) (hod : row.val / 768 = od.val) (hoh : row.val / 64 % 12 = oh.val)
    (hb : row.val % 64 = b.val) (n : Fin 256) :
    D x w row n = conv1 (Xof x b) (fun k q => a (ix2 k q)) od oh (col n) := by
  unfold D conv1
  symm
  refine Fintype.sum_of_injective τ τ_inj _ _ (fun j hj => ?_) (fun k => ?_)
  · have hpad : ¬ j.val % 128 < 126 := fun h => hj (τ_onto j h)
    unfold LH P
    rw [dif_neg hpad, zero_mul]
  · obtain ⟨-, hl, hst, h1, h2, h3⟩ := τn_facts k
    have hk := k.isLt
    have hl' : (τ k).val % 128 < 126 := hl
    unfold A1 Xof LH P
    rw [dif_pos hl', hw]
    unfold Cert.KernelArrays.Wg
    rw [dif_pos hl']
    refine congrArg₂ (· * ·) (congrArg x (ix4_ext ?_ ?_ hb.symm ?_)) (congrArg a (ix2_ext ?_ rfl))
    · show od.val + k.val / 126 = row.val / 768 + τn k.val / 128
      omega
    · show oh.val + k.val % 126 / 42 = row.val / 64 % 12 + τn k.val % 128 / 42
      omega
    · show (k.val % 42 % 3) * 14 + k.val % 42 / 3 = τn k.val % 128 % 42
      omega
    · show k.val = σn (τn k.val)
      exact hst.symm

/-- One row of the kernel's second product is the specification's second convolution, when the kernel's activation of
    image b is the specification's first activation. -/
theorem D2_eq_conv2 (act : S6x6x64x256.Idx → EReal) (w : S2304x256.Idx → EReal)
    (X : Fin 14 → Fin 14 → Fin 42 → EReal) (W1 : Fin 378 → Fin 512 → EReal) (B1 : Fin 256 → EReal) (b : Fin 64)
    (hact : ∀ (d h : Fin 6) (l : Fin 256), act (ix4 d h b l) = act1 X W1 B1 d h l)
    (row : Fin 1024) (od oh : Fin 4) (hod : row.val / 256 = od.val) (hoh : row.val / 64 % 4 = oh.val)
    (hb : row.val % 64 = b.val) (n : Fin 256) :
    D2 act w row n = conv2 X W1 B1 (fun k q => w (ix2 k q)) od oh n := by
  unfold D2 conv2
  refine Finset.sum_congr rfl fun k _ => ?_
  have hk := k.isLt
  unfold LH2 A2
  refine congrArg (· * w (ix2 k n)) ?_
  refine (congrArg act (ix4_ext ?_ ?_ hb rfl)).trans (hact _ _ _)
  · show row.val / 256 + k.val / 256 / 3 = od.val + k.val / 768
    omega
  · show row.val / 64 % 4 + k.val / 256 % 3 = oh.val + k.val % 768 / 256
    omega

/-- Eight numbers' maximum, grouped by tap then by half, or by half then by depth then by height. -/
theorem max8_regroup (a00 a01 a10 a11 b00 b01 b10 b11 : EReal) :
    max (max (max a00 a01) (max a10 a11)) (max (max b00 b01) (max b10 b11))
      = max (max (max a00 b00) (max a10 b10)) (max (max a01 b01) (max a11 b11)) := by
  ac_rfl

/-- The same for the second pool's grouping (the halves innermost on both sides; depth and height swapped). -/
theorem max8_regroup2 (a00 b00 a01 b01 a10 b10 a11 b11 : EReal) :
    max (max (max a00 b00) (max a01 b01)) (max (max a10 b10) (max a11 b11))
      = max (max (max a00 b00) (max a10 b10)) (max (max a01 b01) (max a11 b11)) := by
  ac_rfl

/-- A 512-lane contraction plus a bias is the bias plus the four 128-lane shares, added one after the other. -/
theorem dense_split (F : Fin 512 → EReal) (S : Fin 4 → EReal) (B : EReal)
    (hF : ∀ r : Fin 4, (∑ l : Fin 128, F ⟨r.val * 128 + l.val, BlockSum.block_lt r l⟩) = S r) :
    (∑ j : Fin 512, F j) + B = (((B + S 0) + S 1) + S 2) + S 3 := by
  have h := BlockSum.sum_blocks 4 128 F
  have h' : (∑ j : Fin 512, F j) = ∑ r : Fin 4, S r := by
    rw [← h]
    exact Finset.sum_congr rfl fun r _ => hF r
  rw [h', Fin.sum_univ_four]
  abel

end Cert.KerAlgebra

end
-- ==== Proof.KerBody.lean ====
/-
  What the kernel's body leaves in its output block: row bb of the block is the network's logits of image bb of the
  grid point, the image's lanes read in the specification's order and the first convolution's weights read back from
  the re-ordered, zero-padded halves the kernel is launched with.
-/
import proofs.«162147_g2000504528272344_pallasbulk_1029_23_alg».proof.Proof.Gen.KernelIdeal.Frame
import proofs.«162147_g2000504528272344_pallasbulk_1029_23_alg».proof.Proof.KerConv1Pay
import proofs.«162147_g2000504528272344_pallasbulk_1029_23_alg».proof.Proof.KerConv2Pay
import proofs.«162147_g2000504528272344_pallasbulk_1029_23_alg».proof.Proof.KerTail
import proofs.«162147_g2000504528272344_pallasbulk_1029_23_alg».proof.Proof.KerAlgebra

set_option maxRecDepth 16384

noncomputable section

open Idealize.ShloMosaic Idealize.ShloMosaic.ValueIdx Cert.KernelIdeal

namespace Cert.KerBody

open Cert.KernelIdeal.Gen Cert.KerConv1 Cert.KerConv2 Cert.KerTail Cert.KerAlgebra Cert.Net LibIxExt

theorem hz2 : (![0, 0] : Fin 2 → ℕ) = fun _ => 0 := by funext i; fin_cases i <;> rfl
theorem hz4 : (![0, 0, 0, 0] : Fin 4 → ℕ) = fun _ => 0 := by funext i; fin_cases i <;> rfl

/-- The flattened row of output position (2·dp + i, 2·hp + j) of image b, taken apart again. -/
theorem row_facts (dp hp : Fin 6) (i j : Nat) (hi : i < 2) (hj : j < 2) (b : Fin 64) :
    (row dp hp i j hi hj b).val / 768 = 2 * dp.val + i ∧ (row dp hp i j hi hj b).val / 64 % 12 = 2 * hp.val + j
      ∧ (row dp hp i j hi hj b).val % 64 = b.val := by
  have := dp.isLt
  have := hp.isLt
  have := b.isLt
  show ((((dp.val * 2 + i) * 6 + hp.val) * 2 + j) * 64 + b.val) / 768 = 2 * dp.val + i
    ∧ ((((dp.val * 2 + i) * 6 + hp.val) * 2 + j) * 64 + b.val) / 64 % 12 = 2 * hp.val + j
    ∧ ((((dp.val * 2 + i) * 6 + hp.val) * 2 + j) * 64 + b.val) % 64 = b.val
  omega

theorem row2_facts (dp hp : Fin 2) (i j : Nat) (hi : i < 2) (hj : j < 2) (b : Fin 64) :
    (row2 dp hp i j hi hj b).val / 256 = 2 * dp.val + i ∧ (row2 dp hp i j hi hj b).val / 64 % 4 = 2 * hp.val + j
      ∧ (row2 dp hp i j hi hj b).val % 64 = b.val := by
  have := dp.isLt
  have := hp.isLt
  have := b.isLt
  show ((((dp.val * 2 + i) * 2 + hp.val) * 2 + j) * 64 + b.val) / 256 = 2 * dp.val + i
    ∧ ((((dp.val * 2 + i) * 2 + hp.val) * 2 + j) * 64 + b.val) / 64 % 4 = 2 * hp.val + j
    ∧ ((((dp.val * 2 + i) * 2 + hp.val) * 2 + j) * 64 + b.val) % 64 = b.val
  omega

theorem out_eq (x0 : Vec Ideal S14x14x64x42 .bf16) (x1 x2 : Vec Ideal S384x256 .bf16) (x3 : Vec Ideal S1x256 .f32)
    (x4 : Vec Ideal S2304x256 .bf16) (x5 : Vec Ideal S1x128 .f32) (x6 : Vec Ideal S512x128 .bf16)
    (x7 x8 x9 : Vec Ideal S1x128 .f32) (x10 : Vec Ideal S128x128 .bf16) (x11 : Vec Ideal S1x128 .f32)
    (a : FVec Ideal S378x512 .bf16) (f : FVec Ideal S4x128x128 .bf16)
    (hx1 : ∀ (j : Fin 384) (q : Fin 256), x1 (ix2 j q) = Cert.KernelArrays.Wg a j ⟨q.val, by have := q.isLt; omega⟩)
    (hx2 : ∀ (j : Fin 384) (q : Fin 256), x2 (ix2 j q) = Cert.KernelArrays.Wg a j ⟨q.val + 256, by have := q.isLt; omega⟩)
    (hx6 : ∀ (j : Fin 512) (q : Fin 128),
      x6 (ix2 j q) = f (ix3 ⟨j.val / 128, by have := j.isLt; omega⟩ ⟨j.val % 128, by omega⟩ q))
    (bb : Fin 64) (n : Fin 128) :
    out0_12 (F := Ideal) x0 x1 x2 x3 x4 x5 x6 x7 x8 x9 x10 x11 (ix2 bb n)
      = logits (fun d h l => x0 (ix4 d h bb ⟨(l.val % 3) * 14 + l.val / 3, by have := l.isLt; omega⟩))
          (fun k q => a (ix2 k q)) (fun q => x3 (ix2 0 q)) (fun k q => x4 (ix2 k q)) (fun q => x5 (ix2 0 q))
          (fun r k q => f (ix3 r k q)) (fun q => x7 (ix2 0 q)) (fun q => x8 (ix2 0 q)) (fun q => x9 (ix2 0 q))
          (fun k q => x10 (ix2 k q)) (fun q => x11 (ix2 0 q)) n := by
  show _ = logits (Xof x0 bb) (fun k q => a (ix2 k q)) (fun q => x3 (ix2 0 q)) (fun k q => x4 (ix2 k q)) (fun q => x5 (ix2 0 q))
          (fun r k q => f (ix3 r k q)) (fun q => x7 (ix2 0 q)) (fun q => x8 (ix2 0 q)) (fun q => x9 (ix2 0 q))
          (fun k q => x10 (ix2 k q)) (fun q => x11 (ix2 0 q)) n
  have hbb := bb.isLt
  -- the pooled first convolution
  have hQ : ∀ (dp hp : Fin 6) (q : Fin 256),
      k0_pay2 (F := Ideal) x0 x1 x2 (ix4 dp hp bb q) = pool1 (Xof x0 bb) (fun k q => a (ix2 k q)) dp hp q := by
    intro dp hp q
    have hdp := dp.isLt
    have hhp := hp.isLt
    have hq := q.isLt
    have rf := fun (i j : Nat) (hi : i < 2) (hj : j < 2) => row_facts dp hp i j hi hj bb
    rw [pay2_apply,
      D_eq_conv1 x0 x1 a _ hx1 (row dp hp 0 0 (by omega) (by omega) bb) ⟨2 * dp.val, by omega⟩ ⟨2 * hp.val, by omega⟩ bb (rf 0 0 (by omega) (by omega)).1 (rf 0 0 (by omega) (by omega)).2.1 (rf 0 0 (by omega) (by omega)).2.2 q,
      D_eq_conv1 x0 x1 a _ hx1 (row dp hp 0 1 (by omega) (by omega) bb) ⟨2 * dp.val, by omega⟩ ⟨2 * hp.val + 1, by omega⟩ bb (rf 0 1 (by omega) (by omega)).1 (rf 0 1 (by omega) (by omega)).2.1 (rf 0 1 (by omega) (by omega)).2.2 q,
      D_eq_conv1 x0 x1 a _ hx1 (row dp hp 1 0 (by omega) (by omega) bb) ⟨2 * dp.val + 1, by omega⟩ ⟨2 * hp.val, by omega⟩ bb (rf 1 0 (by omega) (by omega)).1 (rf 1 0 (by omega) (by omega)).2.1 (rf 1 0 (by omega) (by omega)).2.2 q,
      D_eq_conv1 x0 x1 a _ hx1 (row dp hp 1 1 (by omega) (by omega) bb) ⟨2 * dp.val + 1, by omega⟩ ⟨2 * hp.val + 1, by omega⟩ bb (rf 1 1 (by omega) (by omega)).1 (rf 1 1 (by omega) (by omega)).2.1 (rf 1 1 (by omega) (by omega)).2.2 q,
      D_eq_conv1 x0 x2 a _ hx2 (row dp hp 0 0 (by omega) (by omega) bb) ⟨2 * dp.val, by omega⟩ ⟨2 * hp.val, by omega⟩ bb (rf 0 0 (by omega) (by omega)).1 (rf 0 0 (by omega) (by omega)).2.1 (rf 0 0 (by omega) (by omega)).2.2 q,
      D_eq_conv1 x0 x2 a _ hx2 (row dp hp 0 1 (by omega) (by omega) bb) ⟨2 * dp.val, by omega⟩ ⟨2 * hp.val + 1, by omega⟩ bb (rf 0 1 (by omega) (by omega)).1 (rf 0 1 (by omega) (by omega)).2.1 (rf 0 1 (by omega) (by omega)).2.2 q,
      D_eq_conv1 x0 x2 a _ hx2 (row dp hp 1 0 (by omega) (by omega) bb) ⟨2 * dp.val + 1, by omega⟩ ⟨2 * hp.val, by omega⟩ bb (rf 1 0 (by omega) (by omega)).1 (rf 1 0 (by omega) (by omega)).2.1 (rf 1 0 (by omega) (by omega)).2.2 q,
      D_eq_conv1 x0 x2 a _ hx2 (row dp hp 1 1 (by omega) (by omega) bb) ⟨2 * dp.val + 1, by omega⟩ ⟨2 * hp.val + 1, by omega⟩ bb (rf 1 1 (by omega) (by omega)).1 (rf 1 1 (by omega) (by omega)).2.1 (rf 1 1 (by omega) (by omega)).2.2 q]
    unfold pool1 dpool1 wpool1
    exact max8_regroup _ _ _ _ _ _ _ _
  -- the first activation
  have hA1 : ∀ (d h : Fin 6) (l : Fin 256),
      a1 (k0_pay2 (F := Ideal) x0 x1 x2) (k0_pay3 (F := Ideal) x3) (ix4 d h bb l)
        = act1 (Xof x0 bb) (fun k q => a (ix2 k q)) (fun q => x3 (ix2 0 q)) d h l := by
    intro d h l
    show lrelu (k0_pay2 (F := Ideal) x0 x1 x2 (ix4 d h bb l) + k0_pay3 (F := Ideal) x3 (ix4 d h bb l)) = _
    rw [hQ, pay3_apply]
    rfl
  -- the second stage
  have hP : ∀ (dp hp : Fin 2) (q : Fin 128),
      k0_pay4 (F := Ideal) (k0_pay2 (F := Ideal) x0 x1 x2) (k0_pay3 (F := Ideal) x3) x4 x5 (ix4 dp hp bb q)
        = lrelu (pool2 (Xof x0 bb) (fun k q => a (ix2 k q)) (fun q => x3 (ix2 0 q)) (fun k q => x4 (ix2 k q)) dp hp q
            + x5 (ix2 0 q)) := by
    intro dp hp q
    have hdp := dp.isLt
    have hhp := hp.isLt
    have hq := q.isLt
    have rf2 := fun (i j : Nat) (hi : i < 2) (hj : j < 2) => row2_facts dp hp i j hi hj bb
    have e0 : (⟨0 + q.val, by omega⟩ : Fin 256) = ⟨q.val, by omega⟩ := Fin.ext (Nat.zero_add _)
    have e1 : (⟨128 + q.val, by omega⟩ : Fin 256) = ⟨q.val + 128, by omega⟩ := Fin.ext (Nat.add_comm _ _)
    rw [pay4_apply,
      D2_eq_conv2 _ x4 (Xof x0 bb) (fun k q => a (ix2 k q)) (fun q => x3 (ix2 0 q)) bb hA1 (row2 dp hp 0 0 (by omega) (by omega) bb) ⟨2 * dp.val, by omega⟩ ⟨2 * hp.val, by omega⟩ (rf2 0 0 (by omega) (by omega)).1 (rf2 0 0 (by omega) (by omega)).2.1 (rf2 0 0 (by omega) (by omega)).2.2 ⟨0 + q.val, by omega⟩,
      D2_eq_conv2 _ x4 (Xof x0 bb) (fun k q => a (ix2 k q)) (fun q => x3 (ix2 0 q)) bb hA1 (row2 dp hp 0 0 (by omega) (by omega) bb) ⟨2 * dp.val, by omega⟩ ⟨2 * hp.val, by omega⟩ (rf2 0 0 (by omega) (by omega)).1 (rf2 0 0 (by omega) (by omega)).2.1 (rf2 0 0 (by omega) (by omega)).2.2 ⟨128 + q.val, by omega⟩,
      D2_eq_conv2 _ x4 (Xof x0 bb) (fun k q => a (ix2 k q)) (fun q => x3 (ix2 0 q)) bb hA1 (row2 dp hp 0 1 (by omega) (by omega) bb) ⟨2 * dp.val, by omega⟩ ⟨2 * hp.val + 1, by omega⟩ (rf2 0 1 (by omega) (by omega)).1 (rf2 0 1 (by omega) (by omega)).2.1 (rf2 0 1 (by omega) (by omega)).2.2 ⟨0 + q.val, by omega⟩,
      D2_eq_conv2 _ x4 (Xof x0 bb) (fun k q => a (ix2 k q)) (fun q => x3 (ix2 0 q)) bb hA1 (row2 dp hp 0 1 (by omega) (by omega) bb) ⟨2 * dp.val, by omega⟩ ⟨2 * hp.val + 1, by omega⟩ (rf2 0 1 (by omega) (by omega)).1 (rf2 0 1 (by omega) (by omega)).2.1 (rf2 0 1 (by omega) (by omega)).2.2 ⟨128 + q.val, by omega⟩,
      D2_eq_conv2 _ x4 (Xof x0 bb) (fun k q => a (ix2 k q)) (fun q => x3 (ix2 0 q)) bb hA1 (row2 dp hp 1 0 (by omega) (by omega) bb) ⟨2 * dp.val + 1, by omega⟩ ⟨2 * hp.val, by omega⟩ (rf2 1 0 (by omega) (by omega)).1 (rf2 1 0 (by omega) (by omega)).2.1 (rf2 1 0 (by omega) (by omega)).2.2 ⟨0 + q.val, by omega⟩,
      D2_eq_conv2 _ x4 (Xof x0 bb) (fun k q => a (ix2 k q)) (fun q => x3 (ix2 0 q)) bb hA1 (row2 dp hp 1 0 (by omega) (by omega) bb) ⟨2 * dp.val + 1, by omega⟩ ⟨2 * hp.val, by omega⟩ (rf2 1 0 (by omega) (by omega)).1 (rf2 1 0 (by omega) (by omega)).2.1 (rf2 1 0 (by omega) (by omega)).2.2 ⟨128 + q.val, by omega⟩,
      D2_eq_conv2 _ x4 (Xof x0 bb) (fun k q => a (ix2 k q)) (fun q => x3 (ix2 0 q)) bb hA1 (row2 dp hp 1 1 (by omega) (by omega) bb) ⟨2 * dp.val + 1, by omega⟩ ⟨2 * hp.val + 1, by omega⟩ (rf2 1 1 (by omega) (by omega)).1 (rf2 1 1 (by omega) (by omega)).2.1 (rf2 1 1 (by omega) (by omega)).2.2 ⟨0 + q.val, by omega⟩,
      D2_eq_conv2 _ x4 (Xof x0 bb) (fun k q => a (ix2 k q)) (fun q => x3 (ix2 0 q)) bb hA1 (row2 dp hp 1 1 (by omega) (by omega) bb) ⟨2 * dp.val + 1, by omega⟩ ⟨2 * hp.val + 1, by omega⟩ (rf2 1 1 (by omega) (by omega)).1 (rf2 1 1 (by omega) (by omega)).2.1 (rf2 1 1 (by omega) (by omega)).2.2 ⟨128 + q.val, by omega⟩]
    rw [e0, e1]
    unfold pool2 dpool2 wpool2
    exact congrArg (fun t => lrelu (t + x5 (ix2 0 q))) (max8_regroup2 _ _ _ _ _ _ _ _)
  -- the dense tail
  unfold out0_12
  rw [View.canon_unit_zero (S := S64x128) hz2]
  simp only [View.ld_unit_zero (S := S14x14x64x42) hz4, View.ld_unit_zero (S := S384x256) hz2,
    View.ld_unit_zero (S := S1x256) hz2, View.ld_unit_zero (S := S2304x256) hz2, View.ld_unit_zero (S := S1x128) hz2,
    View.ld_unit_zero (S := S512x128) hz2, View.ld_unit_zero (S := S128x128) hz2]
  rw [pay1_eq, outT_apply]
  unfold logits
  refine congrArg (· + x11 (ix2 0 n)) (Finset.sum_congr rfl fun k _ => congrArg (· * x10 (ix2 k n)) ?_)
  rw [hidT_apply]
  unfold Cert.Net.hidden
  refine congrArg (fun t => lrelu t * x8 (ix2 0 k) + x9 (ix2 0 k)) ?_
  unfold fc1
  refine dense_split _ (fun r => fcPart (Xof x0 bb) (fun k q => a (ix2 k q)) (fun q => x3 (ix2 0 q)) (fun k q => x4 (ix2 k q))
    (fun q => x5 (ix2 0 q)) (fun r k q => f (ix3 r k q)) r k) _ (fun r => ?_)
  unfold fcPart
  refine Finset.sum_congr rfl fun l _ => ?_
  have hr := r.isLt
  have hl := l.isLt
  rw [fzT_apply _ _ _ (pay5_apply _ _ _ _) (pay6_apply _ _ _ _), hx6, hP]
  unfold act2
  refine congrArg₂ (· * ·) ?_ (congrArg f (ix3_ext ?_ ?_ rfl))
  · have ed : (⟨(r.val * 128 + l.val) / 256, by omega⟩ : Fin 2) = ⟨r.val / 2, by omega⟩ := Fin.ext (by show (r.val * 128 + l.val) / 256 = r.val / 2; omega)
    have eh : (⟨(r.val * 128 + l.val) / 128 % 2, by omega⟩ : Fin 2) = ⟨r.val % 2, by omega⟩ := Fin.ext (by show (r.val * 128 + l.val) / 128 % 2 = r.val % 2; omega)
    have el : (⟨(r.val * 128 + l.val) % 128, by omega⟩ : Fin 128) = l := Fin.ext (by show (r.val * 128 + l.val) % 128 = l.val; omega)
    rw [ed, eh, el]
  · show (r.val * 128 + l.val) / 128 = r.val
    omega
  · show (r.val * 128 + l.val) % 128 = l.val
    omega

end Cert.KerBody

end
-- ==== Proof.RefBodyLib.lean ====
/-
  Reading two-dimensional vector operations at an index: a block cut out at literal offsets, pieces of one
  shape laid side by side or stacked, one-row pieces stacked, a row repeated down the rows, a reshape that
  drops or adds leading axes of extent one, and the leaky rectifier written as compare-and-select.
-/
import proofs.«162147_g2000504528272344_pallasbulk_1029_23_alg».proof.Proof.Spec
import Idealize.ShloMosaic.Lib.Pipeline.Value
import Idealize.ShloMosaic.Lib.ValueIdx

noncomputable section

namespace Cert.RefBody

open Idealize.ShloMosaic Idealize.ShloMosaic.ValueIdx

variable {α : Type}

/-! ## A block at literal offsets -/

theorem slice_lt0 {M N M' N' o0 o1 : Nat} (h : (⟨2, ![M, N]⟩ : Shape).Slices ![o0, o1] ⟨2, ![M', N']⟩) (p : Fin M') :
    o0 + p.val < M := by
  have h0 := h.2 0; have := p.isLt
  change o0 + M' ≤ M at h0
  omega

theorem slice_lt1 {M N M' N' o0 o1 : Nat} (h : (⟨2, ![M, N]⟩ : Shape).Slices ![o0, o1] ⟨2, ![M', N']⟩) (q : Fin N') :
    o1 + q.val < N := by
  have h1 := h.2 1; have := q.isLt
  change o1 + N' ≤ N at h1
  omega

/-- The block of extents M' × N' at offsets (o0, o1), at (p, q): the source at (o0 + p, o1 + q). -/
theorem slice2_apply {M N M' N' : Nat} (o0 o1 : Nat) (x : (⟨2, ![M, N]⟩ : Shape).Idx → α)
    (h : (⟨2, ![M, N]⟩ : Shape).Slices ![o0, o1] ⟨2, ![M', N']⟩) (p : Fin M') (q : Fin N') :
    extractStridedSlice ⟨2, ![M', N']⟩ ![o0, o1] x h (ix2 p q)
      = x (ix2 ⟨o0 + p.val, slice_lt0 h p⟩ ⟨o1 + q.val, slice_lt1 h q⟩) :=
  extractStridedSlice_apply _ x h _ _ (by intro a; fin_cases a <;> rfl)

/-! ## Index tuples equal coordinate by coordinate -/

theorem ix2_congr {n0 n1 : Nat} {a a' : Fin n0} {b b' : Fin n1} (h0 : a.val = a'.val) (h1 : b.val = b'.val) :
    ix2 a b = ix2 a' b' := by
  obtain rfl := Fin.ext h0; obtain rfl := Fin.ext h1; rfl

theorem ix3_congr {n0 n1 n2 : Nat} {a a' : Fin n0} {b b' : Fin n1} {c c' : Fin n2} (h0 : a.val = a'.val)
    (h1 : b.val = b'.val) (h2 : c.val = c'.val) : ix3 a b c = ix3 a' b' c' := by
  obtain rfl := Fin.ext h0; obtain rfl := Fin.ext h1; obtain rfl := Fin.ext h2; rfl

theorem ix4_congr {n0 n1 n2 n3 : Nat} {a a' : Fin n0} {b b' : Fin n1} {c c' : Fin n2} {d d' : Fin n3}
    (h0 : a.val = a'.val) (h1 : b.val = b'.val) (h2 : c.val = c'.val) (h3 : d.val = d'.val) :
    ix4 a b c d = ix4 a' b' c' d' := by
  obtain rfl := Fin.ext h0; obtain rfl := Fin.ext h1; obtain rfl := Fin.ext h2; obtain rfl := Fin.ext h3; rfl

/-! ## Coordinates of an index tuple -/

theorem ix2_0 {n0 n1 : Nat} (a : Fin n0) (b : Fin n1) : (ix2 a b) 0 = a := rfl
theorem ix2_1 {n0 n1 : Nat} (a : Fin n0) (b : Fin n1) : (ix2 a b) 1 = b := rfl

/-- A block of whole rows: the source at row o0 + p, same column. -/
theorem sliceRows_apply {M N M' : Nat} (o0 : Nat) (x : (⟨2, ![M, N]⟩ : Shape).Idx → α)
    (h : (⟨2, ![M, N]⟩ : Shape).Slices ![o0, 0] ⟨2, ![M', N]⟩) (p : Fin M') (q : Fin N) :
    extractStridedSlice ⟨2, ![M', N]⟩ ![o0, 0] x h (ix2 p q) = x (ix2 ⟨o0 + p.val, slice_lt0 h p⟩ q) :=
  (slice2_apply o0 0 x h p q).trans (congrArg x (ix2_congr rfl (Nat.zero_add _)))

/-! ## Pieces of one shape side by side, or stacked -/

/-- N pieces of extents R × K side by side: column j is piece j / K at column j % K. -/
theorem cat1_apply {R K T N : Nat} (f : Fin N → ((⟨2, ![R, K]⟩ : Shape).Idx → α))
    (h : Shape.Concatenates ((List.ofFn fun n : Fin N => (⟨⟨2, ![R, K]⟩, f n⟩ : (s : Shape) × (s.Idx → α))).map (·.1))
      ⟨2, ![R, T]⟩ 1)
    (p : Fin R) (j : Fin T) (n : Fin N) (hn : j.val / K = n.val) (hK : j.val % K < K) :
    concatenate ⟨2, ![R, T]⟩ 1 (List.ofFn fun n : Fin N => (⟨⟨2, ![R, K]⟩, f n⟩ : (s : Shape) × (s.Idx → α))) h (ix2 p j)
      = f n (ix2 p ⟨j.val % K, hK⟩) :=
  concatenate_ofFn_apply 1 f h rfl K rfl (ix2 p j) n hn _ rfl
    (by intro b hb; fin_cases b
        · rfl
        · exact absurd rfl hb)

/-- N pieces of extents K × C stacked: row r is piece r / K at row r % K. -/
theorem cat0_apply {K C T N : Nat} (f : Fin N → ((⟨2, ![K, C]⟩ : Shape).Idx → α))
    (h : Shape.Concatenates ((List.ofFn fun n : Fin N => (⟨⟨2, ![K, C]⟩, f n⟩ : (s : Shape) × (s.Idx → α))).map (·.1))
      ⟨2, ![T, C]⟩ 0)
    (r : Fin T) (c : Fin C) (n : Fin N) (hn : r.val / K = n.val) (hK : r.val % K < K) :
    concatenate ⟨2, ![T, C]⟩ 0 (List.ofFn fun n : Fin N => (⟨⟨2, ![K, C]⟩, f n⟩ : (s : Shape) × (s.Idx → α))) h (ix2 r c)
      = f n (ix2 ⟨r.val % K, hK⟩ c) :=
  concatenate_ofFn_apply 0 f h rfl K rfl (ix2 r c) n hn _ rfl
    (by intro b hb; fin_cases b
        · exact absurd rfl hb
        · rfl)

/-- N one-row pieces stacked: row r is piece r. -/
theorem rows_apply {C T N : Nat} (f : Fin N → ((⟨2, ![1, C]⟩ : Shape).Idx → α))
    (h : Shape.Concatenates ((List.ofFn fun n : Fin N => (⟨⟨2, ![1, C]⟩, f n⟩ : (s : Shape) × (s.Idx → α))).map (·.1))
      ⟨2, ![T, C]⟩ 0)
    (r : Fin T) (c : Fin C) (n : Fin N) (hn : r.val = n.val) :
    concatenate ⟨2, ![T, C]⟩ 0 (List.ofFn fun n : Fin N => (⟨⟨2, ![1, C]⟩, f n⟩ : (s : Shape) × (s.Idx → α))) h (ix2 r c)
      = f n (ix2 0 c) :=
  concatenate_ofFn_unit_apply 0 f h rfl rfl (ix2 r c) n hn _
    (by intro b hb; fin_cases b
        · exact absurd rfl hb
        · rfl)

/-! ## A row repeated down the rows -/

theorem bcastRow_apply {R C : Nat} (x : (⟨2, ![1, C]⟩ : Shape).Idx → α) (h : (⟨2, ![1, C]⟩ : Shape).Broadcasts ⟨2, ![R, C]⟩)
    (p : Fin R) (q : Fin C) : broadcastTo ⟨2, ![R, C]⟩ x h (ix2 p q) = x (ix2 0 q) :=
  broadcastTo_apply x h _ _ (by
    intro a; fin_cases a
    · show (0 : Nat) = if (1 : Nat) = 1 then 0 else _
      rw [if_pos rfl]
    · show q.val = if C = 1 then 0 else q.val
      by_cases hC : C = 1
      · rw [if_pos hC]; have := q.isLt; omega
      · rw [if_neg hC])

/-! ## Reshapes that drop or add leading axes of extent one -/

theorem cast_drop2_apply {A B : Nat} (v : (⟨4, ![1, 1, A, B]⟩ : Shape).Idx → α)
    (h : (⟨4, ![1, 1, A, B]⟩ : Shape).ShapeCasts ⟨2, ![A, B]⟩) (p : Fin A) (q : Fin B) :
    shapeCast ⟨2, ![A, B]⟩ v h (ix2 p q) = v (ix4 0 0 p q) :=
  shapeCast_apply v h _ _ (by
    rw [Shape.rowMajor_val_four, Shape.rowMajor_val_two]
    show ((0 * 1 + 0) * A + p.val) * B + q.val = p.val * B + q.val
    simp)

theorem cast_drop1_apply {A B : Nat} (v : (⟨3, ![1, A, B]⟩ : Shape).Idx → α)
    (h : (⟨3, ![1, A, B]⟩ : Shape).ShapeCasts ⟨2, ![A, B]⟩) (p : Fin A) (q : Fin B) :
    shapeCast ⟨2, ![A, B]⟩ v h (ix2 p q) = v (ix3 0 p q) :=
  shapeCast_apply v h _ _ (by
    rw [Shape.rowMajor_val_three, Shape.rowMajor_val_two]
    show (0 * A + p.val) * B + q.val = p.val * B + q.val
    simp)

theorem cast_add1_apply {B : Nat} (v : (⟨2, ![1, B]⟩ : Shape).Idx → α)
    (h : (⟨2, ![1, B]⟩ : Shape).ShapeCasts ⟨3, ![1, 1, B]⟩) (n : Fin B) :
    shapeCast ⟨3, ![1, 1, B]⟩ v h (ix3 0 0 n) = v (ix2 0 n) :=
  shapeCast_apply v h _ _ (by
    rw [Shape.rowMajor_val_three, Shape.rowMajor_val_two]
    show 0 * B + n.val = (0 * 1 + 0) * B + n.val
    simp)

/-! ## The leaky rectifier as compare-and-select -/

theorem lrelu_apply {s : Shape} (v : FVec Ideal s .f32) (i : s.Idx) :
    select (cmpf .oge v (broadcast s (Scalar.ofBits (F := Ideal) .f32 0x00000000#32))) v
        (mulf (broadcast s (Scalar.ofBits (F := Ideal) .f32 0x3C23D70A#32)) v) i
      = Cert.Net.lrelu (v i) := by
  show Scalar.select (FloatOps.cmpf .oge (v i) (Ideal.ofBits .f32 0x00000000#32)) (v i)
      (Ideal.ofBits .f32 0x3C23D70A#32 * v i) = _
  rw [Ideal.cmpf_def, Ideal.ofBits_zero_f32]
  exact Cert.Net.select_lrelu (v i)

end Cert.RefBody

end
-- ==== Proof.RefBodyPlanes.lean ====
/-
  The first convolution's windows. The image block is read through 42 windows of twelve heights, one per depth
  d and height offset kh; three of them side by side make the plane of depth d, whose entry (p, j) is the image at
  depth d, height p + j / 42, lane j % 42.
-/
import proofs.«162147_g2000504528272344_pallasbulk_1029_23_alg».proof.Proof.Gen.ReferenceIdeal.Frame
import proofs.«162147_g2000504528272344_pallasbulk_1029_23_alg».proof.Proof.Spec
import proofs.«162147_g2000504528272344_pallasbulk_1029_23_alg».proof.Proof.LibPlainDot
import proofs.«162147_g2000504528272344_pallasbulk_1029_23_alg».proof.Proof.RefBodyLib
import Idealize.ShloMosaic.Lib.Pipeline.Value
import Idealize.ShloMosaic.Lib.ValueIdx

noncomputable section

namespace Cert.RefBody

open Idealize.ShloMosaic Idealize.ShloMosaic.ValueIdx Cert.ReferenceIdeal Cert.ReferenceIdeal.Gen

/-- The image as a function of depth, height and lane. -/
abbrev img (x0 : Vec Ideal S1x14x14x42 .f32) : Fin 14 → Fin 14 → Fin 42 → EReal := fun d h l => x0 (ix4 0 d h l)

/-- A matrix as a function of row and column. -/
abbrev mat {M N : Nat} (x : (⟨2, ![M, N]⟩ : Shape).Idx → EReal) : Fin M → Fin N → EReal := fun k q => x (ix2 k q)

/-- A window of twelve heights of one depth, read at (p, q): the image at (d, kh + p, q). -/
theorem slab_apply (x0 : Vec Ideal S1x14x14x42 .f32) (d kh : Nat)
    (inb : ∀ a, (![0, d, kh, 0] : Fin 4 → Nat) a + S1x1x12x42.size a ≤ S1x14x14x42.size a)
    (h : S1x1x12x42.ShapeCasts S12x42) (p : Fin 12) (q : Fin 42) (hd : d < 14) (hk : kh + p.val < 14) :
    shapeCast S12x42 (View.ld x0 (Rect.unit (s := S1x14x14x42) ![0, d, kh, 0] S1x1x12x42.size inb)) h (ix2 p q)
      = x0 (ix4 0 ⟨d, hd⟩ ⟨kh + p.val, hk⟩ q) := by
  refine (cast_drop2_apply _ h p q).trans ?_
  show x0 _ = x0 _
  refine congrArg x0 (funext fun a => Fin.ext ?_)
  fin_cases a
  · rfl
  · rfl
  · show kh + 1 * p.val = kh + p.val
    rw [Nat.one_mul]
  · show 0 + 1 * q.val = q.val
    rw [Nat.one_mul, Nat.zero_add]

/-- Plane d of the first convolution's windows: entry (p, j) is the image at depth d, height p + j / 42, lane j % 42. -/
def plane (x0 : Vec Ideal S1x14x14x42 .f32) (d : Fin 14) : FVec Ideal S12x126 .f32 := fun i =>
  x0 (ix4 0 d ⟨(i 0).val + (i 1).val / 42, by have h0 : (i 0).val < 12 := (i 0).isLt; have h1 : (i 1).val < 126 := (i 1).isLt; omega⟩
    ⟨(i 1).val % 42, Nat.mod_lt _ (by norm_num)⟩)

theorem plane_eq (x0 : Vec Ideal S1x14x14x42 .f32) (d : Nat) (hd : d < 14)
    (inb0 : ∀ a, (![0, d, 0, 0] : Fin 4 → Nat) a + S1x1x12x42.size a ≤ S1x14x14x42.size a)
    (inb1 : ∀ a, (![0, d, 1, 0] : Fin 4 → Nat) a + S1x1x12x42.size a ≤ S1x14x14x42.size a)
    (inb2 : ∀ a, (![0, d, 2, 0] : Fin 4 → Nat) a + S1x1x12x42.size a ≤ S1x14x14x42.size a)
    (h0 h1 h2 : S1x1x12x42.ShapeCasts S12x42) (hc : Shape.Concatenates [S12x42, S12x42, S12x42] S12x126 1) :
    concatenate S12x126 1
        [⟨S12x42, shapeCast S12x42 (View.ld x0 (Rect.unit (s := S1x14x14x42) ![0, d, 0, 0] S1x1x12x42.size inb0)) h0⟩,
         ⟨S12x42, shapeCast S12x42 (View.ld x0 (Rect.unit (s := S1x14x14x42) ![0, d, 1, 0] S1x1x12x42.size inb1)) h1⟩,
         ⟨S12x42, shapeCast S12x42 (View.ld x0 (Rect.unit (s := S1x14x14x42) ![0, d, 2, 0] S1x1x12x42.size inb2)) h2⟩] hc
      = plane x0 ⟨d, hd⟩ := by
  funext i
  obtain ⟨p, j, rfl⟩ : ∃ p j, i = ix2 p j := ⟨i 0, i 1, eq_ix2 i⟩
  have hj : j.val < 126 := j.isLt
  have hj3 : j.val / 42 < 3 := by omega
  refine (cat1_apply ![_, _, _] hc p j ⟨j.val / 42, hj3⟩ rfl (Nat.mod_lt _ (by norm_num))).trans ?_
  have hp : p.val < 12 := p.isLt
  have hcase : j.val / 42 = 0 ∨ j.val / 42 = 1 ∨ j.val / 42 = 2 := by omega
  rcases hcase with e | e | e
  · have e' : (⟨j.val / 42, hj3⟩ : Fin 3) = 0 := Fin.ext e
    rw [e']
    refine (slab_apply x0 d 0 inb0 h0 p _ hd (by omega)).trans ?_
    exact congrArg x0 (ix4_congr rfl rfl (by show 0 + p.val = p.val + j.val / 42; omega) rfl)
  · have e' : (⟨j.val / 42, hj3⟩ : Fin 3) = 1 := Fin.ext e
    rw [e']
    refine (slab_apply x0 d 1 inb1 h1 p _ hd (by omega)).trans ?_
    exact congrArg x0 (ix4_congr rfl rfl (by show 1 + p.val = p.val + j.val / 42; omega) rfl)
  · have e' : (⟨j.val / 42, hj3⟩ : Fin 3) = 2 := Fin.ext e
    rw [e']
    refine (slab_apply x0 d 2 inb2 h2 p _ hd (by omega)).trans ?_
    exact congrArg x0 (ix4_congr rfl rfl (by show 2 + p.val = p.val + j.val / 42; omega) rfl)

theorem pay2_eq (x0 : Vec Ideal S1x14x14x42 .f32) :
    k0_pay2 (View.ld x0 r0_0) (View.ld x0 r0_1) (View.ld x0 r0_2) = plane x0 0 :=
  plane_eq x0 0 (by decide) inb_S1x14x14x42_S1x1x12x42_0_0_0_0 inb_S1x14x14x42_S1x1x12x42_0_0_1_0 inb_S1x14x14x42_S1x1x12x42_0_0_2_0
    shapeCasts_S1x1x12x42_S12x42 shapeCasts_S1x1x12x42_S12x42 shapeCasts_S1x1x12x42_S12x42 concatenates_S12x42_S12x42_S12x42_S12x126_d1

theorem pay3_eq (x0 : Vec Ideal S1x14x14x42 .f32) :
    k0_pay3 (View.ld x0 r0_3) (View.ld x0 r0_4) (View.ld x0 r0_5) = plane x0 1 :=
  plane_eq x0 1 (by decide) inb_S1x14x14x42_S1x1x12x42_0_1_0_0 inb_S1x14x14x42_S1x1x12x42_0_1_1_0 inb_S1x14x14x42_S1x1x12x42_0_1_2_0
    shapeCasts_S1x1x12x42_S12x42 shapeCasts_S1x1x12x42_S12x42 shapeCasts_S1x1x12x42_S12x42 concatenates_S12x42_S12x42_S12x42_S12x126_d1

theorem pay4_eq (x0 : Vec Ideal S1x14x14x42 .f32) :
    k0_pay4 (View.ld x0 r0_6) (View.ld x0 r0_7) (View.ld x0 r0_8) = plane x0 2 :=
  plane_eq x0 2 (by decide) inb_S1x14x14x42_S1x1x12x42_0_2_0_0 inb_S1x14x14x42_S1x1x12x42_0_2_1_0 inb_S1x14x14x42_S1x1x12x42_0_2_2_0
    shapeCasts_S1x1x12x42_S12x42 shapeCasts_S1x1x12x42_S12x42 shapeCasts_S1x1x12x42_S12x42 concatenates_S12x42_S12x42_S12x42_S12x126_d1

theorem pay5_eq (x0 : Vec Ideal S1x14x14x42 .f32) :
    k0_pay5 (View.ld x0 r0_9) (View.ld x0 r0_10) (View.ld x0 r0_11) = plane x0 3 :=
  plane_eq x0 3 (by decide) inb_S1x14x14x42_S1x1x12x42_0_3_0_0 inb_S1x14x14x42_S1x1x12x42_0_3_1_0 inb_S1x14x14x42_S1x1x12x42_0_3_2_0
    shapeCasts_S1x1x12x42_S12x42 shapeCasts_S1x1x12x42_S12x42 shapeCasts_S1x1x12x42_S12x42 concatenates_S12x42_S12x42_S12x42_S12x126_d1

theorem pay6_eq (x0 : Vec Ideal S1x14x14x42 .f32) :
    k0_pay6 (View.ld x0 r0_12) (View.ld x0 r0_13) (View.ld x0 r0_14) = plane x0 4 :=
  plane_eq x0 4 (by decide) inb_S1x14x14x42_S1x1x12x42_0_4_0_0 inb_S1x14x14x42_S1x1x12x42_0_4_1_0 inb_S1x14x14x42_S1x1x12x42_0_4_2_0
    shapeCasts_S1x1x12x42_S12x42 shapeCasts_S1x1x12x42_S12x42 shapeCasts_S1x1x12x42_S12x42 concatenates_S12x42_S12x42_S12x42_S12x126_d1

theorem pay7_eq (x0 : Vec Ideal S1x14x14x42 .f32) :
    k0_pay7 (View.ld x0 r0_15) (View.ld x0 r0_16) (View.ld x0 r0_17) = plane x0 5 :=
  plane_eq x0 5 (by decide) inb_S1x14x14x42_S1x1x12x42_0_5_0_0 inb_S1x14x14x42_S1x1x12x42_0_5_1_0 inb_S1x14x14x42_S1x1x12x42_0_5_2_0
    shapeCasts_S1x1x12x42_S12x42 shapeCasts_S1x1x12x42_S12x42 shapeCasts_S1x1x12x42_S12x42 concatenates_S12x42_S12x42_S12x42_S12x126_d1

theorem pay8_eq (x0 : Vec Ideal S1x14x14x42 .f32) :
    k0_pay8 (View.ld x0 r0_18) (View.ld x0 r0_19) (View.ld x0 r0_20) = plane x0 6 :=
  plane_eq x0 6 (by decide) inb_S1x14x14x42_S1x1x12x42_0_6_0_0 inb_S1x14x14x42_S1x1x12x42_0_6_1_0 inb_S1x14x14x42_S1x1x12x42_0_6_2_0
    shapeCasts_S1x1x12x42_S12x42 shapeCasts_S1x1x12x42_S12x42 shapeCasts_S1x1x12x42_S12x42 concatenates_S12x42_S12x42_S12x42_S12x126_d1

theorem pay9_eq (x0 : Vec Ideal S1x14x14x42 .f32) :
    k0_pay9 (View.ld x0 r0_21) (View.ld x0 r0_22) (View.ld x0 r0_23) = plane x0 7 :=
  plane_eq x0 7 (by decide) inb_S1x14x14x42_S1x1x12x42_0_7_0_0 inb_S1x14x14x42_S1x1x12x42_0_7_1_0 inb_S1x14x14x42_S1x1x12x42_0_7_2_0
    shapeCasts_S1x1x12x42_S12x42 shapeCasts_S1x1x12x42_S12x42 shapeCasts_S1x1x12x42_S12x42 concatenates_S12x42_S12x42_S12x42_S12x126_d1

theorem pay10_eq (x0 : Vec Ideal S1x14x14x42 .f32) :
    k0_pay10 (View.ld x0 r0_24) (View.ld x0 r0_25) (View.ld x0 r0_26) = plane x0 8 :=
  plane_eq x0 8 (by decide) inb_S1x14x14x42_S1x1x12x42_0_8_0_0 inb_S1x14x14x42_S1x1x12x42_0_8_1_0 inb_S1x14x14x42_S1x1x12x42_0_8_2_0
    shapeCasts_S1x1x12x42_S12x42 shapeCasts_S1x1x12x42_S12x42 shapeCasts_S1x1x12x42_S12x42 concatenates_S12x42_S12x42_S12x42_S12x126_d1

theorem pay12_eq (x0 : Vec Ideal S1x14x14x42 .f32) :
    k0_pay12 (k0_pay11 (View.ld x0 r0_27)) (View.ld x0 r0_28) (View.ld x0 r0_29) = plane x0 9 :=
  plane_eq x0 9 (by decide) inb_S1x14x14x42_S1x1x12x42_0_9_0_0 inb_S1x14x14x42_S1x1x12x42_0_9_1_0 inb_S1x14x14x42_S1x1x12x42_0_9_2_0
    shapeCasts_S1x1x12x42_S12x42 shapeCasts_S1x1x12x42_S12x42 shapeCasts_S1x1x12x42_S12x42 concatenates_S12x42_S12x42_S12x42_S12x126_d1

theorem pay13_eq (x0 : Vec Ideal S1x14x14x42 .f32) :
    k0_pay13 (View.ld x0 r0_30) (View.ld x0 r0_31) (View.ld x0 r0_32) = plane x0 10 :=
  plane_eq x0 10 (by decide) inb_S1x14x14x42_S1x1x12x42_0_10_0_0 inb_S1x14x14x42_S1x1x12x42_0_10_1_0 inb_S1x14x14x42_S1x1x12x42_0_10_2_0
    shapeCasts_S1x1x12x42_S12x42 shapeCasts_S1x1x12x42_S12x42 shapeCasts_S1x1x12x42_S12x42 concatenates_S12x42_S12x42_S12x42_S12x126_d1

theorem pay14_eq (x0 : Vec Ideal S1x14x14x42 .f32) :
    k0_pay14 (View.ld x0 r0_33) (View.ld x0 r0_34) (View.ld x0 r0_35) = plane x0 11 :=
  plane_eq x0 11 (by decide) inb_S1x14x14x42_S1x1x12x42_0_11_0_0 inb_S1x14x14x42_S1x1x12x42_0_11_1_0 inb_S1x14x14x42_S1x1x12x42_0_11_2_0
    shapeCasts_S1x1x12x42_S12x42 shapeCasts_S1x1x12x42_S12x42 shapeCasts_S1x1x12x42_S12x42 concatenates_S12x42_S12x42_S12x42_S12x126_d1

end Cert.RefBody

end
-- ==== Proof.RefBodyConv1.lean ====
/-
  The first convolution and its width pool. Three planes side by side are the twelve output heights of one output
  depth; twelve of those stacked are the window matrix, 144 rows r = 12·od + oh by 378 columns; its product with
  the folded weights, and the maximum of the product's two column halves, are the width-pooled convolution.
-/
import proofs.«162147_g2000504528272344_pallasbulk_1029_23_alg».proof.Proof.Gen.ReferenceIdeal.Frame
import proofs.«162147_g2000504528272344_pallasbulk_1029_23_alg».proof.Proof.Spec
import proofs.«162147_g2000504528272344_pallasbulk_1029_23_alg».proof.Proof.LibPlainDot
import proofs.«162147_g2000504528272344_pallasbulk_1029_23_alg».proof.Proof.RefBodyLib
import proofs.«162147_g2000504528272344_pallasbulk_1029_23_alg».proof.Proof.RefBodyPlanes
import Idealize.ShloMosaic.Lib.Pipeline.Value
import Idealize.ShloMosaic.Lib.ValueIdx

noncomputable section

namespace Cert.RefBody

open Idealize.ShloMosaic Idealize.ShloMosaic.ValueIdx Cert.ReferenceIdeal Cert.ReferenceIdeal.Gen

/-- Three consecutive planes side by side, at (p, k): the window matrix at output depth od, height p, column k. -/
theorem block_apply (x0 : Vec Ideal S1x14x14x42 .f32) (od : Nat) (h0 : od < 12)
    (hc : Shape.Concatenates [S12x126, S12x126, S12x126] S12x378 1) (p : Fin 12) (k : Fin 378) :
    concatenate S12x378 1
        [⟨S12x126, plane x0 ⟨od, by omega⟩⟩, ⟨S12x126, plane x0 ⟨od + 1, by omega⟩⟩, ⟨S12x126, plane x0 ⟨od + 2, by omega⟩⟩]
        hc (ix2 p k)
      = Cert.Net.A1 (img x0) ⟨od, h0⟩ p k := by
  have hk : k.val < 378 := k.isLt
  have hp : p.val < 12 := p.isLt
  have hk3 : k.val / 126 < 3 := by omega
  refine (cat1_apply ![_, _, _] hc p k ⟨k.val / 126, hk3⟩ rfl (Nat.mod_lt _ (by norm_num))).trans ?_
  have hcase : k.val / 126 = 0 ∨ k.val / 126 = 1 ∨ k.val / 126 = 2 := by omega
  unfold Cert.Net.A1
  rcases hcase with e | e | e
  · have e' : (⟨k.val / 126, hk3⟩ : Fin 3) = 0 := Fin.ext e
    rw [e']
    show x0 _ = x0 _
    exact congrArg x0 (ix4_congr rfl (by first | omega | (simp only [ix2_0, ix2_1] <;> omega)) (by first | omega | (simp only [ix2_0, ix2_1] <;> omega)) (by first | omega | (simp only [ix2_0, ix2_1] <;> omega)))
  · have e' : (⟨k.val / 126, hk3⟩ : Fin 3) = 1 := Fin.ext e
    rw [e']
    show x0 _ = x0 _
    exact congrArg x0 (ix4_congr rfl (by first | omega | (simp only [ix2_0, ix2_1] <;> omega)) (by first | omega | (simp only [ix2_0, ix2_1] <;> omega)) (by first | omega | (simp only [ix2_0, ix2_1] <;> omega)))
  · have e' : (⟨k.val / 126, hk3⟩ : Fin 3) = 2 := Fin.ext e
    rw [e']
    show x0 _ = x0 _
    exact congrArg x0 (ix4_congr rfl (by first | omega | (simp only [ix2_0, ix2_1] <;> omega)) (by first | omega | (simp only [ix2_0, ix2_1] <;> omega)) (by first | omega | (simp only [ix2_0, ix2_1] <;> omega)))

/-- Twelve blocks of twelve rows stacked: row r is block r / 12 at row r % 12. -/
theorem stack12_apply (B0 B1 B2 B3 B4 B5 B6 B7 B8 B9 B10 B11 : FVec Ideal S12x378 .f32)
    (hc : Shape.Concatenates [S12x378, S12x378, S12x378, S12x378, S12x378, S12x378, S12x378, S12x378, S12x378, S12x378, S12x378, S12x378] S144x378 0)
    (r : Fin 144) (k : Fin 378) (od : Fin 12) (hod : r.val / 12 = od.val) :
    concatenate S144x378 0
        [⟨S12x378, B0⟩, ⟨S12x378, B1⟩, ⟨S12x378, B2⟩, ⟨S12x378, B3⟩, ⟨S12x378, B4⟩, ⟨S12x378, B5⟩, ⟨S12x378, B6⟩,
         ⟨S12x378, B7⟩, ⟨S12x378, B8⟩, ⟨S12x378, B9⟩, ⟨S12x378, B10⟩, ⟨S12x378, B11⟩] hc (ix2 r k)
      = ![B0, B1, B2, B3, B4, B5, B6, B7, B8, B9, B10, B11] od (ix2 ⟨r.val % 12, Nat.mod_lt _ (by norm_num)⟩ k) :=
  cat0_apply ![B0, B1, B2, B3, B4, B5, B6, B7, B8, B9, B10, B11] hc r k od hod _

/-- The product with the folded weights and the maximum of its column halves, at row r and column n. -/
theorem conv_wpool_apply (L : FVec Ideal S144x378 .f32) (x1 : Vec Ideal S378x512 .bf16) (r : Fin 144) (n : Fin 256) :
    maximumf
        (extractStridedSlice S144x256 ![0, 0]
          (matmul (φ₂ := .bf16) dot_S144x378_S378x512_S144x512_1_0_0_1_n_n none (truncf .bf16 L bitsLt_bf16_f32) (View.ld x1 r0_43)
            (constant S144x512 .f32 0x00000000#32)) slices_S144x512_o0_0_S144x256)
        (extractStridedSlice S144x256 ![0, 256]
          (matmul (φ₂ := .bf16) dot_S144x378_S378x512_S144x512_1_0_0_1_n_n none (truncf .bf16 L bitsLt_bf16_f32) (View.ld x1 r0_43)
            (constant S144x512 .f32 0x00000000#32)) slices_S144x512_o0_256_S144x256) (ix2 r n)
      = max (∑ k : Fin 378, L (ix2 r k) * x1 (ix2 k ⟨n.val, by have := n.isLt; omega⟩))
          (∑ k : Fin 378, L (ix2 r k) * x1 (ix2 k ⟨n.val + 256, by have := n.isLt; omega⟩)) := by
  have hld : View.ld x1 r0_43 = x1 := View.ld_unit_zero (off := ![0, 0]) (by funext a; fin_cases a <;> rfl) _ x1
  rw [hld, maximumf_apply, slice2_apply, slice2_apply]
  have hd : dot_S144x378_S378x512_S144x512_1_0_0_1_n_n = DotDims.plain 144 378 512 := rfl
  rw [hd]
  unfold Idealize.ShloMosaic.matmul
  erw [LibPlainDot.matmul_zero_apply, LibPlainDot.matmul_zero_apply]
  refine congrArg₂ max (Finset.sum_congr rfl fun k _ => ?_) (Finset.sum_congr rfl fun k _ => ?_)
  · exact congrArg₂ (· * ·) (congrArg L (ix2_congr (Nat.zero_add _) rfl)) (congrArg x1 (ix2_congr rfl (Nat.zero_add _)))
  · exact congrArg₂ (· * ·) (congrArg L (ix2_congr (Nat.zero_add _) rfl)) (congrArg x1 (ix2_congr rfl (Nat.add_comm _ _)))

/-- The width-pooled first convolution, as a 144-row value: row 12·od + oh. -/
def wp1V (x0 : Vec Ideal S1x14x14x42 .f32) (x1 : Vec Ideal S378x512 .bf16) : FVec Ideal S144x256 .f32 := fun i =>
  Cert.Net.wpool1 (img x0) (mat x1) ⟨(i 0).val / 12, by have h : (i 0).val < 144 := (i 0).isLt; omega⟩
    ⟨(i 0).val % 12, Nat.mod_lt _ (by norm_num)⟩ ⟨(i 1).val, (i 1).isLt⟩

theorem pay16_eq (x0 : Vec Ideal S1x14x14x42 .f32) (x1 : Vec Ideal S378x512 .bf16) :
    k0_pay16 (plane x0 0) (plane x0 1) (plane x0 2) (plane x0 3) (plane x0 4) (plane x0 5) (plane x0 6) (plane x0 7)
        (plane x0 8) (plane x0 9) (plane x0 10) (plane x0 11) (k0_pay15 (View.ld x0 r0_36)) (View.ld x0 r0_37)
        (View.ld x0 r0_38) (View.ld x0 r0_39) (View.ld x0 r0_40) (View.ld x0 r0_41) (View.ld x1 r0_43)
      = wp1V x0 x1 := by
  have e12 : concatenate S12x126 1
        [⟨S12x42, k0_pay15 (View.ld x0 r0_36)⟩,
         ⟨S12x42, shapeCast S12x42 (View.ld x0 r0_37) shapeCasts_S1x1x12x42_S12x42⟩,
         ⟨S12x42, shapeCast S12x42 (View.ld x0 r0_38) shapeCasts_S1x1x12x42_S12x42⟩]
        concatenates_S12x42_S12x42_S12x42_S12x126_d1 = plane x0 12 :=
    plane_eq x0 12 (by decide) inb_S1x14x14x42_S1x1x12x42_0_12_0_0 inb_S1x14x14x42_S1x1x12x42_0_12_1_0
      inb_S1x14x14x42_S1x1x12x42_0_12_2_0 shapeCasts_S1x1x12x42_S12x42 shapeCasts_S1x1x12x42_S12x42
      shapeCasts_S1x1x12x42_S12x42 concatenates_S12x42_S12x42_S12x42_S12x126_d1
  have e13 : concatenate S12x126 1
        [⟨S12x42, shapeCast S12x42 (View.ld x0 r0_39) shapeCasts_S1x1x12x42_S12x42⟩,
         ⟨S12x42, shapeCast S12x42 (View.ld x0 r0_40) shapeCasts_S1x1x12x42_S12x42⟩,
         ⟨S12x42, shapeCast S12x42 (View.ld x0 r0_41) shapeCasts_S1x1x12x42_S12x42⟩]
        concatenates_S12x42_S12x42_S12x42_S12x126_d1 = plane x0 13 :=
    plane_eq x0 13 (by decide) inb_S1x14x14x42_S1x1x12x42_0_13_0_0 inb_S1x14x14x42_S1x1x12x42_0_13_1_0
      inb_S1x14x14x42_S1x1x12x42_0_13_2_0 shapeCasts_S1x1x12x42_S12x42 shapeCasts_S1x1x12x42_S12x42
      shapeCasts_S1x1x12x42_S12x42 concatenates_S12x42_S12x42_S12x42_S12x126_d1
  funext i
  obtain ⟨r, n, rfl⟩ : ∃ r n, i = ix2 r n := ⟨i 0, i 1, eq_ix2 i⟩
  unfold k0_pay16
  rw [e12, e13]
  refine (conv_wpool_apply _ x1 r n).trans ?_
  have hr : r.val < 144 := r.isLt
  have hL : ∀ k : Fin 378, concatenate S144x378 0
        [⟨S12x378, concatenate S12x378 1 [⟨S12x126, plane x0 0⟩, ⟨S12x126, plane x0 1⟩, ⟨S12x126, plane x0 2⟩] concatenates_S12x126_S12x126_S12x126_S12x378_d1⟩,
         ⟨S12x378, concatenate S12x378 1 [⟨S12x126, plane x0 1⟩, ⟨S12x126, plane x0 2⟩, ⟨S12x126, plane x0 3⟩] concatenates_S12x126_S12x126_S12x126_S12x378_d1⟩,
         ⟨S12x378, concatenate S12x378 1 [⟨S12x126, plane x0 2⟩, ⟨S12x126, plane x0 3⟩, ⟨S12x126, plane x0 4⟩] concatenates_S12x126_S12x126_S12x126_S12x378_d1⟩,
         ⟨S12x378, concatenate S12x378 1 [⟨S12x126, plane x0 3⟩, ⟨S12x126, plane x0 4⟩, ⟨S12x126, plane x0 5⟩] concatenates_S12x126_S12x126_S12x126_S12x378_d1⟩,
         ⟨S12x378, concatenate S12x378 1 [⟨S12x126, plane x0 4⟩, ⟨S12x126, plane x0 5⟩, ⟨S12x126, plane x0 6⟩] concatenates_S12x126_S12x126_S12x126_S12x378_d1⟩,
         ⟨S12x378, concatenate S12x378 1 [⟨S12x126, plane x0 5⟩, ⟨S12x126, plane x0 6⟩, ⟨S12x126, plane x0 7⟩] concatenates_S12x126_S12x126_S12x126_S12x378_d1⟩,
         ⟨S12x378, concatenate S12x378 1 [⟨S12x126, plane x0 6⟩, ⟨S12x126, plane x0 7⟩, ⟨S12x126, plane x0 8⟩] concatenates_S12x126_S12x126_S12x126_S12x378_d1⟩,
         ⟨S12x378, concatenate S12x378 1 [⟨S12x126, plane x0 7⟩, ⟨S12x126, plane x0 8⟩, ⟨S12x126, plane x0 9⟩] concatenates_S12x126_S12x126_S12x126_S12x378_d1⟩,
         ⟨S12x378, concatenate S12x378 1 [⟨S12x126, plane x0 8⟩, ⟨S12x126, plane x0 9⟩, ⟨S12x126, plane x0 10⟩] concatenates_S12x126_S12x126_S12x126_S12x378_d1⟩,
         ⟨S12x378, concatenate S12x378 1 [⟨S12x126, plane x0 9⟩, ⟨S12x126, plane x0 10⟩, ⟨S12x126, plane x0 11⟩] concatenates_S12x126_S12x126_S12x126_S12x378_d1⟩,
         ⟨S12x378, concatenate S12x378 1 [⟨S12x126, plane x0 10⟩, ⟨S12x126, plane x0 11⟩, ⟨S12x126, plane x0 12⟩] concatenates_S12x126_S12x126_S12x126_S12x378_d1⟩,
         ⟨S12x378, concatenate S12x378 1 [⟨S12x126, plane x0 11⟩, ⟨S12x126, plane x0 12⟩, ⟨S12x126, plane x0 13⟩] concatenates_S12x126_S12x126_S12x126_S12x378_d1⟩]
        concatenates_S12x378_S12x378_S12x378_S12x378_S12x378_S12x378_S12x378_S12x378_S12x378_S12x378_S12x378_S12x378_S144x378_d0
        (ix2 r k)
      = Cert.Net.A1 (img x0) ⟨r.val / 12, by omega⟩ ⟨r.val % 12, Nat.mod_lt _ (by norm_num)⟩ k := by
    intro k
    refine (stack12_apply _ _ _ _ _ _ _ _ _ _ _ _ _ r k ⟨r.val / 12, by omega⟩ rfl).trans ?_
    have hcase : r.val / 12 = 0 ∨ r.val / 12 = 1 ∨ r.val / 12 = 2 ∨ r.val / 12 = 3 ∨ r.val / 12 = 4 ∨ r.val / 12 = 5
        ∨ r.val / 12 = 6 ∨ r.val / 12 = 7 ∨ r.val / 12 = 8 ∨ r.val / 12 = 9 ∨ r.val / 12 = 10 ∨ r.val / 12 = 11 := by omega
    rcases hcase with e | e | e | e | e | e | e | e | e | e | e | e
    all_goals (
      have e' := e
      simp only [e]
      first
        | exact block_apply x0 0 (by decide) concatenates_S12x126_S12x126_S12x126_S12x378_d1 _ k
        | exact block_apply x0 1 (by decide) concatenates_S12x126_S12x126_S12x126_S12x378_d1 _ k
        | exact block_apply x0 2 (by decide) concatenates_S12x126_S12x126_S12x126_S12x378_d1 _ k
        | exact block_apply x0 3 (by decide) concatenates_S12x126_S12x126_S12x126_S12x378_d1 _ k
        | exact block_apply x0 4 (by decide) concatenates_S12x126_S12x126_S12x126_S12x378_d1 _ k
        | exact block_apply x0 5 (by decide) concatenates_S12x126_S12x126_S12x126_S12x378_d1 _ k
        | exact block_apply x0 6 (by decide) concatenates_S12x126_S12x126_S12x126_S12x378_d1 _ k
        | exact block_apply x0 7 (by decide) concatenates_S12x126_S12x126_S12x126_S12x378_d1 _ k
        | exact block_apply x0 8 (by decide) concatenates_S12x126_S12x126_S12x126_S12x378_d1 _ k
        | exact block_apply x0 9 (by decide) concatenates_S12x126_S12x126_S12x126_S12x378_d1 _ k
        | exact block_apply x0 10 (by decide) concatenates_S12x126_S12x126_S12x126_S12x378_d1 _ k
        | exact block_apply x0 11 (by decide) concatenates_S12x126_S12x126_S12x126_S12x378_d1 _ k)
  show _ = Cert.Net.wpool1 (img x0) (mat x1) _ _ _
  unfold Cert.Net.wpool1 Cert.Net.conv1
  refine congrArg₂ max (Finset.sum_congr rfl fun k _ => ?_) (Finset.sum_congr rfl fun k _ => ?_)
  · rw [hL k]
  · rw [hL k]

end Cert.RefBody

end
-- ==== Proof.RefBodyPool1.lean ====
/-
  The first stage's depth and height pooling. The width-pooled product has 144 rows, row 12·od + oh; the pooled
  value at row r = 6·dp + hp is the maximum over the two depths 2dp, 2dp + 1 and the two heights 2hp, 2hp + 1, i.e.
  of rows 24dp + 2hp, 24dp + 12 + 2hp, 24dp + 2hp + 1, 24dp + 12 + 2hp + 1, taken depth first, then height.
-/
import proofs.«162147_g2000504528272344_pallasbulk_1029_23_alg».proof.Proof.Gen.ReferenceIdeal.Frame
import proofs.«162147_g2000504528272344_pallasbulk_1029_23_alg».proof.Proof.Spec
import proofs.«162147_g2000504528272344_pallasbulk_1029_23_alg».proof.Proof.LibPlainDot
import proofs.«162147_g2000504528272344_pallasbulk_1029_23_alg».proof.Proof.RefBodyLib
import Idealize.ShloMosaic.Lib.Pipeline.Value
import Idealize.ShloMosaic.Lib.ValueIdx

noncomputable section

namespace Cert.RefBody

open Idealize.ShloMosaic Idealize.ShloMosaic.ValueIdx Cert.ReferenceIdeal Cert.ReferenceIdeal.Gen

/-- The pooled rows of a 144-row value. -/
def pool4 (w : FVec Ideal S144x256 .f32) : FVec Ideal S36x256 .f32 := fun i =>
  max (max (w (ix2 ⟨24 * ((i 0).val / 6) + 2 * ((i 0).val % 6), by have h : (i 0).val < 36 := (i 0).isLt; omega⟩ (i 1)))
           (w (ix2 ⟨24 * ((i 0).val / 6) + 12 + 2 * ((i 0).val % 6), by have h : (i 0).val < 36 := (i 0).isLt; omega⟩ (i 1))))
      (max (w (ix2 ⟨24 * ((i 0).val / 6) + (2 * ((i 0).val % 6) + 1), by have h : (i 0).val < 36 := (i 0).isLt; omega⟩ (i 1)))
           (w (ix2 ⟨24 * ((i 0).val / 6) + 12 + (2 * ((i 0).val % 6) + 1), by have h : (i 0).val < 36 := (i 0).isLt; omega⟩ (i 1))))

/-- One pooled row, as a one-row value. -/
def prow (w : FVec Ideal S144x256 .f32) (r : Fin 36) : FVec Ideal S1x256 .f32 := fun i => pool4 w (ix2 r (i 1))

/-- The pattern of every pooled row: two twelve-row blocks, their maximum, two of its rows, their maximum. -/
theorem row_eq (w : FVec Ideal S144x256 .f32) (oA oB : Nat) (hA : S144x256.Slices ![oA, 0] S12x256)
    (hB : S144x256.Slices ![oB, 0] S12x256) (oh : Nat) (h0 : S12x256.Slices ![oh, 0] S1x256)
    (h1 : S12x256.Slices ![oh + 1, 0] S1x256) (r : Fin 36) (eA : oA = 24 * (r.val / 6)) (eB : oB = 24 * (r.val / 6) + 12)
    (eh : oh = 2 * (r.val % 6)) :
    maximumf
        (extractStridedSlice S1x256 ![oh, 0]
          (maximumf (extractStridedSlice S12x256 ![oA, 0] w hA) (extractStridedSlice S12x256 ![oB, 0] w hB)) h0)
        (extractStridedSlice S1x256 ![oh + 1, 0]
          (maximumf (extractStridedSlice S12x256 ![oA, 0] w hA) (extractStridedSlice S12x256 ![oB, 0] w hB)) h1)
      = prow w r := by
  subst eA eB eh
  funext i
  obtain ⟨z, n, rfl⟩ : ∃ z n, i = ix2 z n := ⟨i 0, i 1, eq_ix2 i⟩
  have hz : z.val = 0 := by have := z.isLt; omega
  rw [maximumf_apply, sliceRows_apply, sliceRows_apply, maximumf_apply, maximumf_apply, sliceRows_apply,
    sliceRows_apply, sliceRows_apply, sliceRows_apply]
  show _ = pool4 w (ix2 r n)
  unfold pool4
  refine congrArg₂ max (congrArg₂ max (congrArg w (ix2_congr ?_ rfl)) (congrArg w (ix2_congr ?_ rfl)))
    (congrArg₂ max (congrArg w (ix2_congr ?_ rfl)) (congrArg w (ix2_congr ?_ rfl)))
  all_goals (simp only [ix2_0, ix2_1]; omega)

section
variable (v6 v13 v20 v27 v34 v41 v48 v55 v62 v69 v76 v83 : FVec Ideal S12x126 .f32) (v85 : FVec Ideal S12x42 .f32)
  (v86 v88 v91 v93 v95 : Vec Ideal S1x1x12x42 .f32) (v113 : Vec Ideal S378x512 .bf16)

theorem pay18_eq : k0_pay18 v6 v13 v20 v27 v34 v41 v48 v55 v62 v69 v76 v83 v85 v86 v88 v91 v93 v95 v113 = prow (k0_pay16 v6 v13 v20 v27 v34 v41 v48 v55 v62 v69 v76 v83 v85 v86 v88 v91 v93 v95 v113) 0 :=
  row_eq _ 0 12 (by decide) (by decide) 0 (by decide) (by decide) 0 (by decide) (by decide) (by decide)

theorem pay21_eq : k0_pay21 (k0_pay19 v6 v13 v20 v27 v34 v41 v48 v55 v62 v69 v76 v83 v85 v86 v88 v91 v93 v95 v113) (k0_pay20 v6 v13 v20 v27 v34 v41 v48 v55 v62 v69 v76 v83 v85 v86 v88 v91 v93 v95 v113) = prow (k0_pay16 v6 v13 v20 v27 v34 v41 v48 v55 v62 v69 v76 v83 v85 v86 v88 v91 v93 v95 v113) 1 :=
  row_eq _ 0 12 (by decide) (by decide) 2 (by decide) (by decide) 1 (by decide) (by decide) (by decide)

theorem pay22_eq : k0_pay22 (k0_pay17 v6 v13 v20 v27 v34 v41 v48 v55 v62 v69 v76 v83 v85 v86 v88 v91 v93 v95 v113) = prow (k0_pay16 v6 v13 v20 v27 v34 v41 v48 v55 v62 v69 v76 v83 v85 v86 v88 v91 v93 v95 v113) 2 :=
  row_eq _ 0 12 (by decide) (by decide) 4 (by decide) (by decide) 2 (by decide) (by decide) (by decide)

theorem pay23_eq : k0_pay23 (k0_pay17 v6 v13 v20 v27 v34 v41 v48 v55 v62 v69 v76 v83 v85 v86 v88 v91 v93 v95 v113) = prow (k0_pay16 v6 v13 v20 v27 v34 v41 v48 v55 v62 v69 v76 v83 v85 v86 v88 v91 v93 v95 v113) 3 :=
  row_eq _ 0 12 (by decide) (by decide) 6 (by decide) (by decide) 3 (by decide) (by decide) (by decide)

theorem pay24_eq : k0_pay24 (k0_pay17 v6 v13 v20 v27 v34 v41 v48 v55 v62 v69 v76 v83 v85 v86 v88 v91 v93 v95 v113) = prow (k0_pay16 v6 v13 v20 v27 v34 v41 v48 v55 v62 v69 v76 v83 v85 v86 v88 v91 v93 v95 v113) 4 :=
  row_eq _ 0 12 (by decide) (by decide) 8 (by decide) (by decide) 4 (by decide) (by decide) (by decide)

theorem pay25_eq : k0_pay25 (k0_pay17 v6 v13 v20 v27 v34 v41 v48 v55 v62 v69 v76 v83 v85 v86 v88 v91 v93 v95 v113) = prow (k0_pay16 v6 v13 v20 v27 v34 v41 v48 v55 v62 v69 v76 v83 v85 v86 v88 v91 v93 v95 v113) 5 :=
  row_eq _ 0 12 (by decide) (by decide) 10 (by decide) (by decide) 5 (by decide) (by decide) (by decide)

end

theorem pay27_eq (w : FVec Ideal S144x256 .f32) : k0_pay27 w = prow w 6 :=
  row_eq w 24 36 (by decide) (by decide) 0 (by decide) (by decide) 6 (by decide) (by decide) (by decide)

theorem pay28_eq (w : FVec Ideal S144x256 .f32) : k0_pay28 w = prow w 7 :=
  row_eq w 24 36 (by decide) (by decide) 2 (by decide) (by decide) 7 (by decide) (by decide) (by decide)

theorem pay29_eq (w : FVec Ideal S144x256 .f32) : k0_pay29 w = prow w 8 :=
  row_eq w 24 36 (by decide) (by decide) 4 (by decide) (by decide) 8 (by decide) (by decide) (by decide)

theorem pay30_eq (w : FVec Ideal S144x256 .f32) : k0_pay30 w = prow w 9 :=
  row_eq w 24 36 (by decide) (by decide) 6 (by decide) (by decide) 9 (by decide) (by decide) (by decide)

theorem pay31_eq (w : FVec Ideal S144x256 .f32) : k0_pay31 w = prow w 10 :=
  row_eq w 24 36 (by decide) (by decide) 8 (by decide) (by decide) 10 (by decide) (by decide) (by decide)

theorem pay32_eq (w : FVec Ideal S144x256 .f32) : k0_pay32 w = prow w 11 :=
  row_eq w 24 36 (by decide) (by decide) 10 (by decide) (by decide) 11 (by decide) (by decide) (by decide)

theorem pay34_eq (w : FVec Ideal S144x256 .f32) : k0_pay34 w = prow w 12 :=
  row_eq w 48 60 (by decide) (by decide) 0 (by decide) (by decide) 12 (by decide) (by decide) (by decide)

theorem pay35_eq (w : FVec Ideal S144x256 .f32) : k0_pay35 w = prow w 13 :=
  row_eq w 48 60 (by decide) (by decide) 2 (by decide) (by decide) 13 (by decide) (by decide) (by decide)

theorem pay36_eq (w : FVec Ideal S144x256 .f32) : k0_pay36 w = prow w 14 :=
  row_eq w 48 60 (by decide) (by decide) 4 (by decide) (by decide) 14 (by decide) (by decide) (by decide)

theorem pay37_eq (w : FVec Ideal S144x256 .f32) : k0_pay37 w = prow w 15 :=
  row_eq w 48 60 (by decide) (by decide) 6 (by decide) (by decide) 15 (by decide) (by decide) (by decide)

theorem pay38_eq (w : FVec Ideal S144x256 .f32) : k0_pay38 w = prow w 16 :=
  row_eq w 48 60 (by decide) (by decide) 8 (by decide) (by decide) 16 (by decide) (by decide) (by decide)

theorem pay39_eq (w : FVec Ideal S144x256 .f32) : k0_pay39 w = prow w 17 :=
  row_eq w 48 60 (by decide) (by decide) 10 (by decide) (by decide) 17 (by decide) (by decide) (by decide)

/-- The 36 pooled rows stacked: the pooled value. -/
theorem pay43_eq (w : FVec Ideal S144x256 .f32) :
    k0_pay43 w (prow w 0) (prow w 1) (prow w 2) (prow w 3) (prow w 4) (prow w 5) (prow w 6) (prow w 7) (prow w 8) (prow w 9) (prow w 10) (prow w 11) (prow w 12) (prow w 13) (prow w 14) (prow w 15) (prow w 16) (prow w 17) (k0_pay40 w) (k0_pay41 w) (k0_pay42 w) = pool4 w := by
  funext i
  obtain ⟨r, n, rfl⟩ : ∃ r n, i = ix2 r n := ⟨i 0, i 1, eq_ix2 i⟩
  unfold k0_pay43
  refine (rows_apply ![_, _, _, _, _, _, _, _, _, _, _, _, _, _, _, _, _, _, _, _, _, _, _, _, _, _, _, _, _, _, _, _, _, _, _, _] _ r n r rfl).trans ?_
  fin_cases r
  all_goals first
    | rfl
    | exact congrFun (row_eq w _ _ (by decide) (by decide) _ (by decide) (by decide) _ (by decide) (by decide) (by decide)) (ix2 0 n)

end Cert.RefBody

end
-- ==== Proof.RefBodyStage2.lean ====
/-
  The second stage over generic inputs: the second convolution's window matrix (nine four-row blocks of the
  activated pooled value side by side, four of those stacked), its product with the folded weights, the pooling of
  the sixteen product rows to four, and the two dense layers.
-/
import proofs.«162147_g2000504528272344_pallasbulk_1029_23_alg».proof.Proof.Gen.ReferenceIdeal.Frame
import proofs.«162147_g2000504528272344_pallasbulk_1029_23_alg».proof.Proof.Spec
import proofs.«162147_g2000504528272344_pallasbulk_1029_23_alg».proof.Proof.LibPlainDot
import proofs.«162147_g2000504528272344_pallasbulk_1029_23_alg».proof.Proof.RefBodyLib
import Idealize.ShloMosaic.Lib.Pipeline.Value
import Idealize.ShloMosaic.Lib.ValueIdx

noncomputable section

namespace Cert.RefBody

open Idealize.ShloMosaic Idealize.ShloMosaic.ValueIdx Cert.ReferenceIdeal Cert.ReferenceIdeal.Gen

/-- Nine pieces side by side, given one by one. -/
theorem cat9_apply (a0 a1 a2 a3 a4 a5 a6 a7 a8 : FVec Ideal S4x256 .f32)
    (hc : Shape.Concatenates [S4x256, S4x256, S4x256, S4x256, S4x256, S4x256, S4x256, S4x256, S4x256] S4x2304 1) (p : Fin 4) (k : Fin 2304) (j : Fin 9) (hj : k.val / 256 = j.val) :
    concatenate S4x2304 1
        [⟨S4x256, a0⟩, ⟨S4x256, a1⟩, ⟨S4x256, a2⟩, ⟨S4x256, a3⟩, ⟨S4x256, a4⟩, ⟨S4x256, a5⟩, ⟨S4x256, a6⟩, ⟨S4x256, a7⟩,
         ⟨S4x256, a8⟩] hc (ix2 p k)
      = ![a0, a1, a2, a3, a4, a5, a6, a7, a8] j (ix2 p ⟨k.val % 256, Nat.mod_lt _ (by norm_num)⟩) :=
  cat1_apply ![a0, a1, a2, a3, a4, a5, a6, a7, a8] hc p k j hj _

/-- The nine four-row blocks at row offsets o + 6·kd + kh side by side, at (p, k): the source at row
    o + 6·(k / 768) + k % 768 / 256 + p, column k % 256. -/
theorem block2_apply (a : FVec Ideal S36x256 .f32) (o : Nat)
    (h0 : S36x256.Slices ![o, 0] S4x256) (h1 : S36x256.Slices ![o + 1, 0] S4x256) (h2 : S36x256.Slices ![o + 2, 0] S4x256)
    (h3 : S36x256.Slices ![o + 6, 0] S4x256) (h4 : S36x256.Slices ![o + 7, 0] S4x256) (h5 : S36x256.Slices ![o + 8, 0] S4x256)
    (h6 : S36x256.Slices ![o + 12, 0] S4x256) (h7 : S36x256.Slices ![o + 13, 0] S4x256)
    (h8 : S36x256.Slices ![o + 14, 0] S4x256) (hc : Shape.Concatenates [S4x256, S4x256, S4x256, S4x256, S4x256, S4x256, S4x256, S4x256, S4x256] S4x2304 1) (p : Fin 4) (k : Fin 2304) :
    concatenate S4x2304 1
        [⟨S4x256, extractStridedSlice S4x256 ![o, 0] a h0⟩, ⟨S4x256, extractStridedSlice S4x256 ![o + 1, 0] a h1⟩,
         ⟨S4x256, extractStridedSlice S4x256 ![o + 2, 0] a h2⟩, ⟨S4x256, extractStridedSlice S4x256 ![o + 6, 0] a h3⟩,
         ⟨S4x256, extractStridedSlice S4x256 ![o + 7, 0] a h4⟩, ⟨S4x256, extractStridedSlice S4x256 ![o + 8, 0] a h5⟩,
         ⟨S4x256, extractStridedSlice S4x256 ![o + 12, 0] a h6⟩, ⟨S4x256, extractStridedSlice S4x256 ![o + 13, 0] a h7⟩,
         ⟨S4x256, extractStridedSlice S4x256 ![o + 14, 0] a h8⟩] hc (ix2 p k)
      = a (ix2 ⟨o + 6 * (k.val / 768) + k.val % 768 / 256 + p.val,
              by have := slice_lt0 h8 p; have := k.isLt; omega⟩ ⟨k.val % 256, Nat.mod_lt _ (by norm_num)⟩) := by
  have hk : k.val < 2304 := k.isLt
  have hp : p.val < 4 := p.isLt
  have hk9 : k.val / 256 < 9 := by omega
  refine (cat9_apply _ _ _ _ _ _ _ _ _ hc p k ⟨k.val / 256, hk9⟩ rfl).trans ?_
  have hcase : k.val / 256 = 0 ∨ k.val / 256 = 1 ∨ k.val / 256 = 2 ∨ k.val / 256 = 3 ∨ k.val / 256 = 4 ∨ k.val / 256 = 5
      ∨ k.val / 256 = 6 ∨ k.val / 256 = 7 ∨ k.val / 256 = 8 := by omega
  rcases hcase with e | e | e | e | e | e | e | e | e
  all_goals (
    simp only [e]
    refine (sliceRows_apply _ a (by assumption) p _).trans ?_
    exact congrArg a (ix2_congr (by first | omega | (simp only [] <;> omega)) rfl))

/-- Four blocks of four rows stacked. -/
theorem stack4_apply (C0 C1 C2 C3 : FVec Ideal S4x2304 .f32)
    (hc : Shape.Concatenates [S4x2304, S4x2304, S4x2304, S4x2304] S16x2304 0) (r : Fin 16) (k : Fin 2304) (od : Fin 4)
    (hod : r.val / 4 = od.val) :
    concatenate S16x2304 0 [⟨S4x2304, C0⟩, ⟨S4x2304, C1⟩, ⟨S4x2304, C2⟩, ⟨S4x2304, C3⟩] hc (ix2 r k)
      = ![C0, C1, C2, C3] od (ix2 ⟨r.val % 4, Nat.mod_lt _ (by norm_num)⟩ k) :=
  cat0_apply ![C0, C1, C2, C3] hc r k od hod _

/-- The second convolution before pooling, at product row r and column n: the sum over the window matrix's columns k of
    the activated value at row 6·(r / 4 + k / 768) + (r % 4 + k % 768 / 256), column k % 256, times the weight. -/
theorem pay45_apply (v244 v245 : FVec Ideal S36x256 .f32) (x3 : Vec Ideal S2304x256 .bf16) (r : Fin 16) (n : Fin 256) :
    k0_pay45 v244 v245 (View.ld x3 r0_45) (ix2 r n)
      = ∑ k : Fin 2304,
          Cert.Net.lrelu
              (v244 (ix2 ⟨6 * (r.val / 4 + k.val / 768) + (r.val % 4 + k.val % 768 / 256),
                  by have := r.isLt; have := k.isLt; omega⟩ ⟨k.val % 256, Nat.mod_lt _ (by norm_num)⟩)
                + v245 (ix2 ⟨6 * (r.val / 4 + k.val / 768) + (r.val % 4 + k.val % 768 / 256),
                  by have := r.isLt; have := k.isLt; omega⟩ ⟨k.val % 256, Nat.mod_lt _ (by norm_num)⟩))
            * x3 (ix2 k n) := by
  have hld : View.ld x3 r0_45 = x3 := View.ld_unit_zero (off := ![0, 0]) (by funext a; fin_cases a <;> rfl) _ x3
  have hd : dot_S16x2304_S2304x256_S16x256_1_0_0_1_n_n = DotDims.plain 16 2304 256 := rfl
  unfold k0_pay45
  rw [hld, hd]
  unfold Idealize.ShloMosaic.matmul
  erw [LibPlainDot.matmul_zero_apply]
  refine Finset.sum_congr rfl fun k _ => congrArg₂ (· * ·) ?_ rfl
  rw [truncf_apply]
  have hr : r.val < 16 := r.isLt
  have hk : k.val < 2304 := k.isLt
  refine (stack4_apply _ _ _ _ _ r k ⟨r.val / 4, by omega⟩ rfl).trans ?_
  have hcase : r.val / 4 = 0 ∨ r.val / 4 = 1 ∨ r.val / 4 = 2 ∨ r.val / 4 = 3 := by omega
  rcases hcase with e | e | e | e
  all_goals (
    simp only [e]
    refine (block2_apply _ _ (by decide) (by decide) (by decide) (by decide) (by decide) (by decide) (by decide) (by decide)
      (by decide) concatenates_S4x256_S4x256_S4x256_S4x256_S4x256_S4x256_S4x256_S4x256_S4x256_S4x2304_d1 _ k).trans ?_
    refine (lrelu_apply _ _).trans ?_
    refine congrArg Cert.Net.lrelu ?_
    rw [addf_apply]
    exact congrArg₂ (· + ·) (congrArg v244 (ix2_congr (by first | omega | (simp only [] <;> omega)) rfl))
      (congrArg v245 (ix2_congr (by first | omega | (simp only [] <;> omega)) rfl)))

/-- Four one-row pieces stacked, read at a row of known number. -/
theorem rows4_apply (a0 a1 a2 a3 : FVec Ideal S1x128 .f32) (hc : Shape.Concatenates [S1x128, S1x128, S1x128, S1x128] S4x128 0)
    (r : Fin 4) (n : Fin 128) (i : Fin 4) (hi : r.val = i.val) :
    concatenate S4x128 0 [⟨S1x128, a0⟩, ⟨S1x128, a1⟩, ⟨S1x128, a2⟩, ⟨S1x128, a3⟩] hc (ix2 r n)
      = ![a0, a1, a2, a3] i (ix2 0 n) :=
  rows_apply ![a0, a1, a2, a3] hc r n i hi

/-- The pooled second convolution with its bias and activation, at pooled row r = 2·dp + hp and column n, from the two
    column halves of the sixteen product rows: the maximum over the halves, the two depths and the two heights. -/
theorem pay48_apply (v293 : Vec Ideal S1x128 .f32) (v297 v298 : FVec Ideal S16x128 .f32) (r : Fin 4) (n : Fin 128) :
    k0_pay48 v293 v297 v298 (ix2 r n)
      = Cert.Net.lrelu
          ((max
              (max (max (v297 (ix2 ⟨8 * (r.val / 2) + 2 * (r.val % 2), by have := r.isLt; omega⟩ n))
                        (v298 (ix2 ⟨8 * (r.val / 2) + 2 * (r.val % 2), by have := r.isLt; omega⟩ n)))
                   (max (v297 (ix2 ⟨8 * (r.val / 2) + 4 + 2 * (r.val % 2), by have := r.isLt; omega⟩ n))
                        (v298 (ix2 ⟨8 * (r.val / 2) + 4 + 2 * (r.val % 2), by have := r.isLt; omega⟩ n))))
              (max (max (v297 (ix2 ⟨8 * (r.val / 2) + (2 * (r.val % 2) + 1), by have := r.isLt; omega⟩ n))
                        (v298 (ix2 ⟨8 * (r.val / 2) + (2 * (r.val % 2) + 1), by have := r.isLt; omega⟩ n)))
                   (max (v297 (ix2 ⟨8 * (r.val / 2) + 4 + (2 * (r.val % 2) + 1), by have := r.isLt; omega⟩ n))
                        (v298 (ix2 ⟨8 * (r.val / 2) + 4 + (2 * (r.val % 2) + 1), by have := r.isLt; omega⟩ n)))))
            + v293 (ix2 0 n)) := by
  unfold k0_pay48
  refine (lrelu_apply _ _).trans ?_
  refine congrArg Cert.Net.lrelu ?_
  rw [addf_apply, bcastRow_apply]
  refine congrArg₂ (· + ·) ?_ rfl
  have hr : r.val < 4 := r.isLt
  have hcase : r.val = 0 ∨ r.val = 1 ∨ r.val = 2 ∨ r.val = 3 := by omega
  rcases hcase with e | e | e | e
  · refine (rows4_apply _ _ _ _ concatenates_S1x128_S1x128_S1x128_S1x128_S4x128_d0 r n 0 e).trans ?_
    show maximumf _ _ (ix2 0 n) = _
    simp only [maximumf_apply, sliceRows_apply]
    refine congrArg₂ max
      (congrArg₂ max (congrArg₂ max (congrArg v297 (ix2_congr ?_ rfl)) (congrArg v298 (ix2_congr ?_ rfl)))
        (congrArg₂ max (congrArg v297 (ix2_congr ?_ rfl)) (congrArg v298 (ix2_congr ?_ rfl))))
      (congrArg₂ max (congrArg₂ max (congrArg v297 (ix2_congr ?_ rfl)) (congrArg v298 (ix2_congr ?_ rfl)))
        (congrArg₂ max (congrArg v297 (ix2_congr ?_ rfl)) (congrArg v298 (ix2_congr ?_ rfl))))
    all_goals (simp only [Fin.val_zero]; omega)
  · refine (rows4_apply _ _ _ _ concatenates_S1x128_S1x128_S1x128_S1x128_S4x128_d0 r n 1 e).trans ?_
    show maximumf _ _ (ix2 0 n) = _
    simp only [maximumf_apply, sliceRows_apply]
    refine congrArg₂ max
      (congrArg₂ max (congrArg₂ max (congrArg v297 (ix2_congr ?_ rfl)) (congrArg v298 (ix2_congr ?_ rfl)))
        (congrArg₂ max (congrArg v297 (ix2_congr ?_ rfl)) (congrArg v298 (ix2_congr ?_ rfl))))
      (congrArg₂ max (congrArg₂ max (congrArg v297 (ix2_congr ?_ rfl)) (congrArg v298 (ix2_congr ?_ rfl)))
        (congrArg₂ max (congrArg v297 (ix2_congr ?_ rfl)) (congrArg v298 (ix2_congr ?_ rfl))))
    all_goals (simp only [Fin.val_zero]; omega)
  · refine (rows4_apply _ _ _ _ concatenates_S1x128_S1x128_S1x128_S1x128_S4x128_d0 r n 2 e).trans ?_
    show maximumf _ _ (ix2 0 n) = _
    simp only [maximumf_apply, sliceRows_apply]
    refine congrArg₂ max
      (congrArg₂ max (congrArg₂ max (congrArg v297 (ix2_congr ?_ rfl)) (congrArg v298 (ix2_congr ?_ rfl)))
        (congrArg₂ max (congrArg v297 (ix2_congr ?_ rfl)) (congrArg v298 (ix2_congr ?_ rfl))))
      (congrArg₂ max (congrArg₂ max (congrArg v297 (ix2_congr ?_ rfl)) (congrArg v298 (ix2_congr ?_ rfl)))
        (congrArg₂ max (congrArg v297 (ix2_congr ?_ rfl)) (congrArg v298 (ix2_congr ?_ rfl))))
    all_goals (simp only [Fin.val_zero]; omega)
  · refine (rows4_apply _ _ _ _ concatenates_S1x128_S1x128_S1x128_S1x128_S4x128_d0 r n 3 e).trans ?_
    show maximumf _ _ (ix2 0 n) = _
    simp only [maximumf_apply, sliceRows_apply]
    refine congrArg₂ max
      (congrArg₂ max (congrArg₂ max (congrArg v297 (ix2_congr ?_ rfl)) (congrArg v298 (ix2_congr ?_ rfl)))
        (congrArg₂ max (congrArg v297 (ix2_congr ?_ rfl)) (congrArg v298 (ix2_congr ?_ rfl))))
      (congrArg₂ max (congrArg₂ max (congrArg v297 (ix2_congr ?_ rfl)) (congrArg v298 (ix2_congr ?_ rfl)))
        (congrArg₂ max (congrArg v297 (ix2_congr ?_ rfl)) (congrArg v298 (ix2_congr ?_ rfl))))
    all_goals (simp only [Fin.val_zero]; omega)

end Cert.RefBody

end
-- ==== Proof.RefBodyTail.lean ====
/-
  The two dense layers over a generic activated value: each pooled position's share is a row of the activated
  value against one block of the first layer's weights; the bias and the four shares are added in order, activated,
  scaled and shifted, and multiplied by the second layer's weights.
-/
import proofs.«162147_g2000504528272344_pallasbulk_1029_23_alg».proof.Proof.Gen.ReferenceIdeal.Frame
import proofs.«162147_g2000504528272344_pallasbulk_1029_23_alg».proof.Proof.Spec
import proofs.«162147_g2000504528272344_pallasbulk_1029_23_alg».proof.Proof.LibPlainDot
import proofs.«162147_g2000504528272344_pallasbulk_1029_23_alg».proof.Proof.RefBodyLib
import Idealize.ShloMosaic.Lib.Pipeline.Value
import Idealize.ShloMosaic.Lib.ValueIdx

noncomputable section

namespace Cert.RefBody

open Idealize.ShloMosaic Idealize.ShloMosaic.ValueIdx Cert.ReferenceIdeal Cert.ReferenceIdeal.Gen

/-- One pooled position's weights: block ro of the first dense layer's weights, at (j, k). -/
theorem ld5_apply (x5 : Vec Ideal S4x128x128 .bf16) (ro : Nat)
    (inb : ∀ a, (![ro, 0, 0] : Fin 3 → Nat) a + S1x128x128.size a ≤ S4x128x128.size a) (hr : ro < 4) (j k : Fin 128) :
    View.ld x5 (Rect.unit (s := S4x128x128) ![ro, 0, 0] S1x128x128.size inb) (ix3 0 j k) = x5 (ix3 ⟨ro, hr⟩ j k) := by
  show x5 _ = x5 _
  refine congrArg x5 (funext fun a => Fin.ext ?_)
  fin_cases a
  · rfl
  · show 0 + 1 * j.val = j.val
    rw [Nat.one_mul, Nat.zero_add]
  · show 0 + 1 * k.val = k.val
    rw [Nat.one_mul, Nat.zero_add]

/-- One position's share of the first dense layer: row ro of the activated value against block ro of the weights. -/
theorem share_apply (A : FVec Ideal S4x128 .f32) (x5 : Vec Ideal S4x128x128 .bf16) (ro : Nat)
    (inb : ∀ a, (![ro, 0, 0] : Fin 3 → Nat) a + S1x128x128.size a ≤ S4x128x128.size a) (hr : ro < 4)
    (hs : S4x128.Slices ![ro, 0] S1x128) (hsc : S1x128x128.ShapeCasts S128x128) (hb : FTy.bits .bf16 < FTy.bits .f32)
    (k : Fin 128) :
    matmul (φ₂ := .bf16) (DotDims.plain 1 128 128) none (truncf .bf16 (extractStridedSlice S1x128 ![ro, 0] A hs) hb)
        (shapeCast S128x128 (View.ld x5 (Rect.unit (s := S4x128x128) ![ro, 0, 0] S1x128x128.size inb)) hsc)
        (constant S1x128 .f32 0x00000000#32) (ix2 0 k)
      = ∑ j : Fin 128, A (ix2 ⟨ro, hr⟩ j) * x5 (ix3 ⟨ro, hr⟩ j k) := by
  refine (LibPlainDot.matmul_zero_apply none _ _ 0 k).trans (Finset.sum_congr rfl fun j _ => ?_)
  rw [truncf_apply, sliceRows_apply, cast_drop1_apply, ld5_apply x5 ro inb hr j k]
  exact congrArg₂ (· * ·) (congrArg A (ix2_congr (Nat.add_zero _) rfl)) rfl

/-- The bias and the first two positions' shares of the first dense layer. -/
theorem pay49_apply (v293 : Vec Ideal S1x128 .f32) (v297 v298 : FVec Ideal S16x128 .f32) (x6 : Vec Ideal S1x128 .f32)
    (x5 : Vec Ideal S4x128x128 .bf16) (k : Fin 128) :
    k0_pay49 v293 v297 v298 (View.ld x6 r0_44) (View.ld x5 r0_46) (View.ld x5 r0_47) (ix2 0 k)
      = (x6 (ix2 0 k) + ∑ j : Fin 128, k0_pay48 v293 v297 v298 (ix2 0 j) * x5 (ix3 0 j k))
          + ∑ j : Fin 128, k0_pay48 v293 v297 v298 (ix2 1 j) * x5 (ix3 1 j k) := by
  have hld : View.ld x6 r0_44 = x6 := View.ld_unit_zero (off := ![0, 0]) (by funext a; fin_cases a <;> rfl) _ x6
  have hd : dot_S1x128_S128x128_S1x128_1_0_0_1_n_n = DotDims.plain 1 128 128 := rfl
  unfold k0_pay49
  rw [hld, hd, addf_apply, addf_apply]
  exact congrArg₂ (· + ·)
    (congrArg₂ (· + ·) rfl
      (share_apply (k0_pay48 v293 v297 v298) x5 0 inb_S4x128x128_S1x128x128_0_0_0 (by decide) slices_S4x128_o0_0_S1x128
        shapeCasts_S1x128x128_S128x128 bitsLt_bf16_f32 k))
    (share_apply (k0_pay48 v293 v297 v298) x5 1 inb_S4x128x128_S1x128x128_1_0_0 (by decide) slices_S4x128_o1_0_S1x128
      shapeCasts_S1x128x128_S128x128 bitsLt_bf16_f32 k)

/-- The last two shares, the activation, the folded normalisation and the second dense layer. -/
theorem pay1_apply (v293 : Vec Ideal S1x128 .f32) (v297 v298 : FVec Ideal S16x128 .f32) (v338 : FVec Ideal S1x128 .f32)
    (x5 : Vec Ideal S4x128x128 .bf16) (x7 x8 : Vec Ideal S1x128 .f32) (x9 : Vec Ideal S128x128 .bf16)
    (x10 : Vec Ideal S1x128 .f32) (n : Fin 128) :
    k0_pay1 (k0_pay48 v293 v297 v298) v338 (k0_pay50 v293 v297 v298) (k0_pay51 (View.ld x5 r0_48))
        (constant S1x128 .f32 0x00000000#32) (View.ld x5 r0_49) (View.ld x7 r0_44) (View.ld x8 r0_44) (View.ld x9 r0_50)
        (View.ld x10 r0_44) (ix3 0 0 n)
      = (∑ k : Fin 128,
            (Cert.Net.lrelu
                  ((v338 (ix2 0 k) + ∑ j : Fin 128, k0_pay48 v293 v297 v298 (ix2 2 j) * x5 (ix3 2 j k))
                    + ∑ j : Fin 128, k0_pay48 v293 v297 v298 (ix2 3 j) * x5 (ix3 3 j k))
                * x7 (ix2 0 k) + x8 (ix2 0 k))
              * x9 (ix2 k n))
          + x10 (ix2 0 n) := by
  have hld7 : View.ld x7 r0_44 = x7 := View.ld_unit_zero (off := ![0, 0]) (by funext a; fin_cases a <;> rfl) _ x7
  have hld8 : View.ld x8 r0_44 = x8 := View.ld_unit_zero (off := ![0, 0]) (by funext a; fin_cases a <;> rfl) _ x8
  have hld9 : View.ld x9 r0_50 = x9 := View.ld_unit_zero (off := ![0, 0]) (by funext a; fin_cases a <;> rfl) _ x9
  have hld10 : View.ld x10 r0_44 = x10 := View.ld_unit_zero (off := ![0, 0]) (by funext a; fin_cases a <;> rfl) _ x10
  have hd : dot_S1x128_S128x128_S1x128_1_0_0_1_n_n = DotDims.plain 1 128 128 := rfl
  unfold k0_pay1 k0_pay50 k0_pay51
  rw [hld7, hld8, hld9, hld10, hd, cast_add1_apply, addf_apply]
  refine congrArg₂ (· + ·) ?_ rfl
  refine (LibPlainDot.matmul_zero_apply none _ _ 0 n).trans (Finset.sum_congr rfl fun k _ => congrArg₂ (· * ·) ?_ rfl)
  rw [truncf_apply, addf_apply, mulf_apply]
  refine congrArg₂ (· + ·) (congrArg₂ (· * ·) ?_ rfl) rfl
  refine (lrelu_apply _ _).trans (congrArg Cert.Net.lrelu ?_)
  rw [addf_apply, addf_apply]
  exact congrArg₂ (· + ·)
    (congrArg₂ (· + ·) rfl
      (share_apply (k0_pay48 v293 v297 v298) x5 2 inb_S4x128x128_S1x128x128_2_0_0 (by decide) slices_S4x128_o2_0_S1x128
        shapeCasts_S1x128x128_S128x128 bitsLt_bf16_f32 k))
    (share_apply (k0_pay48 v293 v297 v298) x5 3 inb_S4x128x128_S1x128x128_3_0_0 (by decide) slices_S4x128_o3_0_S1x128
      shapeCasts_S1x128x128_S128x128 bitsLt_bf16_f32 k)

end Cert.RefBody

end
-- ==== Proof.RefBodySem.lean ====
/-
  From the generic stages to the network: the pooled rows of the width-pooled first convolution are the pooled
  first convolution; with the bias row and the activation they feed the second convolution, whose sixteen product
  rows are the second convolution at (od, oh) = (row / 4, row % 4); pooled, biased and activated they are the second
  stage's activation.
-/
import proofs.«162147_g2000504528272344_pallasbulk_1029_23_alg».proof.Proof.Gen.ReferenceIdeal.Frame
import proofs.«162147_g2000504528272344_pallasbulk_1029_23_alg».proof.Proof.Spec
import proofs.«162147_g2000504528272344_pallasbulk_1029_23_alg».proof.Proof.LibPlainDot
import proofs.«162147_g2000504528272344_pallasbulk_1029_23_alg».proof.Proof.RefBodyLib
import proofs.«162147_g2000504528272344_pallasbulk_1029_23_alg».proof.Proof.RefBodyPlanes
import proofs.«162147_g2000504528272344_pallasbulk_1029_23_alg».proof.Proof.RefBodyConv1
import proofs.«162147_g2000504528272344_pallasbulk_1029_23_alg».proof.Proof.RefBodyPool1
import proofs.«162147_g2000504528272344_pallasbulk_1029_23_alg».proof.Proof.RefBodyStage2
import Idealize.ShloMosaic.Lib.Pipeline.Value
import Idealize.ShloMosaic.Lib.ValueIdx

noncomputable section

namespace Cert.RefBody

open Idealize.ShloMosaic Idealize.ShloMosaic.ValueIdx Cert.ReferenceIdeal Cert.ReferenceIdeal.Gen

/-- A one-row value as a function of the column. -/
abbrev row {N : Nat} (x : (⟨2, ![1, N]⟩ : Shape).Idx → EReal) : Fin N → EReal := fun q => x (ix2 0 q)

/-- A function of three bounded indices depends on their values only. -/
theorem fin3_congr {A B C : Nat} {β : Type} (f : Fin A → Fin B → Fin C → β) {a a' : Fin A} {b b' : Fin B} {c c' : Fin C}
    (ha : a.val = a'.val) (hb : b.val = b'.val) (hc : c.val = c'.val) : f a b c = f a' b' c' := by
  obtain rfl := Fin.ext ha; obtain rfl := Fin.ext hb; obtain rfl := Fin.ext hc; rfl

section
variable (x0 : Vec Ideal S1x14x14x42 .f32) (x1 : Vec Ideal S378x512 .bf16) (x2 : Vec Ideal S1x256 .f32)
  (x3 : Vec Ideal S2304x256 .bf16) (x4 : Vec Ideal S1x128 .f32)

/-- The pooled rows of the width-pooled first convolution: row 6·dp + hp is the pooled convolution at (dp, hp). -/
theorem pool4_wp1V (r : Fin 36) (c : Fin 256) :
    pool4 (wp1V x0 x1) (ix2 r c)
      = Cert.Net.pool1 (img x0) (mat x1) ⟨r.val / 6, by have := r.isLt; omega⟩ ⟨r.val % 6, Nat.mod_lt _ (by norm_num)⟩ c := by
  have hr : r.val < 36 := r.isLt
  unfold pool4 Cert.Net.pool1 Cert.Net.dpool1 wp1V
  refine congrArg₂ max
    (congrArg₂ max (fin3_congr (Cert.Net.wpool1 (img x0) (mat x1)) ?_ ?_ ?_)
      (fin3_congr (Cert.Net.wpool1 (img x0) (mat x1)) ?_ ?_ ?_))
    (congrArg₂ max (fin3_congr (Cert.Net.wpool1 (img x0) (mat x1)) ?_ ?_ ?_)
      (fin3_congr (Cert.Net.wpool1 (img x0) (mat x1)) ?_ ?_ ?_))
  all_goals (simp only [ix2_0, ix2_1] <;> omega)

/-- The first bias, repeated down the 36 rows. -/
theorem pay44_apply (ρ : Fin 36) (c : Fin 256) : k0_pay44 (View.ld x2 r0_42) (ix2 ρ c) = x2 (ix2 0 c) := by
  have hld : View.ld x2 r0_42 = x2 := View.ld_unit_zero (off := ![0, 0]) (by funext a; fin_cases a <;> rfl) _ x2
  unfold k0_pay44
  rw [hld, bcastRow_apply]

/-- The sixteen product rows are the second convolution: row 4·od + oh. -/
theorem conv2_eq (ρ : Fin 16) (n' : Fin 256) :
    k0_pay45 (pool4 (wp1V x0 x1)) (k0_pay44 (View.ld x2 r0_42)) (View.ld x3 r0_45) (ix2 ρ n')
      = Cert.Net.conv2 (img x0) (mat x1) (row x2) (mat x3) ⟨ρ.val / 4, by have := ρ.isLt; omega⟩
          ⟨ρ.val % 4, Nat.mod_lt _ (by norm_num)⟩ n' := by
  have hρ : ρ.val < 16 := ρ.isLt
  rw [pay45_apply]
  unfold Cert.Net.conv2 Cert.Net.A2 Cert.Net.act1
  refine Finset.sum_congr rfl fun k _ => congrArg₂ (· * ·) (congrArg Cert.Net.lrelu (congrArg₂ (· + ·) ?_ ?_)) rfl
  · have hk : k.val < 2304 := k.isLt
    rw [pool4_wp1V]
    exact fin3_congr (Cert.Net.pool1 (img x0) (mat x1)) (by simp only [] <;> omega) (by simp only [] <;> omega) rfl
  · rw [pay44_apply]

/-- The left column half of the product: the second convolution's columns below 128. -/
theorem pay46_apply (ρ : Fin 16) (j : Fin 128) :
    k0_pay46 (pool4 (wp1V x0 x1)) (k0_pay44 (View.ld x2 r0_42)) (View.ld x3 r0_45) (ix2 ρ j)
      = Cert.Net.conv2 (img x0) (mat x1) (row x2) (mat x3) ⟨ρ.val / 4, by have := ρ.isLt; omega⟩
          ⟨ρ.val % 4, Nat.mod_lt _ (by norm_num)⟩ ⟨j.val, by have := j.isLt; omega⟩ := by
  unfold k0_pay46
  rw [slice2_apply, conv2_eq]
  exact fin3_congr (Cert.Net.conv2 (img x0) (mat x1) (row x2) (mat x3)) (by simp only [] <;> omega) (by simp only [] <;> omega)
    (by simp only [] <;> omega)

/-- The right column half: the columns from 128. -/
theorem pay47_apply (ρ : Fin 16) (j : Fin 128) :
    k0_pay47 (pool4 (wp1V x0 x1)) (k0_pay44 (View.ld x2 r0_42)) (View.ld x3 r0_45) (ix2 ρ j)
      = Cert.Net.conv2 (img x0) (mat x1) (row x2) (mat x3) ⟨ρ.val / 4, by have := ρ.isLt; omega⟩
          ⟨ρ.val % 4, Nat.mod_lt _ (by norm_num)⟩ ⟨j.val + 128, by have := j.isLt; omega⟩ := by
  unfold k0_pay47
  rw [slice2_apply, conv2_eq]
  exact fin3_congr (Cert.Net.conv2 (img x0) (mat x1) (row x2) (mat x3)) (by simp only [] <;> omega) (by simp only [] <;> omega)
    (by simp only [] <;> omega)

/-- The second stage's activation. -/
theorem act2_eq (r : Fin 4) (j : Fin 128) :
    k0_pay48 (View.ld x4 r0_44) (k0_pay46 (pool4 (wp1V x0 x1)) (k0_pay44 (View.ld x2 r0_42)) (View.ld x3 r0_45))
        (k0_pay47 (pool4 (wp1V x0 x1)) (k0_pay44 (View.ld x2 r0_42)) (View.ld x3 r0_45)) (ix2 r j)
      = Cert.Net.act2 (img x0) (mat x1) (row x2) (mat x3) (row x4) r j := by
  have hld : View.ld x4 r0_44 = x4 := View.ld_unit_zero (off := ![0, 0]) (by funext a; fin_cases a <;> rfl) _ x4
  have hr : r.val < 4 := r.isLt
  rw [pay48_apply, hld]
  unfold Cert.Net.act2 Cert.Net.pool2 Cert.Net.dpool2 Cert.Net.wpool2
  refine congrArg Cert.Net.lrelu (congrArg₂ (· + ·) ?_ rfl)
  refine congrArg₂ max
    (congrArg₂ max (congrArg₂ max ((pay46_apply x0 x1 x2 x3 _ j).trans ?_) ((pay47_apply x0 x1 x2 x3 _ j).trans ?_))
      (congrArg₂ max ((pay46_apply x0 x1 x2 x3 _ j).trans ?_) ((pay47_apply x0 x1 x2 x3 _ j).trans ?_)))
    (congrArg₂ max (congrArg₂ max ((pay46_apply x0 x1 x2 x3 _ j).trans ?_) ((pay47_apply x0 x1 x2 x3 _ j).trans ?_))
      (congrArg₂ max ((pay46_apply x0 x1 x2 x3 _ j).trans ?_) ((pay47_apply x0 x1 x2 x3 _ j).trans ?_)))
  all_goals
    exact fin3_congr (Cert.Net.conv2 (img x0) (mat x1) (row x2) (mat x3)) (by simp only [] <;> omega)
      (by simp only [] <;> omega) rfl

end

end Cert.RefBody

end
-- ==== Proof.RefBody.lean ====
/-
  The reference program's kernel body is the network: the buffer the body leaves is its one store's value, and
  that value, read stage by stage — planes, first convolution and width pool, depth and height pool, second
  convolution and pool, dense layers — is the padded logits.
-/
import proofs.«162147_g2000504528272344_pallasbulk_1029_23_alg».proof.Proof.Gen.ReferenceIdeal.Frame
import proofs.«162147_g2000504528272344_pallasbulk_1029_23_alg».proof.Proof.Spec
import proofs.«162147_g2000504528272344_pallasbulk_1029_23_alg».proof.Proof.LibPlainDot
import proofs.«162147_g2000504528272344_pallasbulk_1029_23_alg».proof.Proof.RefBodyLib
import proofs.«162147_g2000504528272344_pallasbulk_1029_23_alg».proof.Proof.RefBodyPlanes
import proofs.«162147_g2000504528272344_pallasbulk_1029_23_alg».proof.Proof.RefBodyConv1
import proofs.«162147_g2000504528272344_pallasbulk_1029_23_alg».proof.Proof.RefBodyPool1
import proofs.«162147_g2000504528272344_pallasbulk_1029_23_alg».proof.Proof.RefBodyStage2
import proofs.«162147_g2000504528272344_pallasbulk_1029_23_alg».proof.Proof.RefBodyTail
import proofs.«162147_g2000504528272344_pallasbulk_1029_23_alg».proof.Proof.RefBodySem
import Idealize.ShloMosaic.Lib.Pipeline.Value
import Idealize.ShloMosaic.Lib.ValueIdx

noncomputable section

namespace Cert.RefBody

open Idealize.ShloMosaic Idealize.ShloMosaic.ValueIdx Cert.ReferenceIdeal Cert.ReferenceIdeal.Gen

set_option maxHeartbeats 4000000 in
theorem out_eq (x0 : Vec Ideal S1x14x14x42 .f32) (x1 : Vec Ideal S378x512 .bf16) (x2 : Vec Ideal S1x256 .f32)
    (x3 : Vec Ideal S2304x256 .bf16) (x4 : Vec Ideal S1x128 .f32) (x5 : Vec Ideal S4x128x128 .bf16)
    (x6 x7 x8 : Vec Ideal S1x128 .f32) (x9 : Vec Ideal S128x128 .bf16) (x10 : Vec Ideal S1x128 .f32) (n : Fin 128) :
    Cert.ReferenceIdeal.Gen.out0_11 (F := Ideal) x0 x1 x2 x3 x4 x5 x6 x7 x8 x9 x10 (ix3 0 0 n)
      = Cert.Net.logits (fun d h l => x0 (ix4 0 d h l)) (fun k q => x1 (ix2 k q)) (fun q => x2 (ix2 0 q))
          (fun k q => x3 (ix2 k q)) (fun q => x4 (ix2 0 q)) (fun r k q => x5 (ix3 r k q)) (fun q => x6 (ix2 0 q))
          (fun q => x7 (ix2 0 q)) (fun q => x8 (ix2 0 q)) (fun k q => x9 (ix2 k q)) (fun q => x10 (ix2 0 q)) n := by
  unfold out0_11
  refine (congrFun (View.canon_unit_zero (S := S1x1x128) (off := ![0, 0, 0]) (by funext a; fin_cases a <;> rfl)
    inb_S1x1x128_S1x1x128_0_0_0 _) (ix3 0 0 n)).trans ?_
  rw [pay2_eq x0, pay3_eq x0, pay4_eq x0, pay5_eq x0, pay6_eq x0, pay7_eq x0, pay8_eq x0, pay9_eq x0, pay10_eq x0, pay12_eq x0, pay13_eq x0, pay14_eq x0]
  rw [pay18_eq, pay21_eq, pay22_eq, pay23_eq, pay24_eq, pay25_eq]
  rw [pay16_eq x0 x1]
  rw [pay27_eq, pay28_eq, pay29_eq, pay30_eq, pay31_eq, pay32_eq, pay34_eq, pay35_eq, pay36_eq, pay37_eq, pay38_eq,
    pay39_eq]
  rw [pay43_eq]
  refine (pay1_apply _ _ _ _ x5 x7 x8 x9 x10 n).trans ?_
  unfold Cert.Net.logits Cert.Net.hidden Cert.Net.fc1 Cert.Net.fcPart
  refine congrArg₂ (· + ·)
    (Finset.sum_congr rfl fun k _ =>
      congrArg₂ (· * ·) (congrArg₂ (· + ·) (congrArg₂ (· * ·) (congrArg Cert.Net.lrelu ?_) rfl) rfl) rfl) rfl
  rw [pay49_apply]
  have S : ∀ r : Fin 4,
      (∑ j : Fin 128,
          k0_pay48 (View.ld x4 r0_44)
              (k0_pay46 (pool4 (wp1V x0 x1)) (k0_pay44 (View.ld x2 r0_42)) (View.ld x3 r0_45))
              (k0_pay47 (pool4 (wp1V x0 x1)) (k0_pay44 (View.ld x2 r0_42)) (View.ld x3 r0_45)) (ix2 r j)
            * x5 (ix3 r j k))
        = ∑ j : Fin 128, Cert.Net.act2 (img x0) (mat x1) (row x2) (mat x3) (row x4) r j * x5 (ix3 r j k) :=
    fun r => Finset.sum_congr rfl fun j _ => congrArg₂ (· * ·) (act2_eq x0 x1 x2 x3 x4 r j) rfl
  exact congrArg₂ (· + ·) (congrArg₂ (· + ·) (congrArg₂ (· + ·) (congrArg₂ (· + ·) rfl (S 0)) (S 1)) (S 2)) (S 3)

end Cert.RefBody

end
-- ==== Proof.lean ====
/- Both idealized programs compute, for each of the 1024 images, the network of Spec.lean (Cert.Net.logits) of that image's
   data and of the parameter arrays, and return its first ten lanes: the kernel sixty-four images to a grid point from
   rearranged copies of the image batch and of the weights, the reference one image to a grid point. The frames are the
   generated ones; the equivalence at the extended reals follows from the two bodies' values and the arrays' layouts. -/
import proofs.«162147_g2000504528272344_pallasbulk_1029_23_alg».proof.Defs
import proofs.«162147_g2000504528272344_pallasbulk_1029_23_alg».proof.Proof.Gen.Kernel
import proofs.«162147_g2000504528272344_pallasbulk_1029_23_alg».proof.Proof.Gen.Kernel.Skeleton
import proofs.«162147_g2000504528272344_pallasbulk_1029_23_alg».proof.Proof.Gen.Kernel.Launch
import proofs.«162147_g2000504528272344_pallasbulk_1029_23_alg».proof.Proof.Gen.Kernel.Points
import proofs.«162147_g2000504528272344_pallasbulk_1029_23_alg».proof.Proof.Gen.Kernel.Frame
import proofs.«162147_g2000504528272344_pallasbulk_1029_23_alg».proof.Proof.Gen.KernelIdeal
import proofs.«162147_g2000504528272344_pallasbulk_1029_23_alg».proof.Proof.Gen.KernelIdeal.Skeleton
import proofs.«162147_g2000504528272344_pallasbulk_1029_23_alg».proof.Proof.Gen.KernelIdeal.Launch
import proofs.«162147_g2000504528272344_pallasbulk_1029_23_alg».proof.Proof.Gen.KernelIdeal.Points
import proofs.«162147_g2000504528272344_pallasbulk_1029_23_alg».proof.Proof.Gen.KernelIdeal.Frame
import proofs.«162147_g2000504528272344_pallasbulk_1029_23_alg».proof.Proof.Gen.ReferenceIdeal
import proofs.«162147_g2000504528272344_pallasbulk_1029_23_alg».proof.Proof.Gen.ReferenceIdeal.Skeleton
import proofs.«162147_g2000504528272344_pallasbulk_1029_23_alg».proof.Proof.Gen.ReferenceIdeal.Launch
import proofs.«162147_g2000504528272344_pallasbulk_1029_23_alg».proof.Proof.Gen.ReferenceIdeal.Points
import proofs.«162147_g2000504528272344_pallasbulk_1029_23_alg».proof.Proof.Gen.ReferenceIdeal.Frame
import proofs.«162147_g2000504528272344_pallasbulk_1029_23_alg».proof.Proof.Gen.Pre_finite_inputs
import proofs.«162147_g2000504528272344_pallasbulk_1029_23_alg».proof.Proof.Spec
import proofs.«162147_g2000504528272344_pallasbulk_1029_23_alg».proof.Proof.KernelArrays
import proofs.«162147_g2000504528272344_pallasbulk_1029_23_alg».proof.Proof.RefArrays
import proofs.«162147_g2000504528272344_pallasbulk_1029_23_alg».proof.Proof.KerBody
import proofs.«162147_g2000504528272344_pallasbulk_1029_23_alg».proof.Proof.RefBody
import Idealize.ShloMosaic.Adequacy
import Idealize.ShloMosaic.Init

noncomputable section

open Idealize.ShloMosaic Idealize.ShloMosaic.TcCoe Idealize.SL.Sem Idealize.ShloMosaic.ValueIdx
open Cert.Frames

namespace Cert.Proof

/-! ## The network of one image of the batch, as a function of the eleven argument arrays -/

/-- Image b's padded logits: the network of Spec.lean at image b's data (lane l = width · 3 + channel) and the parameter arrays. -/
def netOf (a10 : (⟨5, ![1024, 3, 14, 14, 14]⟩ : Shape).Idx → EReal) (a0 : (⟨2, ![378, 512]⟩ : Shape).Idx → EReal) (a1 : (⟨2, ![1, 256]⟩ : Shape).Idx → EReal) (a2 : (⟨2, ![2304, 256]⟩ : Shape).Idx → EReal) (a3 : (⟨2, ![1, 128]⟩ : Shape).Idx → EReal) (a4 : (⟨3, ![4, 128, 128]⟩ : Shape).Idx → EReal) (a5 : (⟨2, ![1, 128]⟩ : Shape).Idx → EReal) (a6 : (⟨2, ![1, 128]⟩ : Shape).Idx → EReal) (a7 : (⟨2, ![1, 128]⟩ : Shape).Idx → EReal) (a8 : (⟨2, ![128, 128]⟩ : Shape).Idx → EReal) (a9 : (⟨2, ![1, 128]⟩ : Shape).Idx → EReal)
    (b : Fin 1024) (n : Fin 128) : EReal :=
  Cert.Net.logits
    (fun d h l => a10 (ix5 b ⟨l.val % 3, Nat.mod_lt _ (by decide)⟩ d h ⟨l.val / 3, by have := l.isLt; omega⟩))
    (fun k q => a0 (ix2 k q)) (fun q => a1 (ix2 (0 : Fin 1) q)) (fun k q => a2 (ix2 k q)) (fun q => a3 (ix2 (0 : Fin 1) q))
    (fun r k q => a4 (ix3 r k q)) (fun q => a5 (ix2 (0 : Fin 1) q)) (fun q => a6 (ix2 (0 : Fin 1) q))
    (fun q => a7 (ix2 (0 : Fin 1) q)) (fun k q => a8 (ix2 k q)) (fun q => a9 (ix2 (0 : Fin 1) q)) n

/-- The network depends on the arrays only. -/
theorem netOf_congr {a10 a10' : (⟨5, ![1024, 3, 14, 14, 14]⟩ : Shape).Idx → EReal} {a0 a0' : (⟨2, ![378, 512]⟩ : Shape).Idx → EReal} {a1 a1' : (⟨2, ![1, 256]⟩ : Shape).Idx → EReal} {a2 a2' : (⟨2, ![2304, 256]⟩ : Shape).Idx → EReal} {a3 a3' : (⟨2, ![1, 128]⟩ : Shape).Idx → EReal} {a4 a4' : (⟨3, ![4, 128, 128]⟩ : Shape).Idx → EReal} {a5 a5' : (⟨2, ![1, 128]⟩ : Shape).Idx → EReal} {a6 a6' : (⟨2, ![1, 128]⟩ : Shape).Idx → EReal} {a7 a7' : (⟨2, ![1, 128]⟩ : Shape).Idx → EReal} {a8 a8' : (⟨2, ![128, 128]⟩ : Shape).Idx → EReal} {a9 a9' : (⟨2, ![1, 128]⟩ : Shape).Idx → EReal}
    (e10 : a10 = a10') (e0 : a0 = a0') (e1 : a1 = a1') (e2 : a2 = a2') (e3 : a3 = a3') (e4 : a4 = a4') (e5 : a5 = a5') (e6 : a6 = a6') (e7 : a7 = a7') (e8 : a8 = a8') (e9 : a9 = a9') :
    netOf a10 a0 a1 a2 a3 a4 a5 a6 a7 a8 a9 = netOf a10' a0' a1' a2' a3' a4' a5' a6' a7' a8' a9' := by
  subst e10 e0 e1 e2 e3 e4 e5 e6 e7 e8 e9; rfl

/-- The network is a function of its data and parameters only. -/
theorem logits_congr {X X' : Fin 14 → Fin 14 → Fin 42 → EReal} {W1 W1' : Fin 378 → Fin 512 → EReal} {B1 B1' : Fin 256 → EReal}
    {W2 W2' : Fin 2304 → Fin 256 → EReal} {B2 B2' : Fin 128 → EReal} {Wf1 Wf1' : Fin 4 → Fin 128 → Fin 128 → EReal}
    {Bf1 Bf1' Bns Bns' Bnt Bnt' : Fin 128 → EReal} {Wf2 Wf2' : Fin 128 → Fin 128 → EReal} {Bf2 Bf2' : Fin 128 → EReal}
    (hX : X = X') (hW1 : W1 = W1') (hB1 : B1 = B1') (hW2 : W2 = W2') (hB2 : B2 = B2') (hWf1 : Wf1 = Wf1')
    (hBf1 : Bf1 = Bf1') (hBns : Bns = Bns') (hBnt : Bnt = Bnt') (hWf2 : Wf2 = Wf2') (hBf2 : Bf2 = Bf2') (n : Fin 128) :
    Cert.Net.logits X W1 B1 W2 B2 Wf1 Bf1 Bns Bnt Wf2 Bf2 n = Cert.Net.logits X' W1' B1' W2' B2' Wf1' Bf1' Bns' Bnt' Wf2' Bf2' n := by
  subst hX hW1 hB1 hW2 hB2 hWf1 hBf1 hBns hBnt hWf2 hBf2; rfl

/-- The kernel program's whole-array function: the network of each image at the kernel's argument arrays. -/
def Gk (m : (ℓ : Loc Cert.KernelIdeal.nD Cert.KernelIdeal.τ Cert.KernelIdeal.sig) → Buf (Elt Ideal) ℓ) (c : Dev Cert.KernelIdeal.nD) : Fin 1024 → Fin 128 → EReal :=
  netOf (m ((c.tc : Thread Cert.KernelIdeal.nD Cert.KernelIdeal.τ).loc Cert.KernelIdeal.main_arg10)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

/-- The reference program's: the same network at the reference's argument arrays. -/
def Gr (m' : (ℓ : Loc Cert.ReferenceIdeal.nD Cert.ReferenceIdeal.τ Cert.ReferenceIdeal.sig) → Buf (Elt Ideal) ℓ) (c : Dev Cert.ReferenceIdeal.nD) : Fin 1024 → Fin 128 → EReal :=
  netOf (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))

/-- What the kernel's body leaves at row bb, lane n of the output block at grid point t is the network of image 64·t + bb. -/
theorem body_kernel (m : (ℓ : Loc Cert.KernelIdeal.nD Cert.KernelIdeal.τ Cert.KernelIdeal.sig) → Buf (Elt Ideal) ℓ) (c : Dev Cert.KernelIdeal.nD) (t : Fin Cert.KernelIdeal.cfg0.N) (bb : Fin 64) (n : Fin 128) :
    Cert.KernelIdeal.Gen.out0_12 (Cert.KernelIdeal.Gen.iblk m c 0 t) (Cert.KernelIdeal.Gen.iblk m c 1 t) (Cert.KernelIdeal.Gen.iblk m c 2 t) (Cert.KernelIdeal.Gen.iblk m c 3 t) (Cert.KernelIdeal.Gen.iblk m c 4 t) (Cert.KernelIdeal.Gen.iblk m c 5 t) (Cert.KernelIdeal.Gen.iblk m c 6 t) (Cert.KernelIdeal.Gen.iblk m c 7 t) (Cert.KernelIdeal.Gen.iblk m c 8 t) (Cert.KernelIdeal.Gen.iblk m c 9 t) (Cert.KernelIdeal.Gen.iblk m c 10 t) (Cert.KernelIdeal.Gen.iblk m c 11 t) (ix2 bb n)
      = Gk m c (Cert.KernelArrays.rowOf t bb) n := by
  refine (Cert.KerBody.out_eq (Cert.KernelIdeal.Gen.iblk m c 0 t) (Cert.KernelIdeal.Gen.iblk m c 1 t) (Cert.KernelIdeal.Gen.iblk m c 2 t) (Cert.KernelIdeal.Gen.iblk m c 3 t) (Cert.KernelIdeal.Gen.iblk m c 4 t) (Cert.KernelIdeal.Gen.iblk m c 5 t) (Cert.KernelIdeal.Gen.iblk m c 6 t) (Cert.KernelIdeal.Gen.iblk m c 7 t) (Cert.KernelIdeal.Gen.iblk m c 8 t) (Cert.KernelIdeal.Gen.iblk m c 9 t) (Cert.KernelIdeal.Gen.iblk m c 10 t) (Cert.KernelIdeal.Gen.iblk m c 11 t)
    (m ((c.tc : Thread Cert.KernelIdeal.nD Cert.KernelIdeal.τ).loc Cert.KernelIdeal.main_arg0)) (m ((c.tc : Thread Cert.KernelIdeal.nD Cert.KernelIdeal.τ).loc Cert.KernelIdeal.main_arg4))
    (fun j q => (congrFun (Cert.KernelArrays.iblk1_eq m c t) _).trans (Cert.KernelArrays.V_main_v8_apply m c j q))
    (fun j q => (congrFun (Cert.KernelArrays.iblk2_eq m c t) _).trans (Cert.KernelArrays.V_main_v9_apply m c j q))
    (fun j q => (congrFun (Cert.KernelArrays.iblk6_eq m c t) _).trans (Cert.KernelArrays.V_main_v10_apply m c j q))
    bb n).trans ?_
  unfold Gk netOf
  refine logits_congr ?_ rfl ?_ ?_ ?_ rfl ?_ ?_ ?_ ?_ ?_ n
  · funext d h l
    have hl := l.isLt
    refine (Cert.KernelArrays.iblk0_arg m c t d h bb _).trans (congrArg _ ?_)
    funext a
    apply Fin.ext
    match a with
    | ⟨0, _⟩ => rfl
    | ⟨1, _⟩ => show (l.val % 3 * 14 + l.val / 3) / 14 = l.val % 3; omega
    | ⟨2, _⟩ => rfl
    | ⟨3, _⟩ => rfl
    | ⟨4, _⟩ => show (l.val % 3 * 14 + l.val / 3) % 14 = l.val / 3; omega
  · funext q; exact congrFun (Cert.KernelArrays.iblk3_arg m c t) _
  · funext k q; exact congrFun (Cert.KernelArrays.iblk4_arg m c t) _
  · funext q; exact congrFun (Cert.KernelArrays.iblk5_arg m c t) _
  · funext q; exact congrFun (Cert.KernelArrays.iblk7_arg m c t) _
  · funext q; exact congrFun (Cert.KernelArrays.iblk8_arg m c t) _
  · funext q; exact congrFun (Cert.KernelArrays.iblk9_arg m c t) _
  · funext k q; exact congrFun (Cert.KernelArrays.iblk10_arg m c t) _
  · funext q; exact congrFun (Cert.KernelArrays.iblk11_arg m c t) _

/-- What the reference's body leaves at lane n of the output block at grid point t is the network of image t. -/
theorem body_reference (m' : (ℓ : Loc Cert.ReferenceIdeal.nD Cert.ReferenceIdeal.τ Cert.ReferenceIdeal.sig) → Buf (Elt Ideal) ℓ) (c : Dev Cert.ReferenceIdeal.nD) (t : Fin Cert.ReferenceIdeal.cfg0.N) (n : Fin 128) :
    Cert.ReferenceIdeal.Gen.out0_11 (Cert.ReferenceIdeal.Gen.iblk m' c 0 t) (Cert.ReferenceIdeal.Gen.iblk m' c 1 t) (Cert.ReferenceIdeal.Gen.iblk m' c 2 t) (Cert.ReferenceIdeal.Gen.iblk m' c 3 t) (Cert.ReferenceIdeal.Gen.iblk m' c 4 t) (Cert.ReferenceIdeal.Gen.iblk m' c 5 t) (Cert.ReferenceIdeal.Gen.iblk m' c 6 t) (Cert.ReferenceIdeal.Gen.iblk m' c 7 t) (Cert.ReferenceIdeal.Gen.iblk m' c 8 t) (Cert.ReferenceIdeal.Gen.iblk m' c 9 t) (Cert.ReferenceIdeal.Gen.iblk m' c 10 t) (ix3 (0 : Fin 1) (0 : Fin 1) n)
      = Gr m' c (Cert.RefArrays.imgOf t) n := by
  refine (Cert.RefBody.out_eq (Cert.ReferenceIdeal.Gen.iblk m' c 0 t) (Cert.ReferenceIdeal.Gen.iblk m' c 1 t) (Cert.ReferenceIdeal.Gen.iblk m' c 2 t) (Cert.ReferenceIdeal.Gen.iblk m' c 3 t) (Cert.ReferenceIdeal.Gen.iblk m' c 4 t) (Cert.ReferenceIdeal.Gen.iblk m' c 5 t) (Cert.ReferenceIdeal.Gen.iblk m' c 6 t) (Cert.ReferenceIdeal.Gen.iblk m' c 7 t) (Cert.ReferenceIdeal.Gen.iblk m' c 8 t) (Cert.ReferenceIdeal.Gen.iblk m' c 9 t) (Cert.ReferenceIdeal.Gen.iblk m' c 10 t) n).trans ?_
  unfold Gr netOf
  refine logits_congr ?_ ?_ ?_ ?_ ?_ ?_ ?_ ?_ ?_ ?_ ?_ n
  · funext d h l; exact Cert.RefArrays.iblk0_arg m' c t d h l
  · funext k q; exact congrFun (Cert.RefArrays.iblk1_arg m' c t) _
  · funext q; exact congrFun (Cert.RefArrays.iblk2_arg m' c t) _
  · funext k q; exact congrFun (Cert.RefArrays.iblk3_arg m' c t) _
  · funext q; exact congrFun (Cert.RefArrays.iblk4_arg m' c t) _
  · funext r k q; exact congrFun (Cert.RefArrays.iblk5_arg m' c t) _
  · funext q; exact congrFun (Cert.RefArrays.iblk6_arg m' c t) _
  · funext q; exact congrFun (Cert.RefArrays.iblk7_arg m' c t) _
  · funext q; exact congrFun (Cert.RefArrays.iblk8_arg m' c t) _
  · funext k q; exact congrFun (Cert.RefArrays.iblk9_arg m' c t) _
  · funext q; exact congrFun (Cert.RefArrays.iblk10_arg m' c t) _

/-- Both idealized programs run, leave their arguments unchanged, and end with the same result: the network of Spec.lean
    of each image, its first ten lanes. -/
theorem algebraic : Cert.algebraic_KernelIdeal_ReferenceIdeal := by
  intro m ρ m' ρ' _ hagree
  refine ⟨fun c => resOf (Gk m c), Cert.KernelArrays.run_of_body m ρ (Gk m) (body_kernel m), ?_⟩
  refine (θ_run Cert.ReferenceIdeal.defs _ _).mono (fun _ h c => ⟨(h c).1.trans (congrArg resOf ?_), (h c).2⟩)
    (Cert.RefArrays.run_of_body m' ρ' (Gr m') (body_reference m'))
  obtain ⟨h0, h1, h2, h3, h4, h5, h6, h7, h8, h9, h10⟩ := hagree c
  exact netOf_congr h10 h0 h1 h2 h3 h4 h5 h6 h7 h8 h9

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
